-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S16x2048 : Shape := ⟨2, ![16, 2048]⟩
abbrev S2048 : Shape := ⟨1, ![2048]⟩
abbrev S16x2048x256 : Shape := ⟨3, ![16, 2048, 256]⟩
abbrev S16x256 : Shape := ⟨2, ![16, 256]⟩
abbrev S16x256x128 : Shape := ⟨3, ![16, 256, 128]⟩
abbrev S16x128 : Shape := ⟨2, ![16, 128]⟩
abbrev S2048x512 : Shape := ⟨2, ![2048, 512]⟩
abbrev S512 : Shape := ⟨1, ![512]⟩
abbrev S512x128 : Shape := ⟨2, ![512, 128]⟩
abbrev S128 : Shape := ⟨1, ![128]⟩
abbrev S1024x128 : Shape := ⟨2, ![1024, 128]⟩
abbrev S128x200 : Shape := ⟨2, ![128, 200]⟩
abbrev S200 : Shape := ⟨1, ![200]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S2048 : S_.BroadcastsInDim S2048 (![] : Fin 0 → Fin S2048.rank)
  reducesTo_S2048_S_d0 : S2048.ReducesTo [0] S_
  bcast_S_S16x2048x256 : S_.BroadcastsInDim S16x2048x256 (![] : Fin 0 → Fin S16x2048x256.rank)
  reducesTo_S16x2048x256_S_d0_1_2 : S16x2048x256.ReducesTo [0, 1, 2] S_
  bcast_S_S16x256 : S_.BroadcastsInDim S16x256 (![] : Fin 0 → Fin S16x256.rank)
  reducesTo_S16x256_S_d0_1 : S16x256.ReducesTo [0, 1] S_
  bcast_S_S16x256x128 : S_.BroadcastsInDim S16x256x128 (![] : Fin 0 → Fin S16x256x128.rank)
  reducesTo_S16x256x128_S_d0_1_2 : S16x256x128.ReducesTo [0, 1, 2] S_
  bcast_S_S16x128 : S_.BroadcastsInDim S16x128 (![] : Fin 0 → Fin S16x128.rank)
  reducesTo_S16x128_S_d0_1 : S16x128.ReducesTo [0, 1] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S1024x128 : S_.BroadcastsInDim S1024x128 (![] : Fin 0 → Fin S1024x128.rank)
  reducesTo_S1024x128_S_d0_1 : S1024x128.ReducesTo [0, 1] S_
  bcast_S_S128x200 : S_.BroadcastsInDim S128x200 (![] : Fin 0 → Fin S128x200.rank)
  reducesTo_S128x200_S_d0_1 : S128x200.ReducesTo [0, 1] S_
  bcast_S_S200 : S_.BroadcastsInDim S200 (![] : Fin 0 → Fin S200.rank)
  reducesTo_S200_S_d0 : S200.ReducesTo [0] S_

variable [Facts]

def fn_part4 {F : FTy → Type} [FloatOps F] (main_arg14 : FVec F S200 .f32) (main_v63 : IVec S_ 1) (main_v67 : IVec S_ 1) : IVec S_ 1 :=
  let main_v68 : IVec S_ 1 := andi main_v63 main_v67
  let main_v69 : FVec F S200 .f32 := Host.absf main_arg14
  let main_cst_26 : FVec F S_ .f32 := constant S_ .f32 0x7F800000#32
  let main_v70 : FVec F S200 .f32 := broadcastInDim S200 ![] bcast_S_S200 main_cst_26
  let main_v71 : IVec S200 1 := cmpf .olt main_v69 main_v70
  let main_c_27 : IVec S_ 1 := constantI S_ 1 1#1
  let main_v72 : IVec S_ 1 := (fun x v => Host.reduce IntOp.andi x v reducesTo_S200_S_d0 h_S_) main_v71 main_c_27
  let main_v73 : IVec S_ 1 := andi main_v68 main_v72
  main_v73

def fn_part3 {F : FTy → Type} [FloatOps F] (main_arg11 : FVec F S1024x128 .f32) (main_arg12 : FVec F S128 .f32) (main_arg13 : FVec F S128x200 .f32) (main_arg14 : FVec F S200 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S1024x128 .f32 := Host.absf main_arg11
  let main_cst_20 : FVec F S_ .f32 := constant S_ .f32 0x7F800000#32
  let main_v55 : FVec F S1024x128 .f32 := broadcastInDim S1024x128 ![] bcast_S_S1024x128 main_cst_20
  let main_v56 : IVec S1024x128 1 := cmpf .olt main_v54 main_v55
  let main_c_21 : IVec S_ 1 := constantI S_ 1 1#1
  let main_v57 : IVec S_ 1 := (fun x v => Host.reduce IntOp.andi x v reducesTo_S1024x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x200 .f32 := Host.absf main_arg13
  let main_cst_24 : FVec F S_ .f32 := constant S_ .f32 0x7F800000#32
  let main_v65 : FVec F S128x200 .f32 := broadcastInDim S128x200 ![] bcast_S_S128x200 main_cst_24
  let main_v66 : IVec S128x200 1 := cmpf .olt main_v64 main_v65
  let main_c_25 : IVec S_ 1 := constantI S_ 1 1#1
  let main_v67 : IVec S_ 1 := (fun x v => Host.reduce IntOp.andi x v reducesTo_S128x200_S_d0_1 h_S_) main_v66 main_c_25
  fn_part4 (F := F) main_arg14 main_v63 main_v67

def fn_part2 {F : FTy → Type} [FloatOps F] (main_arg7 : FVec F S2048x512 .f32) (main_arg8 : FVec F S512 .f32) (main_arg9 : FVec F S512x128 .f32) (main_arg10 : FVec F S128 .f32) (main_arg11 : FVec F S1024x128 .f32) (main_arg12 : FVec F S128 .f32) (main_arg13 : FVec F S128x200 .f32) (main_arg14 : FVec F S200 .f32) (main_v33 : IVec S_ 1) : IVec S_ 1 :=
  let main_v34 : FVec F S2048x512 .f32 := Host.absf main_arg7
  let main_cst_12 : FVec F S_ .f32 := constant S_ .f32 0x7F800000#32
  let main_v35 : FVec F S2048x512 .f32 := broadcastInDim S2048x512 ![] bcast_S_S2048x512 main_cst_12
  let main_v36 : IVec S2048x512 1 := cmpf .olt main_v34 main_v35
  let main_c_13 : IVec S_ 1 := constantI S_ 1 1#1
  let main_v37 : IVec S_ 1 := (fun x v => Host.reduce IntOp.andi x v reducesTo_S2048x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x128 .f32 := Host.absf main_arg9
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S16x256 .f32) (main_arg5 : FVec F S16x256x128 .f32) (main_arg6 : FVec F S16x128 .f32) (main_arg7 : FVec F S2048x512 .f32) (main_arg8 : FVec F S512 .f32) (main_arg9 : FVec F S512x128 .f32) (main_arg10 : FVec F S128 .f32) (main_arg11 : FVec F S1024x128 .f32) (main_arg12 : FVec F S128 .f32) (main_arg13 : FVec F S128x200 .f32) (main_arg14 : FVec F S200 .f32) (main_v13 : IVec S_ 1) (main_v16 : IVec S16x2048x256 1) : IVec S_ 1 :=
  let main_c_5 : IVec S_ 1 := constantI S_ 1 1#1
  let main_v17 : IVec S_ 1 := (fun x v => Host.reduce IntOp.andi x v reducesTo_S16x2048x256_S_d0_1_2 h_S_) main_v16 main_c_5
  let main_v18 : IVec S_ 1 := andi main_v13 main_v17
  let main_v19 : FVec F S16x256 .f32 := Host.absf main_arg4
  let main_cst_6 : FVec F S_ .f32 := constant S_ .f32 0x7F800000#32
  let main_v20 : FVec F S16x256 .f32 := broadcastInDim S16x256 ![] bcast_S_S16x256 main_cst_6
  let main_v21 : IVec S16x256 1 := cmpf .olt main_v19 main_v20
  let main_c_7 : IVec S_ 1 := constantI S_ 1 1#1
  let main_v22 : IVec S_ 1 := (fun x v => Host.reduce IntOp.andi x v reducesTo_S16x256_S_d0_1 h_S_) main_v21 main_c_7
  let main_v23 : IVec S_ 1 := andi main_v18 main_v22
  let main_v24 : FVec F S16x256x128 .f32 := Host.absf main_arg5
  let main_cst_8 : FVec F S_ .f32 := constant S_ .f32 0x7F800000#32
  let main_v25 : FVec F S16x256x128 .f32 := broadcastInDim S16x256x128 ![] bcast_S_S16x256x128 main_cst_8
  let main_v26 : IVec S16x256x128 1 := cmpf .olt main_v24 main_v25
  let main_c_9 : IVec S_ 1 := constantI S_ 1 1#1
  let main_v27 : IVec S_ 1 := (fun x v => Host.reduce IntOp.andi x v reducesTo_S16x256x128_S_d0_1_2 h_S_) main_v26 main_c_9
  let main_v28 : IVec S_ 1 := andi main_v23 main_v27
  let main_v29 : FVec F S16x128 .f32 := Host.absf main_arg6
  let main_cst_10 : FVec F S_ .f32 := constant S_ .f32 0x7F800000#32
  let main_v30 : FVec F S16x128 .f32 := broadcastInDim S16x128 ![] bcast_S_S16x128 main_cst_10
  let main_v31 : IVec S16x128 1 := cmpf .olt main_v29 main_v30
  let main_c_11 : IVec S_ 1 := constantI S_ 1 1#1
  let main_v32 : IVec S_ 1 := (fun x v => Host.reduce IntOp.andi x v reducesTo_S16x128_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x2048 .f32) (main_arg1 : FVec F S16x2048 .f32) (main_arg2 : FVec F S2048 .f32) (main_arg3 : FVec F S16x2048x256 .f32) (main_arg4 : FVec F S16x256 .f32) (main_arg5 : FVec F S16x256x128 .f32) (main_arg6 : FVec F S16x128 .f32) (main_arg7 : FVec F S2048x512 .f32) (main_arg8 : FVec F S512 .f32) (main_arg9 : FVec F S512x128 .f32) (main_arg10 : FVec F S128 .f32) (main_arg11 : FVec F S1024x128 .f32) (main_arg12 : FVec F S128 .f32) (main_arg13 : FVec F S128x200 .f32) (main_arg14 : FVec F S200 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S16x2048x256 .f32 := Host.absf main_arg3
  let main_cst_4 : FVec F S_ .f32 := constant S_ .f32 0x7F800000#32
  let main_v15 : FVec F S16x2048x256 .f32 := broadcastInDim S16x2048x256 ![] bcast_S_S16x2048x256 main_cst_4
  let main_v16 : IVec S16x2048x256 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x2048 : Shape := ⟨2, ![4096, 2048]⟩
abbrev S16x2048 : Shape := ⟨2, ![16, 2048]⟩
abbrev S2048 : Shape := ⟨1, ![2048]⟩
abbrev S16x2048x256 : Shape := ⟨3, ![16, 2048, 256]⟩
abbrev S16x256 : Shape := ⟨2, ![16, 256]⟩
abbrev S16x256x128 : Shape := ⟨3, ![16, 256, 128]⟩
abbrev S16x128 : Shape := ⟨2, ![16, 128]⟩
abbrev S2048x512 : Shape := ⟨2, ![2048, 512]⟩
abbrev S512 : Shape := ⟨1, ![512]⟩
abbrev S512x128 : Shape := ⟨2, ![512, 128]⟩
abbrev S128 : Shape := ⟨1, ![128]⟩
abbrev S1024x128 : Shape := ⟨2, ![1024, 128]⟩
abbrev S128x200 : Shape := ⟨2, ![128, 200]⟩
abbrev S200 : Shape := ⟨1, ![200]⟩
abbrev S16x64x128 : Shape := ⟨3, ![16, 64, 128]⟩
abbrev S_ : Shape := ⟨0, ![]⟩
abbrev S16x128x128 : Shape := ⟨3, ![16, 128, 128]⟩
abbrev S128x256 : Shape := ⟨2, ![128, 256]⟩
abbrev S256 : Shape := ⟨1, ![256]⟩
abbrev S4096x256 : Shape := ⟨2, ![4096, 256]⟩
abbrev S256x2048 : Shape := ⟨2, ![256, 2048]⟩
abbrev S256x256 : Shape := ⟨2, ![256, 256]⟩
abbrev S256x128 : Shape := ⟨2, ![256, 128]⟩
abbrev S1x2048 : Shape := ⟨2, ![1, 2048]⟩
abbrev S1x2048x256 : Shape := ⟨3, ![1, 2048, 256]⟩
abbrev S2048x256 : Shape := ⟨2, ![2048, 256]⟩
abbrev S1x256 : Shape := ⟨2, ![1, 256]⟩
abbrev S1x256x128 : Shape := ⟨3, ![1, 256, 128]⟩
abbrev S1x128 : Shape := ⟨2, ![1, 128]⟩
abbrev S256x512 : Shape := ⟨2, ![256, 512]⟩
abbrev S1x512 : Shape := ⟨2, ![1, 512]⟩
abbrev S16x256x1 : Shape := ⟨3, ![16, 256, 1]⟩
abbrev S1x128x128 : Shape := ⟨3, ![1, 128, 128]⟩
abbrev S128x128 : Shape := ⟨2, ![128, 128]⟩
abbrev S4096x200 : Shape := ⟨2, ![4096, 200]⟩

abbrev nBuf : Space → Nat
  | .hbm => 33
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S16x2048, .f32⟩
  | .hbm, ⟨2, _⟩ => ⟨S2048, .f32⟩
  | .hbm, ⟨3, _⟩ => ⟨S16x2048x256, .f32⟩
  | .hbm, ⟨4, _⟩ => ⟨S16x256, .f32⟩
  | .hbm, ⟨5, _⟩ => ⟨S16x256x128, .f32⟩
  | .hbm, ⟨6, _⟩ => ⟨S16x128, .f32⟩
  | .hbm, ⟨7, _⟩ => ⟨S2048x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S1024x128, .f32⟩
  | .hbm, ⟨12, _⟩ => ⟨S128, .f32⟩
  | .hbm, ⟨13, _⟩ => ⟨S128x200, .f32⟩
  | .hbm, ⟨14, _⟩ => ⟨S200, .f32⟩
  | .hbm, ⟨15, _⟩ => ⟨S16x2048x256, .bf16⟩
  | .hbm, ⟨16, _⟩ => ⟨S16x256x128, .bf16⟩
  | .hbm, ⟨17, _⟩ => ⟨S2048x512, .bf16⟩
  | .hbm, ⟨18, _⟩ => ⟨S512x128, .bf16⟩
  | .hbm, ⟨19, _⟩ => ⟨S16x64x128, .f32⟩
  | .hbm, ⟨20, _⟩ => ⟨S_, .i32⟩
  | .hbm, ⟨21, _⟩ => ⟨S_, .f32⟩
  | .hbm, ⟨22, _⟩ => ⟨S16x128x128, .f32⟩
  | .hbm, ⟨23, _⟩ => ⟨S16x128x128, .bf16⟩
  | .hbm, ⟨24, _⟩ => ⟨S_, .i32⟩
  | .hbm, ⟨25, _⟩ => ⟨S_, .f32⟩
  | .hbm, ⟨26, _⟩ => ⟨S128x256, .f32⟩
  | .hbm, ⟨27, _⟩ => ⟨S128x256, .bf16⟩
  | .hbm, ⟨28, _⟩ => ⟨S_, .i32⟩
  | .hbm, ⟨29, _⟩ => ⟨S_, .f32⟩
  | .hbm, ⟨30, _⟩ => ⟨S256, .f32⟩
  | .hbm, ⟨31, _⟩ => ⟨S4096x256, .f32⟩
  | .hbm, ⟨32, _⟩ => ⟨S4096x200, .f32⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S2048, .f32⟩
  | .local _ .vmem, ⟨4, _⟩ => ⟨S16x2048x256, .bf16⟩
  | .local _ .vmem, ⟨5, _⟩ => ⟨S16x256, .f32⟩
  | .local _ .vmem, ⟨6, _⟩ => ⟨S16x256x128, .bf16⟩
  | .local _ .vmem, ⟨7, _⟩ => ⟨S16x128, .f32⟩
  | .local _ .vmem, ⟨8, _⟩ => ⟨S2048x512, .bf16⟩
  | .local _ .vmem, ⟨9, _⟩ => ⟨S512, .f32⟩
  | .local _ .vmem, ⟨10, _⟩ => ⟨S512x128, .bf16⟩
  | .local _ .vmem, ⟨11, _⟩ => ⟨S128, .f32⟩
  | .local _ .vmem, ⟨12, _⟩ => ⟨S16x128x128, .bf16⟩
  | .local _ .vmem, ⟨13, _⟩ => ⟨S128, .f32⟩
  | .local _ .vmem, ⟨14, _⟩ => ⟨S128x256, .bf16⟩
  | .local _ .vmem, ⟨15, _⟩ => ⟨S256, .f32⟩
  | .local _ .vmem, ⟨16, _⟩ => ⟨S256x256, .f32⟩
  | .local _ .vmem, ⟨17, _⟩ => ⟨S256x256, .f32⟩
  | .local _ .vmem, ⟨18, _⟩ => ⟨S16x256x128, .f32⟩
  | .local _ .vmem, ⟨19, _⟩ => ⟨S16x256x128, .f32⟩
  | .local _ .vmem, ⟨20, _⟩ => ⟨S256x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_call1_v0 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_call2_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_off1 (k0_t1 : Fin k0_t1_loop.trips) : Fin 2 → Nat :=
  let c0_i32_33 : BitVec 32 := 0#32
  let c0_i32 : BitVec 32 := 0#32
  let c1_i32 : BitVec 32 := 1#32
  let arg20 : BitVec 32 := Scf.iv c0_i32 c1_i32 k0_t1
  let c1_i32_32 : BitVec 32 := 1#32
  let v50 : BitVec 32 := Scalar.muli arg20 c1_i32_32
  let v51 : BitVec 32 := Scalar.addi c0_i32_33 v50
  let v52 : Index := Scalar.indexCast v51
  let c0_34 : Index := 0#32
  ![v52.toNat, 0]
def k0_off2 (k0_t1 : Fin k0_t1_loop.trips) : Fin 3 → Nat :=
  let c0_i32_33 : BitVec 32 := 0#32
  let c0_i32 : BitVec 32 := 0#32
  let c1_i32 : BitVec 32 := 1#32
  let arg20 : BitVec 32 := Scf.iv c0_i32 c1_i32 k0_t1
  let c1_i32_32 : BitVec 32 := 1#32
  let v50 : BitVec 32 := Scalar.muli arg20 c1_i32_32
  let v51 : BitVec 32 := Scalar.addi c0_i32_33 v50
  let v67 : Index := Scalar.indexCast v51
  let c0_36 : Index := 0#32
  let c0_37 : Index := 0#32
  ![v67.toNat, 0, 0]
def k0_off3 (k0_t1 : Fin k0_t1_loop.trips) : Fin 2 → Nat :=
  let c0_i32_33 : BitVec 32 := 0#32
  let c0_i32 : BitVec 32 := 0#32
  let c1_i32 : BitVec 32 := 1#32
  let arg20 : BitVec 32 := Scf.iv c0_i32 c1_i32 k0_t1
  let c1_i32_32 : BitVec 32 := 1#32
  let v50 : BitVec 32 := Scalar.muli arg20 c1_i32_32
  let v51 : BitVec 32 := Scalar.addi c0_i32_33 v50
  let v70 : Index := Scalar.indexCast v51
  let c0_38 : Index := 0#32
  ![v70.toNat, 0]
def k0_off4 (k0_t1 : Fin k0_t1_loop.trips) : Fin 3 → Nat :=
  let c0_i32_33 : BitVec 32 := 0#32
  let c0_i32 : BitVec 32 := 0#32
  let c1_i32 : BitVec 32 := 1#32
  let arg20 : BitVec 32 := Scf.iv c0_i32 c1_i32 k0_t1
  let c1_i32_32 : BitVec 32 := 1#32
  let v50 : BitVec 32 := Scalar.muli arg20 c1_i32_32
  let v51 : BitVec 32 := Scalar.addi c0_i32_33 v50
  let v80 : Index := Scalar.indexCast v51
  let c0_41 : Index := 0#32
  let c0_42 : Index := 0#32
  ![v80.toNat, 0, 0]
def k0_off5 (k0_t1 : Fin k0_t1_loop.trips) : Fin 2 → Nat :=
  let c0_i32_33 : BitVec 32 := 0#32
  let c0_i32 : BitVec 32 := 0#32
  let c1_i32 : BitVec 32 := 1#32
  let arg20 : BitVec 32 := Scf.iv c0_i32 c1_i32 k0_t1
  let c1_i32_32 : BitVec 32 := 1#32
  let v50 : BitVec 32 := Scalar.muli arg20 c1_i32_32
  let v51 : BitVec 32 := Scalar.addi c0_i32_33 v50
  let v83 : Index := Scalar.indexCast v51
  let c0_43 : Index := 0#32
  ![v83.toNat, 0]
@[reducible] def k0_t2_loop : Scf.Loop 32 :=
  let c0_i32_18 : BitVec 32 := 0#32
  let c16_i32_19 : BitVec 32 := 16#32
  let v32 : BitVec 32 := Scalar.addi c0_i32_18 c16_i32_19
  let c1_i32_20 : BitVec 32 := 1#32
  ⟨c0_i32_18, v32, c1_i32_20⟩
def k0_off6 (k0_t2 : Fin k0_t2_loop.trips) : Fin 3 → Nat :=
  let c0_i32_33 : BitVec 32 := 0#32
  let c0_i32_18 : BitVec 32 := 0#32
  let c1_i32_20 : BitVec 32 := 1#32
  let arg20 : BitVec 32 := Scf.iv c0_i32_18 c1_i32_20 k0_t2
  let c1_i32_32 : BitVec 32 := 1#32
  let v50 : BitVec 32 := Scalar.muli arg20 c1_i32_32
  let v51 : BitVec 32 := Scalar.addi c0_i32_33 v50
  let v52 : Index := Scalar.indexCast v51
  let c0_34 : Index := 0#32
  let c0_35 : Index := 0#32
  ![v52.toNat, 0, 0]
def k0_off7 (k0_t2 : Fin k0_t2_loop.trips) : Fin 3 → Nat :=
  let c0_i32_33 : BitVec 32 := 0#32
  let c0_i32_18 : BitVec 32 := 0#32
  let c1_i32_20 : BitVec 32 := 1#32
  let arg20 : BitVec 32 := Scf.iv c0_i32_18 c1_i32_20 k0_t2
  let c1_i32_32 : BitVec 32 := 1#32
  let v50 : BitVec 32 := Scalar.muli arg20 c1_i32_32
  let v51 : BitVec 32 := Scalar.addi c0_i32_33 v50
  let v56 : Index := Scalar.indexCast v51
  let c0_36 : Index := 0#32
  let c0_37 : Index := 0#32
  ![v56.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  bitsLt_bf16_f32 : FTy.bits .bf16 < FTy.bits .f32
  shapeCasts_S1024x128_S16x64x128 : S1024x128.ShapeCasts S16x64x128
  pads_S16x64x128_S16x128x128_000_0640_000 : S16x64x128.Pads (![0, 0, 0] : Fin 3 → Nat) ![0, 64, 0] ![0, 0, 0] S16x128x128
  h_S_ : 0 < S_.numel
  pads_S128x200_S128x256_000_0560 : S128x200.Pads (![0, 0] : Fin 2 → Nat) ![0, 56] ![0, 0] S128x256
  pads_S200_S256_0560 : S200.Pads (![0] : Fin 1 → Nat) ![56] ![0] S256
  inb_S256x2048_S256x2048_0_0 : ∀ a, (![0, 0] : Fin 2 → Nat) a + S256x2048.size a ≤ S256x2048.size a
  h_S256x2048 : 0 < S256x2048.numel
  inb_S2048_S2048_0 : ∀ a, (![0] : Fin 1 → Nat) a + S2048.size a ≤ S2048.size a
  h_S2048 : 0 < S2048.numel
  h_S1x2048 : 0 < S1x2048.numel
  shapeCasts_S1x2048_S2048 : S1x2048.ShapeCasts S2048
  shapeCasts_S2048_S1x2048 : S2048.ShapeCasts S1x2048
  broadcasts_S1x2048_S256x2048 : S1x2048.Broadcasts S256x2048
  h_S1x2048x256 : 0 < S1x2048x256.numel
  shapeCasts_S1x2048x256_S2048x256 : S1x2048x256.ShapeCasts S2048x256
  h_S1x256 : 0 < S1x256.numel
  shapeCasts_S1x256_S256 : S1x256.ShapeCasts S256
  shapeCasts_S256_S1x256 : S256.ShapeCasts S1x256
  broadcasts_S1x256_S256x256 : S1x256.Broadcasts S256x256
  h_S1x256x128 : 0 < S1x256x128.numel
  shapeCasts_S1x256x128_S256x128 : S1x256x128.ShapeCasts S256x128
  h_S1x128 : 0 < S1x128.numel
  shapeCasts_S1x128_S128 : S1x128.ShapeCasts S128
  shapeCasts_S128_S1x128 : S128.ShapeCasts S1x128
  broadcasts_S1x128_S256x128 : S1x128.Broadcasts S256x128
  shapeCasts_S256x128_S1x256x128 : S256x128.ShapeCasts S1x256x128
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  inb_S16x256x128_S16x256x128_0_0_0 : ∀ a, (![0, 0, 0] : Fin 3 → Nat) a + S16x256x128.size a ≤ S16x256x128.size a
  h_S16x256x128 : 0 < S16x256x128.numel
  reduces_S16x256x128_S256x128 : S16x256x128.Reduces [0] S256x128
  broadcasts_S1x256x128_S16x256x128 : S1x256x128.Broadcasts S16x256x128
  reduces_S16x256x128_S16x256 : S16x256x128.Reduces [2] S16x256
  shapeCasts_S16x256_S16x256x1 : S16x256.ShapeCasts S16x256x1
  rotates_S16x256x128_d2 : S16x256x128.Rotates 2 none
  broadcasts_S16x256x1_S16x256x128 : S16x256x1.Broadcasts S16x256x128
  shapeCasts_S16x256x128_S16x256x128 : S16x256x128.ShapeCasts S16x256x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  h_S1x128x128 : 0 < S1x128x128.numel
  shapeCasts_S1x128x128_S128x128 : S1x128x128.ShapeCasts S128x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S256 : S256.ShapeCasts S256
  inb_S256x256_S256x256_0_0 : ∀ a, (![0, 0] : Fin 2 → Nat) a + S256x256.size a ≤ S256x256.size a
  h_S256x256 : 0 < S256x256.numel
  slices_S4096x256_S4096x200_0_0 : S4096x256.Slices ![0, 0] S4096x200
  dot_S256x2048_S2048x256_S256x256_1_0_0_1_n_n_wf : DotDims.WF S256x2048 S2048x256 S256x256 [1] [0] [0] [1] [] []
  dot_S256x256_S256x128_S256x128_1_0_0_1_n_n_wf : DotDims.WF S256x256 S256x128 S256x128 [1] [0] [0] [1] [] []
  dot_S256x2048_S2048x512_S256x512_1_0_0_1_n_n_wf : DotDims.WF S256x2048 S2048x512 S256x512 [1] [0] [0] [1] [] []
  dot_S256x512_S512x128_S256x128_1_0_0_1_n_n_wf : DotDims.WF S256x512 S512x128 S256x128 [1] [0] [0] [1] [] []
  dot_S256x128_S128x128_S256x128_1_0_0_1_n_n_wf : DotDims.WF S256x128 S128x128 S256x128 [1] [0] [0] [1] [] []
  dot_S256x128_S128x256_S256x256_1_0_0_1_n_n_wf : DotDims.WF S256x128 S128x256 S256x256 [1] [0] [0] [1] [] []
  hrank0 : 0 < grid0.rank
  k0_t1_ok : k0_t1_loop.OK
  k0_off1_inb : ∀ k0_t1 : Fin k0_t1_loop.trips, ∀ a, (k0_off1 k0_t1) a + S1x2048.size a ≤ S16x2048.size a
  k0_off2_inb : ∀ k0_t1 : Fin k0_t1_loop.trips, ∀ a, (k0_off2 k0_t1) a + S1x2048x256.size a ≤ S16x2048x256.size a
  k0_off3_inb : ∀ k0_t1 : Fin k0_t1_loop.trips, ∀ a, (k0_off3 k0_t1) a + S1x256.size a ≤ S16x256.size a
  k0_off4_inb : ∀ k0_t1 : Fin k0_t1_loop.trips, ∀ a, (k0_off4 k0_t1) a + S1x256x128.size a ≤ S16x256x128.size a
  k0_off5_inb : ∀ k0_t1 : Fin k0_t1_loop.trips, ∀ a, (k0_off5 k0_t1) a + S1x128.size a ≤ S16x128.size a
  k0_t2_ok : k0_t2_loop.OK
  k0_off6_inb : ∀ k0_t2 : Fin k0_t2_loop.trips, ∀ a, (k0_off6 k0_t2) a + S1x256x128.size a ≤ S16x256x128.size a
  k0_off7_inb : ∀ k0_t2 : Fin k0_t2_loop.trips, ∀ a, (k0_off7 k0_t2) a + S1x128x128.size a ≤ S16x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x2048.size a ≤ S16x2048.size a
  hwx0_1 : ∀ i : grid0.Coords, EltTy.bits .f32 = 32 ∨ (Rect.block (s := S16x2048) S16x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x2048x256.size a ≤ S16x2048x256.size a
  hwx0_3 : ∀ i : grid0.Coords, EltTy.bits .bf16 = 32 ∨ (Rect.block (s := S16x2048x256) S16x2048x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S16x256.size a
  hwx0_4 : ∀ i : grid0.Coords, EltTy.bits .f32 = 32 ∨ (Rect.block (s := S16x256) S16x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x256x128.size a ≤ S16x256x128.size a
  hwx0_5 : ∀ i : grid0.Coords, EltTy.bits .bf16 = 32 ∨ (Rect.block (s := S16x256x128) S16x256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S16x128.size a
  hwx0_6 : ∀ i : grid0.Coords, EltTy.bits .f32 = 32 ∨ (Rect.block (s := S16x128) S16x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S2048x512.size a
  hwx0_7 : ∀ i : grid0.Coords, EltTy.bits .bf16 = 32 ∨ (Rect.block (s := S2048x512) S2048x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x128.size a ≤ S512x128.size a
  hwx0_9 : ∀ i : grid0.Coords, EltTy.bits .bf16 = 32 ∨ (Rect.block (s := S512x128) S512x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16x128x128.size a ≤ S16x128x128.size a
  hwx0_11 : ∀ i : grid0.Coords, EltTy.bits .bf16 = 32 ∨ (Rect.block (s := S16x128x128) S16x128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x256.size a ≤ S128x256.size a
  hwx0_13 : ∀ i : grid0.Coords, EltTy.bits .bf16 = 32 ∨ (Rect.block (s := S128x256) S128x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S4096x256.size a
  hwx0_15 : ∀ i : grid0.Coords, EltTy.bits .f32 = 32 ∨ (Rect.block (s := S4096x256) S256x256.size (cc0_transform_15 i) (hinb0_15 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16x2048x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S16x256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S2048x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S512x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S16x128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S128x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v10) S256x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S16x2048 : Shape := ⟨2, ![16, 2048]⟩
abbrev S2048 : Shape := ⟨1, ![2048]⟩
abbrev S16x2048x256 : Shape := ⟨3, ![16, 2048, 256]⟩
abbrev S16x256 : Shape := ⟨2, ![16, 256]⟩
abbrev S16x256x128 : Shape := ⟨3, ![16, 256, 128]⟩
abbrev S16x128 : Shape := ⟨2, ![16, 128]⟩
abbrev S2048x512 : Shape := ⟨2, ![2048, 512]⟩
abbrev S512 : Shape := ⟨1, ![512]⟩
abbrev S512x128 : Shape := ⟨2, ![512, 128]⟩
abbrev S128 : Shape := ⟨1, ![128]⟩
abbrev S1024x128 : Shape := ⟨2, ![1024, 128]⟩
abbrev S128x200 : Shape := ⟨2, ![128, 200]⟩
abbrev S200 : Shape := ⟨1, ![200]⟩
abbrev S_ : Shape := ⟨0, ![]⟩
abbrev S16x1x2048 : Shape := ⟨3, ![16, 1, 2048]⟩
abbrev S1x4096x2048 : Shape := ⟨3, ![1, 4096, 2048]⟩
abbrev S16x4096x2048 : Shape := ⟨3, ![16, 4096, 2048]⟩
abbrev S1x1x2048 : Shape := ⟨3, ![1, 1, 2048]⟩
abbrev S16x4096x256 : Shape := ⟨3, ![16, 4096, 256]⟩
abbrev S16x1x256 : Shape := ⟨3, ![16, 1, 256]⟩
abbrev S16x4096x128 : Shape := ⟨3, ![16, 4096, 128]⟩
abbrev S16x1x128 : Shape := ⟨3, ![16, 1, 128]⟩
abbrev S4096x16x128 : Shape := ⟨3, ![4096, 16, 128]⟩
abbrev S4096x128 : Shape := ⟨2, ![4096, 128]⟩
abbrev S4096x1x128 : Shape := ⟨3, ![4096, 1, 128]⟩
abbrev S16x4096x512 : Shape := ⟨3, ![16, 4096, 512]⟩
abbrev S1x1x512 : Shape := ⟨3, ![1, 1, 512]⟩
abbrev S1x1x128 : Shape := ⟨3, ![1, 1, 128]⟩
abbrev S4096x16 : Shape := ⟨2, ![4096, 16]⟩
abbrev S4096x16x1 : Shape := ⟨3, ![4096, 16, 1]⟩
abbrev S4096x16x64 : Shape := ⟨3, ![4096, 16, 64]⟩
abbrev S4096x1024 : Shape := ⟨2, ![4096, 1024]⟩
abbrev S1x128 : Shape := ⟨2, ![1, 128]⟩
abbrev S4096x200 : Shape := ⟨2, ![4096, 200]⟩
abbrev S1x200 : Shape := ⟨2, ![1, 200]⟩

abbrev nBuf : Space → Nat
  | .hbm => 105
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S16x2048, .f32⟩
  | .hbm, ⟨2, _⟩ => ⟨S2048, .f32⟩
  | .hbm, ⟨3, _⟩ => ⟨S16x2048x256, .f32⟩
  | .hbm, ⟨4, _⟩ => ⟨S16x256, .f32⟩
  | .hbm, ⟨5, _⟩ => ⟨S16x256x128, .f32⟩
  | .hbm, ⟨6, _⟩ => ⟨S16x128, .f32⟩
  | .hbm, ⟨7, _⟩ => ⟨S2048x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S1024x128, .f32⟩
  | .hbm, ⟨12, _⟩ => ⟨S128, .f32⟩
  | .hbm, ⟨13, _⟩ => ⟨S128x200, .f32⟩
  | .hbm, ⟨14, _⟩ => ⟨S200, .f32⟩
  | .hbm, ⟨15, _⟩ => ⟨S16x2048, .f32⟩
  | .hbm, ⟨16, _⟩ => ⟨S16x2048, .f32⟩
  | .hbm, ⟨17, _⟩ => ⟨S_, .f32⟩
  | .hbm, ⟨18, _⟩ => ⟨S16x2048, .f32⟩
  | .hbm, ⟨19, _⟩ => ⟨S16x2048, .f32⟩
  | .hbm, ⟨20, _⟩ => ⟨S_, .f32⟩
  | .hbm, ⟨21, _⟩ => ⟨S16x2048, .f32⟩
  | .hbm, ⟨22, _⟩ => ⟨S16x2048, .f32⟩
  | .hbm, ⟨23, _⟩ => ⟨S16x1x2048, .f32⟩
  | .hbm, ⟨24, _⟩ => ⟨S1x4096x2048, .f32⟩
  | .hbm, ⟨25, _⟩ => ⟨S16x4096x2048, .f32⟩
  | .hbm, ⟨26, _⟩ => ⟨S16x4096x2048, .f32⟩
  | .hbm, ⟨27, _⟩ => ⟨S16x4096x2048, .f32⟩
  | .hbm, ⟨28, _⟩ => ⟨S_, .f32⟩
  | .hbm, ⟨29, _⟩ => ⟨S16x2048, .f32⟩
  | .hbm, ⟨30, _⟩ => ⟨S16x2048, .f32⟩
  | .hbm, ⟨31, _⟩ => ⟨S16x1x2048, .f32⟩
  | .hbm, ⟨32, _⟩ => ⟨S1x1x2048, .f32⟩
  | .hbm, ⟨33, _⟩ => ⟨S16x1x2048, .f32⟩
  | .hbm, ⟨34, _⟩ => ⟨S16x1x2048, .f32⟩
  | .hbm, ⟨35, _⟩ => ⟨S16x4096x2048, .f32⟩
  | .hbm, ⟨36, _⟩ => ⟨S16x4096x2048, .f32⟩
  | .hbm, ⟨37, _⟩ => ⟨S16x4096x256, .f32⟩
  | .hbm, ⟨38, _⟩ => ⟨S16x1x256, .f32⟩
  | .hbm, ⟨39, _⟩ => ⟨S16x4096x256, .f32⟩
  | .hbm, ⟨40, _⟩ => ⟨S16x4096x256, .f32⟩
  | .hbm, ⟨41, _⟩ => ⟨S_, .f32⟩
  | .hbm, ⟨42, _⟩ => ⟨S16x4096x256, .f32⟩
  | .hbm, ⟨43, _⟩ => ⟨S16x4096x256, .f32⟩
  | .hbm, ⟨44, _⟩ => ⟨S16x4096x128, .f32⟩
  | .hbm, ⟨45, _⟩ => ⟨S16x1x128, .f32⟩
  | .hbm, ⟨46, _⟩ => ⟨S16x4096x128, .f32⟩
  | .hbm, ⟨47, _⟩ => ⟨S16x4096x128, .f32⟩
  | .hbm, ⟨48, _⟩ => ⟨S4096x16x128, .f32⟩
  | .hbm, ⟨49, _⟩ => ⟨S4096x16x128, .f32⟩
  | .hbm, ⟨50, _⟩ => ⟨S_, .f32⟩
  | .hbm, ⟨51, _⟩ => ⟨S4096x128, .f32⟩
  | .hbm, ⟨52, _⟩ => ⟨S4096x1x128, .f32⟩
  | .hbm, ⟨53, _⟩ => ⟨S_, .f32⟩
  | .hbm, ⟨54, _⟩ => ⟨S4096x1x128, .f32⟩
  | .hbm, ⟨55, _⟩ => ⟨S4096x1x128, .f32⟩
  | .hbm, ⟨56, _⟩ => ⟨S4096x1x128, .f32⟩
  | .hbm, ⟨57, _⟩ => ⟨S4096x16x128, .f32⟩
  | .hbm, ⟨58, _⟩ => ⟨S4096x16x128, .f32⟩
  | .hbm, ⟨59, _⟩ => ⟨S16x4096x512, .f32⟩
  | .hbm, ⟨60, _⟩ => ⟨S1x1x512, .f32⟩
  | .hbm, ⟨61, _⟩ => ⟨S16x4096x512, .f32⟩
  | .hbm, ⟨62, _⟩ => ⟨S16x4096x512, .f32⟩
  | .hbm, ⟨63, _⟩ => ⟨S_, .f32⟩
  | .hbm, ⟨64, _⟩ => ⟨S16x4096x512, .f32⟩
  | .hbm, ⟨65, _⟩ => ⟨S16x4096x512, .f32⟩
  | .hbm, ⟨66, _⟩ => ⟨S16x4096x128, .f32⟩
  | .hbm, ⟨67, _⟩ => ⟨S1x1x128, .f32⟩
  | .hbm, ⟨68, _⟩ => ⟨S16x4096x128, .f32⟩
  | .hbm, ⟨69, _⟩ => ⟨S16x4096x128, .f32⟩
  | .hbm, ⟨70, _⟩ => ⟨S4096x16x128, .f32⟩
  | .hbm, ⟨71, _⟩ => ⟨S4096x16x128, .f32⟩
  | .hbm, ⟨72, _⟩ => ⟨S_, .f32⟩
  | .hbm, ⟨73, _⟩ => ⟨S4096x16, .f32⟩
  | .hbm, ⟨74, _⟩ => ⟨S4096x16, .f32⟩
  | .hbm, ⟨75, _⟩ => ⟨S4096x16, .f32⟩
  | .hbm, ⟨76, _⟩ => ⟨S_, .f32⟩
  | .hbm, ⟨77, _⟩ => ⟨S4096x16, .f32⟩
  | .hbm, ⟨78, _⟩ => ⟨S4096x16, .f32⟩
  | .hbm, ⟨79, _⟩ => ⟨S_, .f32⟩
  | .hbm, ⟨80, _⟩ => ⟨S4096x16, .f32⟩
  | .hbm, ⟨81, _⟩ => ⟨S4096x16, .f32⟩
  | .hbm, ⟨82, _⟩ => ⟨S4096x16x1, .f32⟩
  | .hbm, ⟨83, _⟩ => ⟨S4096x16x64, .f32⟩
  | .hbm, ⟨84, _⟩ => ⟨S4096x16x64, .f32⟩
  | .hbm, ⟨85, _⟩ => ⟨S4096x16x64, .f32⟩
  | .hbm, ⟨86, _⟩ => ⟨S_, .f32⟩
  | .hbm, ⟨87, _⟩ => ⟨S4096x16x1, .f32⟩
  | .hbm, ⟨88, _⟩ => ⟨S4096x16x1, .f32⟩
  | .hbm, ⟨89, _⟩ => ⟨S4096x16x64, .f32⟩
  | .hbm, ⟨90, _⟩ => ⟨S4096x16x64, .f32⟩
  | .hbm, ⟨91, _⟩ => ⟨S4096x16x64, .f32⟩
  | .hbm, ⟨92, _⟩ => ⟨S4096x16x64, .f32⟩
  | .hbm, ⟨93, _⟩ => ⟨S4096x1024, .f32⟩
  | .hbm, ⟨94, _⟩ => ⟨S4096x128, .f32⟩
  | .hbm, ⟨95, _⟩ => ⟨S1x128, .f32⟩
  | .hbm, ⟨96, _⟩ => ⟨S4096x128, .f32⟩
  | .hbm, ⟨97, _⟩ => ⟨S4096x128, .f32⟩
  | .hbm, ⟨98, _⟩ => ⟨S_, .f32⟩
  | .hbm, ⟨99, _⟩ => ⟨S4096x128, .f32⟩
  | .hbm, ⟨100, _⟩ => ⟨S4096x128, .f32⟩
  | .hbm, ⟨101, _⟩ => ⟨S4096x200, .f32⟩
  | .hbm, ⟨102, _⟩ => ⟨S1x200, .f32⟩
  | .hbm, ⟨103, _⟩ => ⟨S4096x200, .f32⟩
  | .hbm, ⟨104, _⟩ => ⟨S4096x200, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call0_cst : Ref sig .tc := ⟨.hbm, 41, rfl⟩
abbrev main_call0_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call1_cst : Ref sig .tc := ⟨.hbm, 63, rfl⟩
abbrev main_call1_v0 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_4 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_5 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_7 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call2_cst : Ref sig .tc := ⟨.hbm, 98, rfl⟩
abbrev main_call2_v0 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩

abbrev nD : Nat := 1
abbrev τ : Topo := Topo.v7x

variable {F : FTy → Type} [FloatOps F]

class Facts₀ : Prop where
  bcast_S_S16x2048 : S_.BroadcastsInDim S16x2048 (![] : Fin 0 → Fin S16x2048.rank)
  bcast_S16x2048_S16x1x2048_0_2 : S16x2048.BroadcastsInDim S16x1x2048 (![0, 2] : Fin 2 → Fin S16x1x2048.rank)
  bcast_S4096x2048_S1x4096x2048_1_2 : S4096x2048.BroadcastsInDim S1x4096x2048 (![1, 2] : Fin 2 → Fin S1x4096x2048.rank)
  bcast_S16x1x2048_S16x4096x2048_0_1_2 : S16x1x2048.BroadcastsInDim S16x4096x2048 (![0, 1, 2] : Fin 3 → Fin S16x4096x2048.rank)
  bcast_S1x4096x2048_S16x4096x2048_0_1_2 : S1x4096x2048.BroadcastsInDim S16x4096x2048 (![0, 1, 2] : Fin 3 → Fin S16x4096x2048.rank)
  bcast_S2048_S1x1x2048_2 : S2048.BroadcastsInDim S1x1x2048 (![2] : Fin 1 → Fin S1x1x2048.rank)
  bcast_S1x1x2048_S16x1x2048_0_1_2 : S1x1x2048.BroadcastsInDim S16x1x2048 (![0, 1, 2] : Fin 3 → Fin S16x1x2048.rank)
  bcast_S16x256_S16x1x256_0_2 : S16x256.BroadcastsInDim S16x1x256 (![0, 2] : Fin 2 → Fin S16x1x256.rank)
  bcast_S16x1x256_S16x4096x256_0_1_2 : S16x1x256.BroadcastsInDim S16x4096x256 (![0, 1, 2] : Fin 3 → Fin S16x4096x256.rank)
  bcast_S_S16x4096x256 : S_.BroadcastsInDim S16x4096x256 (![] : Fin 0 → Fin S16x4096x256.rank)
  bcast_S16x128_S16x1x128_0_2 : S16x128.BroadcastsInDim S16x1x128 (![0, 2] : Fin 2 → Fin S16x1x128.rank)
  bcast_S16x1x128_S16x4096x128_0_1_2 : S16x1x128.BroadcastsInDim S16x4096x128 (![0, 1, 2] : Fin 3 → Fin S16x4096x128.rank)
  transposes_S16x4096x128_S4096x16x128_1_0_2 : S16x4096x128.Transposes [1, 0, 2] S4096x16x128
  reducesTo_S4096x16x128_S4096x128_d1 : S4096x16x128.ReducesTo [1] S4096x128
  h_S_ : 0 < S_.numel
  bcast_S4096x128_S4096x1x128_0_2 : S4096x128.BroadcastsInDim S4096x1x128 (![0, 2] : Fin 2 → Fin S4096x1x128.rank)
  bcast_S_S4096x1x128 : S_.BroadcastsInDim S4096x1x128 (![] : Fin 0 → Fin S4096x1x128.rank)
  bcast_S4096x1x128_S4096x16x128_0_1_2 : S4096x1x128.BroadcastsInDim S4096x16x128 (![0, 1, 2] : Fin 3 → Fin S4096x16x128.rank)
  bcast_S512_S1x1x512_2 : S512.BroadcastsInDim S1x1x512 (![2] : Fin 1 → Fin S1x1x512.rank)
  bcast_S1x1x512_S16x4096x512_0_1_2 : S1x1x512.BroadcastsInDim S16x4096x512 (![0, 1, 2] : Fin 3 → Fin S16x4096x512.rank)
  bcast_S_S16x4096x512 : S_.BroadcastsInDim S16x4096x512 (![] : Fin 0 → Fin S16x4096x512.rank)
  bcast_S128_S1x1x128_2 : S128.BroadcastsInDim S1x1x128 (![2] : Fin 1 → Fin S1x1x128.rank)
  bcast_S1x1x128_S16x4096x128_0_1_2 : S1x1x128.BroadcastsInDim S16x4096x128 (![0, 1, 2] : Fin 3 → Fin S16x4096x128.rank)
  reducesTo_S4096x16x128_S4096x16_d2 : S4096x16x128.ReducesTo [2] S4096x16
  bcast_S_S4096x16 : S_.BroadcastsInDim S4096x16 (![] : Fin 0 → Fin S4096x16.rank)
  bcast_S4096x16_S4096x16x1_0_1 : S4096x16.BroadcastsInDim S4096x16x1 (![0, 1] : Fin 2 → Fin S4096x16x1.rank)
  slices_S4096x16x128_S4096x16x64_0_0_64 : S4096x16x128.Slices ![0, 0, 64] S4096x16x64
  bcast_S4096x16x1_S4096x16x64_0_1_2 : S4096x16x1.BroadcastsInDim S4096x16x64 (![0, 1, 2] : Fin 3 → Fin S4096x16x64.rank)
  bcast_S_S4096x16x1 : S_.BroadcastsInDim S4096x16x1 (![] : Fin 0 → Fin S4096x16x1.rank)
  slices_S4096x16x128_S4096x16x64_0_0_0 : S4096x16x128.Slices ![0, 0, 0] S4096x16x64
  shapeCasts_S4096x16x64_S4096x1024 : S4096x16x64.ShapeCasts S4096x1024
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S200_S1x200_1 : S200.BroadcastsInDim S1x200 (![1] : Fin 1 → Fin S1x200.rank)
  bcast_S1x200_S4096x200_0_1 : S1x200.BroadcastsInDim S4096x200 (![0, 1] : Fin 2 → Fin S4096x200.rank)
  dot_S16x4096x2048_S16x2048x256_S16x4096x256_2_1_1_2_0_0_wf : DotDims.WF S16x4096x2048 S16x2048x256 S16x4096x256 [2] [1] [1] [2] [0] [0]
  dot_S16x4096x256_S16x256x128_S16x4096x128_2_1_1_2_0_0_wf : DotDims.WF S16x4096x256 S16x256x128 S16x4096x128 [2] [1] [1] [2] [0] [0]
  dot_S16x4096x2048_S2048x512_S16x4096x512_2_0_01_1_n_n_wf : DotDims.WF S16x4096x2048 S2048x512 S16x4096x512 [2] [0] [0, 1] [1] [] []
  dot_S16x4096x512_S512x128_S16x4096x128_2_0_01_1_n_n_wf : DotDims.WF S16x4096x512 S512x128 S16x4096x128 [2] [0] [0, 1] [1] [] []
  dot_S4096x1024_S1024x128_S4096x128_1_0_0_1_n_n_wf : DotDims.WF S4096x1024 S1024x128 S4096x128 [1] [0] [0] [1] [] []
  dot_S4096x128_S128x200_S4096x200_1_0_0_1_n_n_wf : DotDims.WF S4096x128 S128x200 S4096x200 [1] [0] [0] [1] [] []

variable [Facts₀]

def dot_S16x4096x2048_S16x2048x256_S16x4096x256_2_1_1_2_0_0 : DotDims S16x4096x2048 S16x2048x256 S16x4096x256 where
  lhsContracting := [2]
  rhsContracting := [1]
  lhsNonContracting := [1]
  rhsNonContracting := [2]
  lhsBatch := [0]
  rhsBatch := [0]
  wf := dot_S16x4096x2048_S16x2048x256_S16x4096x256_2_1_1_2_0_0_wf
def dot_S16x4096x256_S16x256x128_S16x4096x128_2_1_1_2_0_0 : DotDims S16x4096x256 S16x256x128 S16x4096x128 where
  lhsContracting := [2]
  rhsContracting := [1]
  lhsNonContracting := [1]
  rhsNonContracting := [2]
  lhsBatch := [0]
  rhsBatch := [0]
  wf := dot_S16x4096x256_S16x256x128_S16x4096x128_2_1_1_2_0_0_wf
def dot_S16x4096x2048_S2048x512_S16x4096x512_2_0_01_1_n_n : DotDims S16x4096x2048 S2048x512 S16x4096x512 where
  lhsContracting := [2]
  rhsContracting := [0]
  lhsNonContracting := [0, 1]
  rhsNonContracting := [1]
  lhsBatch := []
  rhsBatch := []
  wf := dot_S16x4096x2048_S2048x512_S16x4096x512_2_0_01_1_n_n_wf
def dot_S16x4096x512_S512x128_S16x4096x128_2_0_01_1_n_n : DotDims S16x4096x512 S512x128 S16x4096x128 where
  lhsContracting := [2]
  rhsContracting := [0]
  lhsNonContracting := [0, 1]
  rhsNonContracting := [1]
  lhsBatch := []
  rhsBatch := []
  wf := dot_S16x4096x512_S512x128_S16x4096x128_2_0_01_1_n_n_wf
def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S4096x128_S128x200_S4096x200_1_0_0_1_n_n : DotDims S4096x128 S128x200 S4096x200 where
  lhsContracting := [1]
  rhsContracting := [0]
  lhsNonContracting := [0]
  rhsNonContracting := [1]
  lhsBatch := []
  rhsBatch := []
  wf := dot_S4096x128_S128x200_S4096x200_1_0_0_1_n_n_wf

class Facts : Prop extends Facts₀ where

variable [Facts]
-- ==== Proof.KTripsW.lean ====
/-
  What the two counted loops of the kernel body leave in the scratch buffers, in closed form.

  The first loop runs over the sixteen concepts. Trip k stores, into slab k of the first scratch buffer, the
  concept vector computed from slab k of the gate logits and of the concept's own weights, and into slab k of the
  second scratch buffer the latent vector computed from the same masked input and the shared weights. A slab is
  written by exactly one trip, so after k trips an entry of a slab below k reads what that slab's trip stored.

  The second loop accumulates: trip k stores, over the whole of the third scratch buffer, its previous contents
  plus the product of slab k of the second buffer with slab k of the head matrix. After k trips the buffer holds
  the k-fold iterate of that step from its contents at loop entry.
-/
import proofs.«168377_j46110768889918_2_alg».proof.Proof.Gen.Kernel.Loops
import Idealize.ShloMosaic.Lib.WritesUnit
import Idealize.ShloMosaic.Lib.ValueIdx
import Idealize.ShloMosaic.Lib.Pipeline.Value

set_option maxRecDepth 16384

noncomputable section

namespace Cert.Kernel.KTrips

open Cert.Kernel Cert.Kernel.Gen
open Idealize.ShloMosaic Idealize.ShloMosaic.TcCoe Idealize.ShloMosaic.ValueIdx

variable {F : FTy → Type} [FloatOps F]

variable (𝒱 : Variants) (c : Dev nD) (bd : Option 𝒱.V) (i : grid0.Coords) (arg1 : Memref sig .tc .vmem S256x2048 .f32) (harg1 : arg1.IsWhole) (arg2 : Memref sig .tc .vmem S16x2048 .f32) (harg2 : arg2.IsWhole) (arg3 : Memref sig .tc .vmem S2048 .f32) (harg3 : arg3.IsWhole) (arg4 : Memref sig .tc .vmem S16x2048x256 .bf16) (harg4 : arg4.IsWhole) (arg5 : Memref sig .tc .vmem S16x256 .f32) (harg5 : arg5.IsWhole) (arg6 : Memref sig .tc .vmem S16x256x128 .bf16) (harg6 : arg6.IsWhole) (arg7 : Memref sig .tc .vmem S16x128 .f32) (harg7 : arg7.IsWhole) (arg8 : Memref sig .tc .vmem S2048x512 .bf16) (harg8 : arg8.IsWhole) (arg9 : Memref sig .tc .vmem S512 .f32) (harg9 : arg9.IsWhole) (arg10 : Memref sig .tc .vmem S512x128 .bf16) (harg10 : arg10.IsWhole) (arg11 : Memref sig .tc .vmem S128 .f32) (harg11 : arg11.IsWhole) (arg12 : Memref sig .tc .vmem S16x128x128 .bf16) (harg12 : arg12.IsWhole) (arg13 : Memref sig .tc .vmem S128 .f32) (harg13 : arg13.IsWhole) (arg14 : Memref sig .tc .vmem S128x256 .bf16) (harg14 : arg14.IsWhole) (arg15 : Memref sig .tc .vmem S256 .f32) (harg15 : arg15.IsWhole) (arg16 : Memref sig .tc .vmem S256x256 .f32) (harg16 : arg16.IsWhole) (arg17 : Memref sig .tc .vmem S16x256x128 .f32) (harg17 : arg17.IsWhole) (arg18 : Memref sig .tc .vmem S16x256x128 .f32) (harg18 : arg18.IsWhole) (arg19 : Memref sig .tc .vmem S256x128 .f32) (harg19 : arg19.IsWhole)

/-! ## The first loop -/

section First

variable (v0 : Vec F S256x2048 .f32) (v1 : Vec F S2048 .f32) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty)

/-- What trip kk stores into slab kk of the first scratch buffer. -/
def slabCm (kk : Fin k0_t1_loop.trips) : FVec F S1x256x128 .f32 :=
  k0_pay4 v0 v1
    (View.readAt (Elt F) arg2.view (Rect.unit (s := S16x2048) (k0_off1 kk) S1x2048.size (k0_off1_inb kk)).toLoadRect X_arg2)
    (View.readAt (Elt F) arg4.view (Rect.unit (s := S16x2048x256) (k0_off2 kk) S1x2048x256.size (k0_off2_inb kk)).toLoadRect X_arg4)
    (View.readAt (Elt F) arg5.view (Rect.unit (s := S16x256) (k0_off3 kk) S1x256.size (k0_off3_inb kk)).toLoadRect X_arg5)
    (View.readAt (Elt F) arg6.view (Rect.unit (s := S16x256x128) (k0_off4 kk) S1x256x128.size (k0_off4_inb kk)).toLoadRect X_arg6)
    (View.readAt (Elt F) arg7.view (Rect.unit (s := S16x128) (k0_off5 kk) S1x128.size (k0_off5_inb kk)).toLoadRect X_arg7)

/-- What trip kk stores into slab kk of the second scratch buffer. -/
def slabLat (kk : Fin k0_t1_loop.trips) : FVec F S1x256x128 .f32 :=
  k0_pay5
    (k0_pay3 v0 v1 (View.readAt (Elt F) arg2.view (Rect.unit (s := S16x2048) (k0_off1 kk) S1x2048.size (k0_off1_inb kk)).toLoadRect X_arg2))
    (View.readAt (Elt F) arg8.view (Rect.unit (s := S2048x512) ![0, 0] S2048x512.size inb_S2048x512_S2048x512_0_0).toLoadRect X_arg8)
    (View.readAt (Elt F) arg9.view (Rect.unit (s := S512) ![0] S512.size inb_S512_S512_0).toLoadRect X_arg9)
    (View.readAt (Elt F) arg10.view (Rect.unit (s := S512x128) ![0, 0] S512x128.size inb_S512x128_S512x128_0_0).toLoadRect X_arg10)
    (View.readAt (Elt F) arg11.view (Rect.unit (s := S128) ![0] S128.size inb_S128_S128_0).toLoadRect X_arg11)

/-- One trip of the first loop stores one slab into each of the two scratch buffers, whatever they held. -/
theorem trip1_eq (kk : Fin k0_t1_loop.trips) (f_arg17 : BufTy.Contents (Elt F) arg17.view.ty) (f_arg18 : BufTy.Contents (Elt F) arg18.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 kk f_arg17 f_arg18
      = ([⟨Rect.unit (s := S16x256x128) (k0_off4 kk) S1x256x128.size (k0_off4_inb kk), slabCm arg2 arg4 arg5 arg6 arg7 v0 v1 X_arg2 X_arg4 X_arg5 X_arg6 X_arg7 kk⟩],
         [⟨Rect.unit (s := S16x256x128) (k0_off4 kk) S1x256x128.size (k0_off4_inb kk), slabLat arg2 arg8 arg9 arg10 arg11 v0 v1 X_arg2 X_arg8 X_arg9 X_arg10 X_arg11 kk⟩]) := by
  unfold tripL_k0_t1
  unfold trip_k0_t1
  rfl

end First

section FirstReads

variable (v0 : Vec F S256x2048 .f32) (v1 : Vec F S2048 .f32) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty)
variable (G_arg17 : BufTy.Contents (Elt F) arg17.view.ty) (G_arg18 : BufTy.Contents (Elt F) arg18.view.ty)

/-- The pieces of the first scratch buffer after one more trip: that trip's slab in front. -/
theorem pb1_succ_fst (k : ℕ) (hk : k < k0_t1_loop.trips) :
    (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 (k + 1)).1 = (⟨Rect.unit (s := S16x256x128) (k0_off4 ⟨k, hk⟩) S1x256x128.size (k0_off4_inb ⟨k, hk⟩), slabCm arg2 arg4 arg5 arg6 arg7 v0 v1 X_arg2 X_arg4 X_arg5 X_arg6 X_arg7 ⟨k, hk⟩⟩ : View.Piece (Elt F) S16x256x128 .f32) :: (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 k).1 := by
  rw [show pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 (k + 1) = _ from pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 ⟨k, hk⟩]
  rw [trip1_eq]
  rfl

/-- The pieces of the second scratch buffer after one more trip: that trip's slab in front. -/
theorem pb1_succ_snd (k : ℕ) (hk : k < k0_t1_loop.trips) :
    (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 (k + 1)).2 = (⟨Rect.unit (s := S16x256x128) (k0_off4 ⟨k, hk⟩) S1x256x128.size (k0_off4_inb ⟨k, hk⟩), slabLat arg2 arg8 arg9 arg10 arg11 v0 v1 X_arg2 X_arg8 X_arg9 X_arg10 X_arg11 ⟨k, hk⟩⟩ : View.Piece (Elt F) S16x256x128 .f32) :: (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 k).2 := by
  rw [show pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 (k + 1) = _ from pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 ⟨k, hk⟩]
  rw [trip1_eq]
  rfl

/-- After k trips an entry of slab cc < k of the first scratch buffer is what trip cc stored: later trips write other slabs. -/
theorem read_cm : ∀ (k : ℕ) (hk : k ≤ k0_t1_loop.trips) (cc : Fin 16) (r : Fin 256) (l : Fin 128) (h : cc.val < k),
    arg17.view.read (Elt F) (arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 k).1) (ix3 cc r l)
      = slabCm arg2 arg4 arg5 arg6 arg7 v0 v1 X_arg2 X_arg4 X_arg5 X_arg6 X_arg7 ⟨cc.val, Nat.lt_of_lt_of_le h hk⟩ (ix3 0 r l)
  | 0, _, _, _, _, h => absurd h (Nat.not_lt_zero _)
  | k + 1, hk, cc, r, l, h => by
    have hk' : k < k0_t1_loop.trips := hk
    rw [pb1_succ_fst 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 k hk']
    by_cases e : cc.val = k
    · have e' : (⟨cc.val, Nat.lt_of_lt_of_le h hk⟩ : Fin k0_t1_loop.trips) = ⟨k, hk'⟩ := Fin.ext e
      rw [e']
      exact View.read_writes_cons_unit_of_mem arg17.view G_arg17 (k0_off4_inb ⟨k, hk'⟩) (slabCm arg2 arg4 arg5 arg6 arg7 v0 v1 X_arg2 X_arg4 X_arg5 X_arg6 X_arg7 ⟨k, hk'⟩) _
        (ix3 cc r l) (ix3 0 r l) (k0_off4_eq ⟨k, hk'⟩) (fun a => by
          match a with
          | ⟨0, _⟩ => show cc.val = k + 0; omega
          | ⟨1, _⟩ => show r.val = 0 + r.val; omega
          | ⟨2, _⟩ => show l.val = 0 + l.val; omega)
    · rw [View.read_writes_cons_unit_of_not_mem arg17.view G_arg17 (k0_off4_inb ⟨k, hk'⟩) (slabCm arg2 arg4 arg5 arg6 arg7 v0 v1 X_arg2 X_arg4 X_arg5 X_arg6 X_arg7 ⟨k, hk'⟩) _
        (ix3 cc r l) (k0_off4_eq ⟨k, hk'⟩) (0 : Fin 3) (Or.inl (by show cc.val < k; omega))]
      exact read_cm k (Nat.le_of_lt hk') cc r l (by omega)

/-- After k trips an entry of slab cc < k of the second scratch buffer is what trip cc stored. -/
theorem read_lat : ∀ (k : ℕ) (hk : k ≤ k0_t1_loop.trips) (cc : Fin 16) (r : Fin 256) (l : Fin 128) (h : cc.val < k),
    arg18.view.read (Elt F) (arg18.view.writes (Elt F) G_arg18 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 k).2) (ix3 cc r l)
      = slabLat arg2 arg8 arg9 arg10 arg11 v0 v1 X_arg2 X_arg8 X_arg9 X_arg10 X_arg11 ⟨cc.val, Nat.lt_of_lt_of_le h hk⟩ (ix3 0 r l)
  | 0, _, _, _, _, h => absurd h (Nat.not_lt_zero _)
  | k + 1, hk, cc, r, l, h => by
    have hk' : k < k0_t1_loop.trips := hk
    rw [pb1_succ_snd 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 k hk']
    by_cases e : cc.val = k
    · have e' : (⟨cc.val, Nat.lt_of_lt_of_le h hk⟩ : Fin k0_t1_loop.trips) = ⟨k, hk'⟩ := Fin.ext e
      rw [e']
      exact View.read_writes_cons_unit_of_mem arg18.view G_arg18 (k0_off4_inb ⟨k, hk'⟩) (slabLat arg2 arg8 arg9 arg10 arg11 v0 v1 X_arg2 X_arg8 X_arg9 X_arg10 X_arg11 ⟨k, hk'⟩) _
        (ix3 cc r l) (ix3 0 r l) (k0_off4_eq ⟨k, hk'⟩) (fun a => by
          match a with
          | ⟨0, _⟩ => show cc.val = k + 0; omega
          | ⟨1, _⟩ => show r.val = 0 + r.val; omega
          | ⟨2, _⟩ => show l.val = 0 + l.val; omega)
    · rw [View.read_writes_cons_unit_of_not_mem arg18.view G_arg18 (k0_off4_inb ⟨k, hk'⟩) (slabLat arg2 arg8 arg9 arg10 arg11 v0 v1 X_arg2 X_arg8 X_arg9 X_arg10 X_arg11 ⟨k, hk'⟩) _
        (ix3 cc r l) (k0_off4_eq ⟨k, hk'⟩) (0 : Fin 3) (Or.inl (by show cc.val < k; omega))]
      exact read_lat k (Nat.le_of_lt hk') cc r l (by omega)

end FirstReads

/-! ## The second loop -/

section Second

variable (X_arg12 : BufTy.Contents (Elt F) arg12.view.ty) (X_arg18 : BufTy.Contents (Elt F) arg18.view.ty)
  (G_arg19 : BufTy.Contents (Elt F) arg19.view.ty)

/-- A load of a whole buffer reads its contents. -/
theorem readAt_whole2 {sig' : RefSig} (v : View sig' .tc .vmem S256x128 .f32) (f : v.ty.Contents (Elt F)) :
    View.readAt (Elt F) v (Rect.unit (s := S256x128) ![0, 0] S256x128.size inb_S256x128_S256x128_0_0).toLoadRect f
      = v.read (Elt F) f := by
  rw [View.readAt_eq_ld]
  exact View.ld_unit_zero (funext fun a => by match a with | ⟨0, _⟩ => rfl | ⟨1, _⟩ => rfl) _ _

/-- One accumulation step: the accumulator plus the product of slab kk of the mixed lanes with slab kk of the head matrix. -/
def headStep (kk : Fin k0_t2_loop.trips) (z : FVec F S256x128 .f32) : FVec F S256x128 .f32 :=
  k0_pay1
    (View.readAt (Elt F) arg18.view (Rect.unit (s := S16x256x128) (k0_off6 kk) S1x256x128.size (k0_off6_inb kk)).toLoadRect X_arg18)
    (View.readAt (Elt F) arg12.view (Rect.unit (s := S16x128x128) (k0_off7 kk) S1x128x128.size (k0_off7_inb kk)).toLoadRect X_arg12)
    z

/-- One trip of the second loop stores one accumulation step of what it finds, over the whole accumulator. -/
theorem trip2_eq (kk : Fin k0_t2_loop.trips) (f_arg19 : BufTy.Contents (Elt F) arg19.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg12 X_arg18 kk f_arg19
      = [⟨Rect.unit (s := S256x128) ![0, 0] S256x128.size inb_S256x128_S256x128_0_0,
          headStep arg12 arg18 X_arg12 X_arg18 kk
            (View.readAt (Elt F) arg19.view (Rect.unit (s := S256x128) ![0, 0] S256x128.size inb_S256x128_S256x128_0_0).toLoadRect f_arg19)⟩] := by
  unfold tripL_k0_t2
  unfold trip_k0_t2
  rfl

/-- The accumulator after k trips, from its contents at loop entry. -/
def headAcc : ℕ → FVec F S256x128 .f32
  | 0 => arg19.view.read (Elt F) G_arg19
  | k + 1 => if h : k < k0_t2_loop.trips then headStep arg12 arg18 X_arg12 X_arg18 ⟨k, h⟩ (headAcc k) else headAcc k

/-- After k trips the accumulator holds the k-fold iterate. -/
theorem read_acc : ∀ (k : ℕ) (hk : k ≤ k0_t2_loop.trips),
    arg19.view.read (Elt F) (arg19.view.writes (Elt F) G_arg19 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg12 X_arg18 G_arg19 k))
      = headAcc arg12 arg18 arg19 X_arg12 X_arg18 G_arg19 k
  | 0, _ => rfl
  | k + 1, hk => by
    have hk' : k < k0_t2_loop.trips := hk
    rw [show pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg12 X_arg18 G_arg19 (k + 1) = _ from
      pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg12 X_arg18 G_arg19 ⟨k, hk'⟩]
    rw [trip2_eq, readAt_whole2, read_acc k (Nat.le_of_lt hk')]
    funext y
    rw [headAcc, dif_pos hk']
    exact View.read_writes_cons_unit_of_mem arg19.view G_arg19 inb_S256x128_S256x128_0_0 _ _ y y rfl (fun a => by
      match a with
      | ⟨0, _⟩ => show (y 0).val = 0 + (y 0).val; omega
      | ⟨1, _⟩ => show (y 1).val = 0 + (y 1).val; omega)

end Second

end Cert.Kernel.KTrips

end
-- ==== Proof.ClosedW.lean ====
/-
  What the kernel body leaves in its output block, as one closed term of the blocks it loads.

  Slab c of the first scratch buffer is the concept's own two-layer map of the gated input, computed from slab c of
  the gate logits and of the concept's weights; slab c of the second is the shared two-layer map of the same gated
  input. The bottleneck mix is computed from the two buffers whole and written over the second. The head's first
  layer starts from zero and adds, concept by concept, the product of slab c of the mix with slab c of the head
  matrix. The last layer is applied to that sum. None of this depends on what the scratch buffers held before.
-/
import proofs.«168377_j46110768889918_2_alg».proof.Proof.KTripsW

set_option maxRecDepth 16384

noncomputable section

namespace Cert.Kernel.Closed

open Cert.Kernel Cert.Kernel.Gen
open Idealize.ShloMosaic Idealize.ShloMosaic.TcCoe Idealize.ShloMosaic.ValueIdx

variable {F : FTy → Type} [FloatOps F]

variable (arg1 : Memref sig .tc .vmem S256x2048 .f32) (harg1 : arg1.IsWhole) (arg2 : Memref sig .tc .vmem S16x2048 .f32) (harg2 : arg2.IsWhole) (arg3 : Memref sig .tc .vmem S2048 .f32) (harg3 : arg3.IsWhole) (arg4 : Memref sig .tc .vmem S16x2048x256 .bf16) (harg4 : arg4.IsWhole) (arg5 : Memref sig .tc .vmem S16x256 .f32) (harg5 : arg5.IsWhole) (arg6 : Memref sig .tc .vmem S16x256x128 .bf16) (harg6 : arg6.IsWhole) (arg7 : Memref sig .tc .vmem S16x128 .f32) (harg7 : arg7.IsWhole) (arg8 : Memref sig .tc .vmem S2048x512 .bf16) (harg8 : arg8.IsWhole) (arg9 : Memref sig .tc .vmem S512 .f32) (harg9 : arg9.IsWhole) (arg10 : Memref sig .tc .vmem S512x128 .bf16) (harg10 : arg10.IsWhole) (arg11 : Memref sig .tc .vmem S128 .f32) (harg11 : arg11.IsWhole) (arg12 : Memref sig .tc .vmem S16x128x128 .bf16) (harg12 : arg12.IsWhole) (arg13 : Memref sig .tc .vmem S128 .f32) (harg13 : arg13.IsWhole) (arg14 : Memref sig .tc .vmem S128x256 .bf16) (harg14 : arg14.IsWhole) (arg15 : Memref sig .tc .vmem S256 .f32) (harg15 : arg15.IsWhole) (arg16 : Memref sig .tc .vmem S256x256 .f32) (harg16 : arg16.IsWhole) (arg17 : Memref sig .tc .vmem S16x256x128 .f32) (harg17 : arg17.IsWhole) (arg18 : Memref sig .tc .vmem S16x256x128 .f32) (harg18 : arg18.IsWhole) (arg19 : Memref sig .tc .vmem S256x128 .f32) (harg19 : arg19.IsWhole)
  (x0 : Vec F S256x2048 .f32) (x1 : Vec F S16x2048 .f32) (x2 : Vec F S2048 .f32) (x3 : Vec F S16x2048x256 .bf16) (x4 : Vec F S16x256 .f32) (x5 : Vec F S16x256x128 .bf16) (x6 : Vec F S16x128 .f32) (x7 : Vec F S2048x512 .bf16) (x8 : Vec F S512 .f32) (x9 : Vec F S512x128 .bf16) (x10 : Vec F S128 .f32) (x11 : Vec F S16x128x128 .bf16) (x12 : Vec F S128 .f32) (x13 : Vec F S128x256 .bf16) (x14 : Vec F S256 .f32)

/-- The first loop runs sixteen trips. -/
theorem trips1 : k0_t1_loop.trips = 16 := by decide

/-- The second loop runs sixteen trips. -/
theorem trips2 : k0_t2_loop.trips = 16 := by decide

/-- The concept vectors of all sixteen concepts: slab c is what trip c of the first loop stores. -/
def cmAll : FVec F S16x256x128 .f32 := fun j =>
  KTrips.slabCm arg2 arg4 arg5 arg6 arg7 x0 x2 (harg2.unread x1) (harg4.unread x3) (harg5.unread x4) (harg6.unread x5) (harg7.unread x6)
    ⟨(j 0).val, by rw [trips1]; exact (j 0).isLt⟩ (ix3 0 (j 1) (j 2))

/-- The latent vectors of all sixteen concepts. -/
def latAll : FVec F S16x256x128 .f32 := fun j =>
  KTrips.slabLat arg2 arg8 arg9 arg10 arg11 x0 x2 (harg2.unread x1) (harg8.unread x7) (harg9.unread x8) (harg10.unread x9) (harg11.unread x10)
    ⟨(j 0).val, by rw [trips1]; exact (j 0).isLt⟩ (ix3 0 (j 1) (j 2))

/-- The bottleneck mix of all sixteen concepts. -/
def mixedAll : FVec F S16x256x128 .f32 :=
  k0_pay6 (cmAll arg2 harg2 arg4 harg4 arg5 harg5 arg6 harg6 arg7 harg7 x0 x1 x2 x3 x4 x5 x6)
    (latAll arg2 harg2 arg8 harg8 arg9 harg9 arg10 harg10 arg11 harg11 x0 x1 x2 x7 x8 x9 x10)

/-- The head's first-layer sum after k concepts, from zero. -/
def accAt (k : ℕ) : FVec F S256x128 .f32 :=
  KTrips.headAcc arg12 arg18 arg19 (harg12.unread x11)
    (harg18.unread (mixedAll arg2 harg2 arg4 harg4 arg5 harg5 arg6 harg6 arg7 harg7 arg8 harg8 arg9 harg9 arg10 harg10 arg11 harg11 x0 x1 x2 x3 x4 x5 x6 x7 x8 x9 x10))
    (harg19.unread (k0_pay7 (F := F))) k

/-- The output block. -/
def out : FVec F S256x256 .f32 :=
  k0_pay2 (accAt arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 16) x12 x13 x14

end Cert.Kernel.Closed

end
-- ==== Proof.RunOpenW.lean ====
/-
  The piece the kernel body's run leaves in the output block, read in closed form.

  The run stores once into the output block, over all of it. The stored value is the last layer applied to what the
  third scratch buffer holds after the second loop, which is sixteen accumulation steps from the zero block; each
  step reads a slab of the second scratch buffer, which by then holds the bottleneck mix computed from the two
  scratch buffers as the first loop left them; and an entry of slab c of either buffer after the first loop is what
  trip c stored there, because the other trips write other slabs. So the stored value is a function of the loaded
  input blocks alone: what the scratch buffers held when the body started does not enter it.
-/
import proofs.«168377_j46110768889918_2_alg».proof.Proof.KernelRunA
import proofs.«168377_j46110768889918_2_alg».proof.Proof.KTripsW
import proofs.«168377_j46110768889918_2_alg».proof.Proof.ClosedW
import Idealize.ShloMosaic.Lib.Pipeline.Value

set_option maxRecDepth 16384

noncomputable section

namespace Cert.Kernel.RunOpen

open Cert.Kernel Cert.Kernel.Gen Cert.Kernel.GenP
open Idealize.ShloMosaic Idealize.ShloMosaic.TcCoe Idealize.ShloMosaic.Tactic Idealize.ShloMosaic.ValueIdx

variable {F : FTy → Type} [FloatOps F]

theorem hz1 : (![0] : Fin 1 → ℕ) = fun _ => 0 := funext fun a => by match a with | ⟨0, _⟩ => rfl
theorem hz2 : (![0, 0] : Fin 2 → ℕ) = fun _ => 0 := funext fun a => by match a with | ⟨0, _⟩ => rfl | ⟨1, _⟩ => rfl
theorem hz3 : (![0, 0, 0] : Fin 3 → ℕ) = fun _ => 0 := funext fun a => by match a with | ⟨0, _⟩ => rfl | ⟨1, _⟩ => rfl | ⟨2, _⟩ => rfl

/-- A load of a whole buffer reads its contents. -/
theorem readAt_whole {sig' : RefSig} {S : Shape} {e : EltTy} (v : View sig' .tc .vmem S e) (f : v.ty.Contents (Elt F))
    (off : Fin S.rank → ℕ) (hz : off = fun _ => 0) (inb : ∀ a, off a + S.size a ≤ S.size a) :
    View.readAt (Elt F) v (Rect.unit (s := S) off S.size inb).toLoadRect f = v.read (Elt F) f := by
  rw [View.readAt_eq_ld]
  exact View.ld_unit_zero hz inb _

/-- A load of a whole staging buffer holding an input block reads the block. -/
theorem readAt_whole_unread {S : Shape} {e : EltTy} (a : Memref sig .tc .vmem S e) (h : a.IsWhole) (X : Vec F S e)
    (off : Fin S.rank → ℕ) (hz : off = fun _ => 0) (inb : ∀ a, off a + S.size a ≤ S.size a) :
    View.readAt (Elt F) a.view (Rect.unit (s := S) off S.size inb).toLoadRect (h.unread X) = X := by
  rw [readAt_whole a.view _ off hz inb, h.read_unread]

/-- A buffer written once, over all of it, reads what was written. -/
theorem read_write_whole {sig' : RefSig} {S : Shape} {e : EltTy} (v : View sig' .tc .vmem S e) (f : v.ty.Contents (Elt F))
    (off : Fin S.rank → ℕ) (hz : off = fun _ => 0) (inb : ∀ a, off a + S.size a ≤ S.size a) (w : S.Idx → Elt F e) :
    v.read (Elt F) (v.writes (Elt F) f [(⟨Rect.unit (s := S) off S.size inb, w⟩ : View.Piece (Elt F) S e)]) = w :=
  (View.read_writes_eq_canon v f _ (fun y => ⟨_, List.mem_singleton_self _, View.mem_set_unit_zero hz inb y⟩)).trans
    (View.canon_unit_zero hz inb w)

/-- The same for a store through a memref's whole rectangle. -/
theorem read_access_write_whole {S : Shape} {e : EltTy} (a : Memref sig .tc .vmem S e) (f : a.view.ty.Contents (Elt F))
    (off : Fin S.rank → ℕ) (hz : off = fun _ => 0) (inb : ∀ a, off a + S.size a ≤ S.size a) (w : S.Idx → Elt F e) :
    a.view.read (Elt F) (View.write (Elt F) (a.access (Rect.unit (s := S) off S.size inb)) f w Finset.univ) = w :=
  read_write_whole a.view f off hz inb w

variable (c : Dev nD) (i : grid0.Coords) (arg1 : Memref sig .tc .vmem S256x2048 .f32) (harg1 : arg1.IsWhole) (arg2 : Memref sig .tc .vmem S16x2048 .f32) (harg2 : arg2.IsWhole) (arg3 : Memref sig .tc .vmem S2048 .f32) (harg3 : arg3.IsWhole) (arg4 : Memref sig .tc .vmem S16x2048x256 .bf16) (harg4 : arg4.IsWhole) (arg5 : Memref sig .tc .vmem S16x256 .f32) (harg5 : arg5.IsWhole) (arg6 : Memref sig .tc .vmem S16x256x128 .bf16) (harg6 : arg6.IsWhole) (arg7 : Memref sig .tc .vmem S16x128 .f32) (harg7 : arg7.IsWhole) (arg8 : Memref sig .tc .vmem S2048x512 .bf16) (harg8 : arg8.IsWhole) (arg9 : Memref sig .tc .vmem S512 .f32) (harg9 : arg9.IsWhole) (arg10 : Memref sig .tc .vmem S512x128 .bf16) (harg10 : arg10.IsWhole) (arg11 : Memref sig .tc .vmem S128 .f32) (harg11 : arg11.IsWhole) (arg12 : Memref sig .tc .vmem S16x128x128 .bf16) (harg12 : arg12.IsWhole) (arg13 : Memref sig .tc .vmem S128 .f32) (harg13 : arg13.IsWhole) (arg14 : Memref sig .tc .vmem S128x256 .bf16) (harg14 : arg14.IsWhole) (arg15 : Memref sig .tc .vmem S256 .f32) (harg15 : arg15.IsWhole) (arg16 : Memref sig .tc .vmem S256x256 .f32) (harg16 : arg16.IsWhole) (arg17 : Memref sig .tc .vmem S16x256x128 .f32) (harg17 : arg17.IsWhole) (arg18 : Memref sig .tc .vmem S16x256x128 .f32) (harg18 : arg18.IsWhole) (arg19 : Memref sig .tc .vmem S256x128 .f32) (harg19 : arg19.IsWhole)
  (x0 : Vec F S256x2048 .f32) (x1 : Vec F S16x2048 .f32) (x2 : Vec F S2048 .f32) (x3 : Vec F S16x2048x256 .bf16) (x4 : Vec F S16x256 .f32) (x5 : Vec F S16x256x128 .bf16) (x6 : Vec F S16x128 .f32) (x7 : Vec F S2048x512 .bf16) (x8 : Vec F S512 .f32) (x9 : Vec F S512x128 .bf16) (x10 : Vec F S128 .f32) (x11 : Vec F S16x128x128 .bf16) (x12 : Vec F S128 .f32) (x13 : Vec F S128x256 .bf16) (x14 : Vec F S256 .f32)

/-! ## The accumulation depends on the second scratch buffer and on its own start only through what they read -/

theorem headStep_congr (X12 : BufTy.Contents (Elt F) arg12.view.ty) (X18 X18' : BufTy.Contents (Elt F) arg18.view.ty)
    (h18 : arg18.view.read (Elt F) X18 = arg18.view.read (Elt F) X18') (kk : Fin k0_t2_loop.trips) (z : FVec F S256x128 .f32) :
    KTrips.headStep arg12 arg18 X12 X18 kk z = KTrips.headStep arg12 arg18 X12 X18' kk z := by
  unfold KTrips.headStep
  have e : View.readAt (Elt F) arg18.view (Rect.unit (s := S16x256x128) (k0_off6 kk) S1x256x128.size (k0_off6_inb kk)).toLoadRect X18
      = View.readAt (Elt F) arg18.view (Rect.unit (s := S16x256x128) (k0_off6 kk) S1x256x128.size (k0_off6_inb kk)).toLoadRect X18' := by
    show View.ld (arg18.view.read (Elt F) X18) _ = View.ld (arg18.view.read (Elt F) X18') _
    rw [h18]
  rw [e]

theorem headAcc_congr (X12 : BufTy.Contents (Elt F) arg12.view.ty) (X18 X18' : BufTy.Contents (Elt F) arg18.view.ty)
    (G19 G19' : BufTy.Contents (Elt F) arg19.view.ty)
    (h18 : arg18.view.read (Elt F) X18 = arg18.view.read (Elt F) X18')
    (h19 : arg19.view.read (Elt F) G19 = arg19.view.read (Elt F) G19') :
    ∀ k : ℕ, KTrips.headAcc arg12 arg18 arg19 X12 X18 G19 k = KTrips.headAcc arg12 arg18 arg19 X12 X18' G19' k
  | 0 => h19
  | k + 1 => by
    simp only [KTrips.headAcc]
    by_cases h : k < k0_t2_loop.trips
    · rw [dif_pos h, dif_pos h, headAcc_congr X12 X18 X18' G19 G19' h18 h19 k]
      exact headStep_congr arg12 arg18 X12 X18 X18' h18 ⟨k, h⟩ _
    · rw [dif_neg h, dif_neg h]
      exact headAcc_congr X12 X18 X18' G19 G19' h18 h19 k

/-! ## The three reads -/

/-- The first scratch buffer, read whole after the first loop, holds the sixteen concept vectors. -/
theorem cm_read (G17 : BufTy.Contents (Elt F) arg17.view.ty) (G18 : BufTy.Contents (Elt F) arg18.view.ty) :
    View.readAt (Elt F) arg17.view (Rect.unit (s := S16x256x128) ![0, 0, 0] S16x256x128.size inb_S16x256x128_S16x256x128_0_0_0).toLoadRect
        (arg17.view.writes (Elt F) G17
          (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 (harg2.unread x1) (harg4.unread x3) (harg5.unread x4) (harg6.unread x5) (harg7.unread x6) (harg8.unread x7) (harg9.unread x8) (harg10.unread x9) (harg11.unread x10) G17 G18
            (Scf.trips k0_t1_loop.lb k0_t1_loop.ub k0_t1_loop.st)).1)
      = Closed.cmAll arg2 harg2 arg4 harg4 arg5 harg5 arg6 harg6 arg7 harg7 x0 x1 x2 x3 x4 x5 x6 := by
  have hT : Scf.trips k0_t1_loop.lb k0_t1_loop.ub k0_t1_loop.st = 16 := by decide
  rw [readAt_whole arg17.view _ _ hz3]
  funext j
  refine (congrArg (arg17.view.read (Elt F) _) (eq_ix3 j)).trans ?_
  exact KTrips.read_cm Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 (harg2.unread x1) (harg4.unread x3) (harg5.unread x4) (harg6.unread x5) (harg7.unread x6) (harg8.unread x7) (harg9.unread x8) (harg10.unread x9) (harg11.unread x10) G17 G18
    (Scf.trips k0_t1_loop.lb k0_t1_loop.ub k0_t1_loop.st) (le_of_eq (hT.trans Closed.trips1.symm)) (j 0) (j 1) (j 2) (by rw [hT]; exact (j 0).isLt)

/-- The second scratch buffer, read whole after the first loop, holds the sixteen latent vectors. -/
theorem lat_read (G17 : BufTy.Contents (Elt F) arg17.view.ty) (G18 : BufTy.Contents (Elt F) arg18.view.ty) :
    View.readAt (Elt F) arg18.view (Rect.unit (s := S16x256x128) ![0, 0, 0] S16x256x128.size inb_S16x256x128_S16x256x128_0_0_0).toLoadRect
        (arg18.view.writes (Elt F) G18
          (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 (harg2.unread x1) (harg4.unread x3) (harg5.unread x4) (harg6.unread x5) (harg7.unread x6) (harg8.unread x7) (harg9.unread x8) (harg10.unread x9) (harg11.unread x10) G17 G18
            (Scf.trips k0_t1_loop.lb k0_t1_loop.ub k0_t1_loop.st)).2)
      = Closed.latAll arg2 harg2 arg8 harg8 arg9 harg9 arg10 harg10 arg11 harg11 x0 x1 x2 x7 x8 x9 x10 := by
  have hT : Scf.trips k0_t1_loop.lb k0_t1_loop.ub k0_t1_loop.st = 16 := by decide
  rw [readAt_whole arg18.view _ _ hz3]
  funext j
  refine (congrArg (arg18.view.read (Elt F) _) (eq_ix3 j)).trans ?_
  exact KTrips.read_lat Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 (harg2.unread x1) (harg4.unread x3) (harg5.unread x4) (harg6.unread x5) (harg7.unread x6) (harg8.unread x7) (harg9.unread x8) (harg10.unread x9) (harg11.unread x10) G17 G18
    (Scf.trips k0_t1_loop.lb k0_t1_loop.ub k0_t1_loop.st) (le_of_eq (hT.trans Closed.trips1.symm)) (j 0) (j 1) (j 2) (by rw [hT]; exact (j 0).isLt)

/-- The third scratch buffer, read whole after the second loop: sixteen accumulation steps from zero, over whatever
    contents of the second scratch buffer read as w18. -/
theorem acc_read (X12 : BufTy.Contents (Elt F) arg12.view.ty) (X18 : BufTy.Contents (Elt F) arg18.view.ty)
    (w18 : FVec F S16x256x128 .f32) (h18 : arg18.view.read (Elt F) X18 = w18) :
    View.readAt (Elt F) arg19.view (Rect.unit (s := S256x128) ![0, 0] S256x128.size inb_S256x128_S256x128_0_0).toLoadRect
        (arg19.view.writes (Elt F) arg19.view.junk
          (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X18
              (arg19.view.writes (Elt F) arg19.view.junk [(⟨(Rect.unit (s := S256x128) ![0, 0] S256x128.size inb_S256x128_S256x128_0_0), k0_pay7⟩ : View.Piece (Elt F) S256x128 .f32)])
              (Scf.trips k0_t2_loop.lb k0_t2_loop.ub k0_t2_loop.st)
            ++ [(⟨(Rect.unit (s := S256x128) ![0, 0] S256x128.size inb_S256x128_S256x128_0_0), k0_pay7⟩ : View.Piece (Elt F) S256x128 .f32)]))
      = KTrips.headAcc arg12 arg18 arg19 X12 (harg18.unread w18) (harg19.unread (k0_pay7 (F := F))) 16 := by
  have hT : Scf.trips k0_t2_loop.lb k0_t2_loop.ub k0_t2_loop.st = 16 := by decide
  rw [hT, readAt_whole arg19.view _ _ hz2, View.writes_append,
    KTrips.read_acc Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X18 _ 16 (le_of_eq Closed.trips2.symm)]
  refine headAcc_congr arg12 arg18 arg19 X12 X18 _ _ _ (h18.trans (harg18.read_unread (Val := Elt F) w18).symm) ?_ 16
  exact (read_write_whole arg19.view _ _ hz2 _ _).trans (harg19.read_unread (Val := Elt F) (k0_pay7 (F := F))).symm

/-! ## The piece list -/

/-- The run's one piece: the whole output block at the closed form, whatever the scratch buffers held at entry. -/
theorem pieces_eq (s0 : Vec F S16x256x128 .f32) (s1 : Vec F S16x256x128 .f32) (s2 : Vec F S256x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 s0 s1 s2).1
      = [(⟨(Rect.unit (s := S256x256) ![0, 0] S256x256.size inb_S256x256_S256x256_0_0),
          Closed.out arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 x12 x13 x14⟩ : View.Piece (Elt F) S256x256 .f32)] := by
  unfold kernelRun0_A
  dsimp only
  sl_unfold_words
  rw [readAt_whole_unread arg1 harg1 x0 _ hz2, readAt_whole_unread arg3 harg3 x2 _ hz1, readAt_whole_unread arg13 harg13 x12 _ hz1,
    readAt_whole_unread arg14 harg14 x13 _ hz2, readAt_whole_unread arg15 harg15 x14 _ hz1]
  rw [cm_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10, lat_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10]
  rw [acc_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg12.unread x11) _
    (Closed.mixedAll arg2 harg2 arg4 harg4 arg5 harg5 arg6 harg6 arg7 harg7 arg8 harg8 arg9 harg9 arg10 harg10 arg11 harg11 x0 x1 x2 x3 x4 x5 x6 x7 x8 x9 x10)
    (read_access_write_whole arg18 _ _ hz3 _ _)]
  rfl

end Cert.Kernel.RunOpen

end
-- ==== Proof.KTrips.lean ====
/-
  What the two counted loops of the kernel body leave in the scratch buffers, in closed form.

  The first loop runs over the sixteen concepts. Trip k stores, into slab k of the first scratch buffer, the
  concept vector computed from slab k of the gate logits and of the concept's own weights, and into slab k of the
  second scratch buffer the latent vector computed from the same masked input and the shared weights. A slab is
  written by exactly one trip, so after k trips an entry of a slab below k reads what that slab's trip stored.

  The second loop accumulates: trip k stores, over the whole of the third scratch buffer, its previous contents
  plus the product of slab k of the second buffer with slab k of the head matrix. After k trips the buffer holds
  the k-fold iterate of that step from its contents at loop entry.
-/
import proofs.«168377_j46110768889918_2_alg».proof.Proof.Gen.KernelIdeal.Loops
import Idealize.ShloMosaic.Lib.WritesUnit
import Idealize.ShloMosaic.Lib.ValueIdx
import Idealize.ShloMosaic.Lib.Pipeline.Value

set_option maxRecDepth 16384

noncomputable section

namespace Cert.KernelIdeal.KTrips

open Cert.KernelIdeal Cert.KernelIdeal.Gen
open Idealize.ShloMosaic Idealize.ShloMosaic.TcCoe Idealize.ShloMosaic.ValueIdx

variable {F : FTy → Type} [FloatOps F]

variable (𝒱 : Variants) (c : Dev nD) (bd : Option 𝒱.V) (i : grid0.Coords) (arg1 : Memref sig .tc .vmem S256x2048 .f32) (harg1 : arg1.IsWhole) (arg2 : Memref sig .tc .vmem S16x2048 .f32) (harg2 : arg2.IsWhole) (arg3 : Memref sig .tc .vmem S2048 .f32) (harg3 : arg3.IsWhole) (arg4 : Memref sig .tc .vmem S16x2048x256 .bf16) (harg4 : arg4.IsWhole) (arg5 : Memref sig .tc .vmem S16x256 .f32) (harg5 : arg5.IsWhole) (arg6 : Memref sig .tc .vmem S16x256x128 .bf16) (harg6 : arg6.IsWhole) (arg7 : Memref sig .tc .vmem S16x128 .f32) (harg7 : arg7.IsWhole) (arg8 : Memref sig .tc .vmem S2048x512 .bf16) (harg8 : arg8.IsWhole) (arg9 : Memref sig .tc .vmem S512 .f32) (harg9 : arg9.IsWhole) (arg10 : Memref sig .tc .vmem S512x128 .bf16) (harg10 : arg10.IsWhole) (arg11 : Memref sig .tc .vmem S128 .f32) (harg11 : arg11.IsWhole) (arg12 : Memref sig .tc .vmem S16x128x128 .bf16) (harg12 : arg12.IsWhole) (arg13 : Memref sig .tc .vmem S128 .f32) (harg13 : arg13.IsWhole) (arg14 : Memref sig .tc .vmem S128x256 .bf16) (harg14 : arg14.IsWhole) (arg15 : Memref sig .tc .vmem S256 .f32) (harg15 : arg15.IsWhole) (arg16 : Memref sig .tc .vmem S256x256 .f32) (harg16 : arg16.IsWhole) (arg17 : Memref sig .tc .vmem S16x256x128 .f32) (harg17 : arg17.IsWhole) (arg18 : Memref sig .tc .vmem S16x256x128 .f32) (harg18 : arg18.IsWhole) (arg19 : Memref sig .tc .vmem S256x128 .f32) (harg19 : arg19.IsWhole)

/-! ## The first loop -/

section First

variable (v0 : Vec F S256x2048 .f32) (v1 : Vec F S2048 .f32) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty)

/-- What trip kk stores into slab kk of the first scratch buffer. -/
def slabCm (kk : Fin k0_t1_loop.trips) : FVec F S1x256x128 .f32 :=
  k0_pay4 v0 v1
    (View.readAt (Elt F) arg2.view (Rect.unit (s := S16x2048) (k0_off1 kk) S1x2048.size (k0_off1_inb kk)).toLoadRect X_arg2)
    (View.readAt (Elt F) arg4.view (Rect.unit (s := S16x2048x256) (k0_off2 kk) S1x2048x256.size (k0_off2_inb kk)).toLoadRect X_arg4)
    (View.readAt (Elt F) arg5.view (Rect.unit (s := S16x256) (k0_off3 kk) S1x256.size (k0_off3_inb kk)).toLoadRect X_arg5)
    (View.readAt (Elt F) arg6.view (Rect.unit (s := S16x256x128) (k0_off4 kk) S1x256x128.size (k0_off4_inb kk)).toLoadRect X_arg6)
    (View.readAt (Elt F) arg7.view (Rect.unit (s := S16x128) (k0_off5 kk) S1x128.size (k0_off5_inb kk)).toLoadRect X_arg7)

/-- What trip kk stores into slab kk of the second scratch buffer. -/
def slabLat (kk : Fin k0_t1_loop.trips) : FVec F S1x256x128 .f32 :=
  k0_pay5
    (k0_pay3 v0 v1 (View.readAt (Elt F) arg2.view (Rect.unit (s := S16x2048) (k0_off1 kk) S1x2048.size (k0_off1_inb kk)).toLoadRect X_arg2))
    (View.readAt (Elt F) arg8.view (Rect.unit (s := S2048x512) ![0, 0] S2048x512.size inb_S2048x512_S2048x512_0_0).toLoadRect X_arg8)
    (View.readAt (Elt F) arg9.view (Rect.unit (s := S512) ![0] S512.size inb_S512_S512_0).toLoadRect X_arg9)
    (View.readAt (Elt F) arg10.view (Rect.unit (s := S512x128) ![0, 0] S512x128.size inb_S512x128_S512x128_0_0).toLoadRect X_arg10)
    (View.readAt (Elt F) arg11.view (Rect.unit (s := S128) ![0] S128.size inb_S128_S128_0).toLoadRect X_arg11)

/-- One trip of the first loop stores one slab into each of the two scratch buffers, whatever they held. -/
theorem trip1_eq (kk : Fin k0_t1_loop.trips) (f_arg17 : BufTy.Contents (Elt F) arg17.view.ty) (f_arg18 : BufTy.Contents (Elt F) arg18.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 kk f_arg17 f_arg18
      = ([⟨Rect.unit (s := S16x256x128) (k0_off4 kk) S1x256x128.size (k0_off4_inb kk), slabCm arg2 arg4 arg5 arg6 arg7 v0 v1 X_arg2 X_arg4 X_arg5 X_arg6 X_arg7 kk⟩],
         [⟨Rect.unit (s := S16x256x128) (k0_off4 kk) S1x256x128.size (k0_off4_inb kk), slabLat arg2 arg8 arg9 arg10 arg11 v0 v1 X_arg2 X_arg8 X_arg9 X_arg10 X_arg11 kk⟩]) := by
  unfold tripL_k0_t1
  unfold trip_k0_t1
  rfl

end First

section FirstReads

variable (v0 : Vec F S256x2048 .f32) (v1 : Vec F S2048 .f32) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty)
variable (G_arg17 : BufTy.Contents (Elt F) arg17.view.ty) (G_arg18 : BufTy.Contents (Elt F) arg18.view.ty)

/-- The pieces of the first scratch buffer after one more trip: that trip's slab in front. -/
theorem pb1_succ_fst (k : ℕ) (hk : k < k0_t1_loop.trips) :
    (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 (k + 1)).1 = (⟨Rect.unit (s := S16x256x128) (k0_off4 ⟨k, hk⟩) S1x256x128.size (k0_off4_inb ⟨k, hk⟩), slabCm arg2 arg4 arg5 arg6 arg7 v0 v1 X_arg2 X_arg4 X_arg5 X_arg6 X_arg7 ⟨k, hk⟩⟩ : View.Piece (Elt F) S16x256x128 .f32) :: (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 k).1 := by
  rw [show pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 (k + 1) = _ from pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 ⟨k, hk⟩]
  rw [trip1_eq]
  rfl

/-- The pieces of the second scratch buffer after one more trip: that trip's slab in front. -/
theorem pb1_succ_snd (k : ℕ) (hk : k < k0_t1_loop.trips) :
    (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 (k + 1)).2 = (⟨Rect.unit (s := S16x256x128) (k0_off4 ⟨k, hk⟩) S1x256x128.size (k0_off4_inb ⟨k, hk⟩), slabLat arg2 arg8 arg9 arg10 arg11 v0 v1 X_arg2 X_arg8 X_arg9 X_arg10 X_arg11 ⟨k, hk⟩⟩ : View.Piece (Elt F) S16x256x128 .f32) :: (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 k).2 := by
  rw [show pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 (k + 1) = _ from pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 ⟨k, hk⟩]
  rw [trip1_eq]
  rfl

/-- After k trips an entry of slab cc < k of the first scratch buffer is what trip cc stored: later trips write other slabs. -/
theorem read_cm : ∀ (k : ℕ) (hk : k ≤ k0_t1_loop.trips) (cc : Fin 16) (r : Fin 256) (l : Fin 128) (h : cc.val < k),
    arg17.view.read (Elt F) (arg17.view.writes (Elt F) G_arg17 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 k).1) (ix3 cc r l)
      = slabCm arg2 arg4 arg5 arg6 arg7 v0 v1 X_arg2 X_arg4 X_arg5 X_arg6 X_arg7 ⟨cc.val, Nat.lt_of_lt_of_le h hk⟩ (ix3 0 r l)
  | 0, _, _, _, _, h => absurd h (Nat.not_lt_zero _)
  | k + 1, hk, cc, r, l, h => by
    have hk' : k < k0_t1_loop.trips := hk
    rw [pb1_succ_fst 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 k hk']
    by_cases e : cc.val = k
    · have e' : (⟨cc.val, Nat.lt_of_lt_of_le h hk⟩ : Fin k0_t1_loop.trips) = ⟨k, hk'⟩ := Fin.ext e
      rw [e']
      exact View.read_writes_cons_unit_of_mem arg17.view G_arg17 (k0_off4_inb ⟨k, hk'⟩) (slabCm arg2 arg4 arg5 arg6 arg7 v0 v1 X_arg2 X_arg4 X_arg5 X_arg6 X_arg7 ⟨k, hk'⟩) _
        (ix3 cc r l) (ix3 0 r l) (k0_off4_eq ⟨k, hk'⟩) (fun a => by
          match a with
          | ⟨0, _⟩ => show cc.val = k + 0; omega
          | ⟨1, _⟩ => show r.val = 0 + r.val; omega
          | ⟨2, _⟩ => show l.val = 0 + l.val; omega)
    · rw [View.read_writes_cons_unit_of_not_mem arg17.view G_arg17 (k0_off4_inb ⟨k, hk'⟩) (slabCm arg2 arg4 arg5 arg6 arg7 v0 v1 X_arg2 X_arg4 X_arg5 X_arg6 X_arg7 ⟨k, hk'⟩) _
        (ix3 cc r l) (k0_off4_eq ⟨k, hk'⟩) (0 : Fin 3) (Or.inl (by show cc.val < k; omega))]
      exact read_cm k (Nat.le_of_lt hk') cc r l (by omega)

/-- After k trips an entry of slab cc < k of the second scratch buffer is what trip cc stored. -/
theorem read_lat : ∀ (k : ℕ) (hk : k ≤ k0_t1_loop.trips) (cc : Fin 16) (r : Fin 256) (l : Fin 128) (h : cc.val < k),
    arg18.view.read (Elt F) (arg18.view.writes (Elt F) G_arg18 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 k).2) (ix3 cc r l)
      = slabLat arg2 arg8 arg9 arg10 arg11 v0 v1 X_arg2 X_arg8 X_arg9 X_arg10 X_arg11 ⟨cc.val, Nat.lt_of_lt_of_le h hk⟩ (ix3 0 r l)
  | 0, _, _, _, _, h => absurd h (Nat.not_lt_zero _)
  | k + 1, hk, cc, r, l, h => by
    have hk' : k < k0_t1_loop.trips := hk
    rw [pb1_succ_snd 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 X_arg2 X_arg4 X_arg5 X_arg6 X_arg7 X_arg8 X_arg9 X_arg10 X_arg11 G_arg17 G_arg18 k hk']
    by_cases e : cc.val = k
    · have e' : (⟨cc.val, Nat.lt_of_lt_of_le h hk⟩ : Fin k0_t1_loop.trips) = ⟨k, hk'⟩ := Fin.ext e
      rw [e']
      exact View.read_writes_cons_unit_of_mem arg18.view G_arg18 (k0_off4_inb ⟨k, hk'⟩) (slabLat arg2 arg8 arg9 arg10 arg11 v0 v1 X_arg2 X_arg8 X_arg9 X_arg10 X_arg11 ⟨k, hk'⟩) _
        (ix3 cc r l) (ix3 0 r l) (k0_off4_eq ⟨k, hk'⟩) (fun a => by
          match a with
          | ⟨0, _⟩ => show cc.val = k + 0; omega
          | ⟨1, _⟩ => show r.val = 0 + r.val; omega
          | ⟨2, _⟩ => show l.val = 0 + l.val; omega)
    · rw [View.read_writes_cons_unit_of_not_mem arg18.view G_arg18 (k0_off4_inb ⟨k, hk'⟩) (slabLat arg2 arg8 arg9 arg10 arg11 v0 v1 X_arg2 X_arg8 X_arg9 X_arg10 X_arg11 ⟨k, hk'⟩) _
        (ix3 cc r l) (k0_off4_eq ⟨k, hk'⟩) (0 : Fin 3) (Or.inl (by show cc.val < k; omega))]
      exact read_lat k (Nat.le_of_lt hk') cc r l (by omega)

end FirstReads

/-! ## The second loop -/

section Second

variable (X_arg12 : BufTy.Contents (Elt F) arg12.view.ty) (X_arg18 : BufTy.Contents (Elt F) arg18.view.ty)
  (G_arg19 : BufTy.Contents (Elt F) arg19.view.ty)

/-- A load of a whole buffer reads its contents. -/
theorem readAt_whole2 {sig' : RefSig} (v : View sig' .tc .vmem S256x128 .f32) (f : v.ty.Contents (Elt F)) :
    View.readAt (Elt F) v (Rect.unit (s := S256x128) ![0, 0] S256x128.size inb_S256x128_S256x128_0_0).toLoadRect f
      = v.read (Elt F) f := by
  rw [View.readAt_eq_ld]
  exact View.ld_unit_zero (funext fun a => by match a with | ⟨0, _⟩ => rfl | ⟨1, _⟩ => rfl) _ _

/-- One accumulation step: the accumulator plus the product of slab kk of the mixed lanes with slab kk of the head matrix. -/
def headStep (kk : Fin k0_t2_loop.trips) (z : FVec F S256x128 .f32) : FVec F S256x128 .f32 :=
  k0_pay1
    (View.readAt (Elt F) arg18.view (Rect.unit (s := S16x256x128) (k0_off6 kk) S1x256x128.size (k0_off6_inb kk)).toLoadRect X_arg18)
    (View.readAt (Elt F) arg12.view (Rect.unit (s := S16x128x128) (k0_off7 kk) S1x128x128.size (k0_off7_inb kk)).toLoadRect X_arg12)
    z

/-- One trip of the second loop stores one accumulation step of what it finds, over the whole accumulator. -/
theorem trip2_eq (kk : Fin k0_t2_loop.trips) (f_arg19 : BufTy.Contents (Elt F) arg19.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg12 X_arg18 kk f_arg19
      = [⟨Rect.unit (s := S256x128) ![0, 0] S256x128.size inb_S256x128_S256x128_0_0,
          headStep arg12 arg18 X_arg12 X_arg18 kk
            (View.readAt (Elt F) arg19.view (Rect.unit (s := S256x128) ![0, 0] S256x128.size inb_S256x128_S256x128_0_0).toLoadRect f_arg19)⟩] := by
  unfold tripL_k0_t2
  unfold trip_k0_t2
  rfl

/-- The accumulator after k trips, from its contents at loop entry. -/
def headAcc : ℕ → FVec F S256x128 .f32
  | 0 => arg19.view.read (Elt F) G_arg19
  | k + 1 => if h : k < k0_t2_loop.trips then headStep arg12 arg18 X_arg12 X_arg18 ⟨k, h⟩ (headAcc k) else headAcc k

/-- After k trips the accumulator holds the k-fold iterate. -/
theorem read_acc : ∀ (k : ℕ) (hk : k ≤ k0_t2_loop.trips),
    arg19.view.read (Elt F) (arg19.view.writes (Elt F) G_arg19 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg12 X_arg18 G_arg19 k))
      = headAcc arg12 arg18 arg19 X_arg12 X_arg18 G_arg19 k
  | 0, _ => rfl
  | k + 1, hk => by
    have hk' : k < k0_t2_loop.trips := hk
    rw [show pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg12 X_arg18 G_arg19 (k + 1) = _ from
      pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg12 X_arg18 G_arg19 ⟨k, hk'⟩]
    rw [trip2_eq, readAt_whole2, read_acc k (Nat.le_of_lt hk')]
    funext y
    rw [headAcc, dif_pos hk']
    exact View.read_writes_cons_unit_of_mem arg19.view G_arg19 inb_S256x128_S256x128_0_0 _ _ y y rfl (fun a => by
      match a with
      | ⟨0, _⟩ => show (y 0).val = 0 + (y 0).val; omega
      | ⟨1, _⟩ => show (y 1).val = 0 + (y 1).val; omega)

end Second

end Cert.KernelIdeal.KTrips

end
-- ==== Proof.Closed.lean ====
/-
  What the kernel body leaves in its output block, as one closed term of the blocks it loads.

  Slab c of the first scratch buffer is the concept's own two-layer map of the gated input, computed from slab c of
  the gate logits and of the concept's weights; slab c of the second is the shared two-layer map of the same gated
  input. The bottleneck mix is computed from the two buffers whole and written over the second. The head's first
  layer starts from zero and adds, concept by concept, the product of slab c of the mix with slab c of the head
  matrix. The last layer is applied to that sum. None of this depends on what the scratch buffers held before.
-/
import proofs.«168377_j46110768889918_2_alg».proof.Proof.KTrips

set_option maxRecDepth 16384

noncomputable section

namespace Cert.KernelIdeal.Closed

open Cert.KernelIdeal Cert.KernelIdeal.Gen
open Idealize.ShloMosaic Idealize.ShloMosaic.TcCoe Idealize.ShloMosaic.ValueIdx

variable {F : FTy → Type} [FloatOps F]

variable (arg1 : Memref sig .tc .vmem S256x2048 .f32) (harg1 : arg1.IsWhole) (arg2 : Memref sig .tc .vmem S16x2048 .f32) (harg2 : arg2.IsWhole) (arg3 : Memref sig .tc .vmem S2048 .f32) (harg3 : arg3.IsWhole) (arg4 : Memref sig .tc .vmem S16x2048x256 .bf16) (harg4 : arg4.IsWhole) (arg5 : Memref sig .tc .vmem S16x256 .f32) (harg5 : arg5.IsWhole) (arg6 : Memref sig .tc .vmem S16x256x128 .bf16) (harg6 : arg6.IsWhole) (arg7 : Memref sig .tc .vmem S16x128 .f32) (harg7 : arg7.IsWhole) (arg8 : Memref sig .tc .vmem S2048x512 .bf16) (harg8 : arg8.IsWhole) (arg9 : Memref sig .tc .vmem S512 .f32) (harg9 : arg9.IsWhole) (arg10 : Memref sig .tc .vmem S512x128 .bf16) (harg10 : arg10.IsWhole) (arg11 : Memref sig .tc .vmem S128 .f32) (harg11 : arg11.IsWhole) (arg12 : Memref sig .tc .vmem S16x128x128 .bf16) (harg12 : arg12.IsWhole) (arg13 : Memref sig .tc .vmem S128 .f32) (harg13 : arg13.IsWhole) (arg14 : Memref sig .tc .vmem S128x256 .bf16) (harg14 : arg14.IsWhole) (arg15 : Memref sig .tc .vmem S256 .f32) (harg15 : arg15.IsWhole) (arg16 : Memref sig .tc .vmem S256x256 .f32) (harg16 : arg16.IsWhole) (arg17 : Memref sig .tc .vmem S16x256x128 .f32) (harg17 : arg17.IsWhole) (arg18 : Memref sig .tc .vmem S16x256x128 .f32) (harg18 : arg18.IsWhole) (arg19 : Memref sig .tc .vmem S256x128 .f32) (harg19 : arg19.IsWhole)
  (x0 : Vec F S256x2048 .f32) (x1 : Vec F S16x2048 .f32) (x2 : Vec F S2048 .f32) (x3 : Vec F S16x2048x256 .bf16) (x4 : Vec F S16x256 .f32) (x5 : Vec F S16x256x128 .bf16) (x6 : Vec F S16x128 .f32) (x7 : Vec F S2048x512 .bf16) (x8 : Vec F S512 .f32) (x9 : Vec F S512x128 .bf16) (x10 : Vec F S128 .f32) (x11 : Vec F S16x128x128 .bf16) (x12 : Vec F S128 .f32) (x13 : Vec F S128x256 .bf16) (x14 : Vec F S256 .f32)

/-- The first loop runs sixteen trips. -/
theorem trips1 : k0_t1_loop.trips = 16 := by decide

/-- The second loop runs sixteen trips. -/
theorem trips2 : k0_t2_loop.trips = 16 := by decide

/-- The concept vectors of all sixteen concepts: slab c is what trip c of the first loop stores. -/
def cmAll : FVec F S16x256x128 .f32 := fun j =>
  KTrips.slabCm arg2 arg4 arg5 arg6 arg7 x0 x2 (harg2.unread x1) (harg4.unread x3) (harg5.unread x4) (harg6.unread x5) (harg7.unread x6)
    ⟨(j 0).val, by rw [trips1]; exact (j 0).isLt⟩ (ix3 0 (j 1) (j 2))

/-- The latent vectors of all sixteen concepts. -/
def latAll : FVec F S16x256x128 .f32 := fun j =>
  KTrips.slabLat arg2 arg8 arg9 arg10 arg11 x0 x2 (harg2.unread x1) (harg8.unread x7) (harg9.unread x8) (harg10.unread x9) (harg11.unread x10)
    ⟨(j 0).val, by rw [trips1]; exact (j 0).isLt⟩ (ix3 0 (j 1) (j 2))

/-- The bottleneck mix of all sixteen concepts. -/
def mixedAll : FVec F S16x256x128 .f32 :=
  k0_pay6 (cmAll arg2 harg2 arg4 harg4 arg5 harg5 arg6 harg6 arg7 harg7 x0 x1 x2 x3 x4 x5 x6)
    (latAll arg2 harg2 arg8 harg8 arg9 harg9 arg10 harg10 arg11 harg11 x0 x1 x2 x7 x8 x9 x10)

/-- The head's first-layer sum after k concepts, from zero. -/
def accAt (k : ℕ) : FVec F S256x128 .f32 :=
  KTrips.headAcc arg12 arg18 arg19 (harg12.unread x11)
    (harg18.unread (mixedAll arg2 harg2 arg4 harg4 arg5 harg5 arg6 harg6 arg7 harg7 arg8 harg8 arg9 harg9 arg10 harg10 arg11 harg11 x0 x1 x2 x3 x4 x5 x6 x7 x8 x9 x10))
    (harg19.unread (k0_pay7 (F := F))) k

/-- The output block. -/
def out : FVec F S256x256 .f32 :=
  k0_pay2 (accAt arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 16) x12 x13 x14

end Cert.KernelIdeal.Closed

end
-- ==== Proof.RunOpen.lean ====
/-
  The piece the kernel body's run leaves in the output block, read in closed form.

  The run stores once into the output block, over all of it. The stored value is the last layer applied to what the
  third scratch buffer holds after the second loop, which is sixteen accumulation steps from the zero block; each
  step reads a slab of the second scratch buffer, which by then holds the bottleneck mix computed from the two
  scratch buffers as the first loop left them; and an entry of slab c of either buffer after the first loop is what
  trip c stored there, because the other trips write other slabs. So the stored value is a function of the loaded
  input blocks alone: what the scratch buffers held when the body started does not enter it.
-/
import proofs.«168377_j46110768889918_2_alg».proof.Proof.KernelIdealRunA
import proofs.«168377_j46110768889918_2_alg».proof.Proof.KTrips
import proofs.«168377_j46110768889918_2_alg».proof.Proof.Closed
import Idealize.ShloMosaic.Lib.Pipeline.Value

set_option maxRecDepth 16384

noncomputable section

namespace Cert.KernelIdeal.RunOpen

open Cert.KernelIdeal Cert.KernelIdeal.Gen Cert.KernelIdeal.GenP
open Idealize.ShloMosaic Idealize.ShloMosaic.TcCoe Idealize.ShloMosaic.Tactic Idealize.ShloMosaic.ValueIdx

variable {F : FTy → Type} [FloatOps F]

theorem hz1 : (![0] : Fin 1 → ℕ) = fun _ => 0 := funext fun a => by match a with | ⟨0, _⟩ => rfl
theorem hz2 : (![0, 0] : Fin 2 → ℕ) = fun _ => 0 := funext fun a => by match a with | ⟨0, _⟩ => rfl | ⟨1, _⟩ => rfl
theorem hz3 : (![0, 0, 0] : Fin 3 → ℕ) = fun _ => 0 := funext fun a => by match a with | ⟨0, _⟩ => rfl | ⟨1, _⟩ => rfl | ⟨2, _⟩ => rfl

/-- A load of a whole buffer reads its contents. -/
theorem readAt_whole {sig' : RefSig} {S : Shape} {e : EltTy} (v : View sig' .tc .vmem S e) (f : v.ty.Contents (Elt F))
    (off : Fin S.rank → ℕ) (hz : off = fun _ => 0) (inb : ∀ a, off a + S.size a ≤ S.size a) :
    View.readAt (Elt F) v (Rect.unit (s := S) off S.size inb).toLoadRect f = v.read (Elt F) f := by
  rw [View.readAt_eq_ld]
  exact View.ld_unit_zero hz inb _

/-- A load of a whole staging buffer holding an input block reads the block. -/
theorem readAt_whole_unread {S : Shape} {e : EltTy} (a : Memref sig .tc .vmem S e) (h : a.IsWhole) (X : Vec F S e)
    (off : Fin S.rank → ℕ) (hz : off = fun _ => 0) (inb : ∀ a, off a + S.size a ≤ S.size a) :
    View.readAt (Elt F) a.view (Rect.unit (s := S) off S.size inb).toLoadRect (h.unread X) = X := by
  rw [readAt_whole a.view _ off hz inb, h.read_unread]

/-- A buffer written once, over all of it, reads what was written. -/
theorem read_write_whole {sig' : RefSig} {S : Shape} {e : EltTy} (v : View sig' .tc .vmem S e) (f : v.ty.Contents (Elt F))
    (off : Fin S.rank → ℕ) (hz : off = fun _ => 0) (inb : ∀ a, off a + S.size a ≤ S.size a) (w : S.Idx → Elt F e) :
    v.read (Elt F) (v.writes (Elt F) f [(⟨Rect.unit (s := S) off S.size inb, w⟩ : View.Piece (Elt F) S e)]) = w :=
  (View.read_writes_eq_canon v f _ (fun y => ⟨_, List.mem_singleton_self _, View.mem_set_unit_zero hz inb y⟩)).trans
    (View.canon_unit_zero hz inb w)

/-- The same for a store through a memref's whole rectangle. -/
theorem read_access_write_whole {S : Shape} {e : EltTy} (a : Memref sig .tc .vmem S e) (f : a.view.ty.Contents (Elt F))
    (off : Fin S.rank → ℕ) (hz : off = fun _ => 0) (inb : ∀ a, off a + S.size a ≤ S.size a) (w : S.Idx → Elt F e) :
    a.view.read (Elt F) (View.write (Elt F) (a.access (Rect.unit (s := S) off S.size inb)) f w Finset.univ) = w :=
  read_write_whole a.view f off hz inb w

variable (c : Dev nD) (i : grid0.Coords) (arg1 : Memref sig .tc .vmem S256x2048 .f32) (harg1 : arg1.IsWhole) (arg2 : Memref sig .tc .vmem S16x2048 .f32) (harg2 : arg2.IsWhole) (arg3 : Memref sig .tc .vmem S2048 .f32) (harg3 : arg3.IsWhole) (arg4 : Memref sig .tc .vmem S16x2048x256 .bf16) (harg4 : arg4.IsWhole) (arg5 : Memref sig .tc .vmem S16x256 .f32) (harg5 : arg5.IsWhole) (arg6 : Memref sig .tc .vmem S16x256x128 .bf16) (harg6 : arg6.IsWhole) (arg7 : Memref sig .tc .vmem S16x128 .f32) (harg7 : arg7.IsWhole) (arg8 : Memref sig .tc .vmem S2048x512 .bf16) (harg8 : arg8.IsWhole) (arg9 : Memref sig .tc .vmem S512 .f32) (harg9 : arg9.IsWhole) (arg10 : Memref sig .tc .vmem S512x128 .bf16) (harg10 : arg10.IsWhole) (arg11 : Memref sig .tc .vmem S128 .f32) (harg11 : arg11.IsWhole) (arg12 : Memref sig .tc .vmem S16x128x128 .bf16) (harg12 : arg12.IsWhole) (arg13 : Memref sig .tc .vmem S128 .f32) (harg13 : arg13.IsWhole) (arg14 : Memref sig .tc .vmem S128x256 .bf16) (harg14 : arg14.IsWhole) (arg15 : Memref sig .tc .vmem S256 .f32) (harg15 : arg15.IsWhole) (arg16 : Memref sig .tc .vmem S256x256 .f32) (harg16 : arg16.IsWhole) (arg17 : Memref sig .tc .vmem S16x256x128 .f32) (harg17 : arg17.IsWhole) (arg18 : Memref sig .tc .vmem S16x256x128 .f32) (harg18 : arg18.IsWhole) (arg19 : Memref sig .tc .vmem S256x128 .f32) (harg19 : arg19.IsWhole)
  (x0 : Vec F S256x2048 .f32) (x1 : Vec F S16x2048 .f32) (x2 : Vec F S2048 .f32) (x3 : Vec F S16x2048x256 .bf16) (x4 : Vec F S16x256 .f32) (x5 : Vec F S16x256x128 .bf16) (x6 : Vec F S16x128 .f32) (x7 : Vec F S2048x512 .bf16) (x8 : Vec F S512 .f32) (x9 : Vec F S512x128 .bf16) (x10 : Vec F S128 .f32) (x11 : Vec F S16x128x128 .bf16) (x12 : Vec F S128 .f32) (x13 : Vec F S128x256 .bf16) (x14 : Vec F S256 .f32)

/-! ## The accumulation depends on the second scratch buffer and on its own start only through what they read -/

theorem headStep_congr (X12 : BufTy.Contents (Elt F) arg12.view.ty) (X18 X18' : BufTy.Contents (Elt F) arg18.view.ty)
    (h18 : arg18.view.read (Elt F) X18 = arg18.view.read (Elt F) X18') (kk : Fin k0_t2_loop.trips) (z : FVec F S256x128 .f32) :
    KTrips.headStep arg12 arg18 X12 X18 kk z = KTrips.headStep arg12 arg18 X12 X18' kk z := by
  unfold KTrips.headStep
  have e : View.readAt (Elt F) arg18.view (Rect.unit (s := S16x256x128) (k0_off6 kk) S1x256x128.size (k0_off6_inb kk)).toLoadRect X18
      = View.readAt (Elt F) arg18.view (Rect.unit (s := S16x256x128) (k0_off6 kk) S1x256x128.size (k0_off6_inb kk)).toLoadRect X18' := by
    show View.ld (arg18.view.read (Elt F) X18) _ = View.ld (arg18.view.read (Elt F) X18') _
    rw [h18]
  rw [e]

theorem headAcc_congr (X12 : BufTy.Contents (Elt F) arg12.view.ty) (X18 X18' : BufTy.Contents (Elt F) arg18.view.ty)
    (G19 G19' : BufTy.Contents (Elt F) arg19.view.ty)
    (h18 : arg18.view.read (Elt F) X18 = arg18.view.read (Elt F) X18')
    (h19 : arg19.view.read (Elt F) G19 = arg19.view.read (Elt F) G19') :
    ∀ k : ℕ, KTrips.headAcc arg12 arg18 arg19 X12 X18 G19 k = KTrips.headAcc arg12 arg18 arg19 X12 X18' G19' k
  | 0 => h19
  | k + 1 => by
    simp only [KTrips.headAcc]
    by_cases h : k < k0_t2_loop.trips
    · rw [dif_pos h, dif_pos h, headAcc_congr X12 X18 X18' G19 G19' h18 h19 k]
      exact headStep_congr arg12 arg18 X12 X18 X18' h18 ⟨k, h⟩ _
    · rw [dif_neg h, dif_neg h]
      exact headAcc_congr X12 X18 X18' G19 G19' h18 h19 k

/-! ## The three reads -/

/-- The first scratch buffer, read whole after the first loop, holds the sixteen concept vectors. -/
theorem cm_read (G17 : BufTy.Contents (Elt F) arg17.view.ty) (G18 : BufTy.Contents (Elt F) arg18.view.ty) :
    View.readAt (Elt F) arg17.view (Rect.unit (s := S16x256x128) ![0, 0, 0] S16x256x128.size inb_S16x256x128_S16x256x128_0_0_0).toLoadRect
        (arg17.view.writes (Elt F) G17
          (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 (harg2.unread x1) (harg4.unread x3) (harg5.unread x4) (harg6.unread x5) (harg7.unread x6) (harg8.unread x7) (harg9.unread x8) (harg10.unread x9) (harg11.unread x10) G17 G18
            (Scf.trips k0_t1_loop.lb k0_t1_loop.ub k0_t1_loop.st)).1)
      = Closed.cmAll arg2 harg2 arg4 harg4 arg5 harg5 arg6 harg6 arg7 harg7 x0 x1 x2 x3 x4 x5 x6 := by
  have hT : Scf.trips k0_t1_loop.lb k0_t1_loop.ub k0_t1_loop.st = 16 := by decide
  rw [readAt_whole arg17.view _ _ hz3]
  funext j
  refine (congrArg (arg17.view.read (Elt F) _) (eq_ix3 j)).trans ?_
  exact KTrips.read_cm Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 (harg2.unread x1) (harg4.unread x3) (harg5.unread x4) (harg6.unread x5) (harg7.unread x6) (harg8.unread x7) (harg9.unread x8) (harg10.unread x9) (harg11.unread x10) G17 G18
    (Scf.trips k0_t1_loop.lb k0_t1_loop.ub k0_t1_loop.st) (le_of_eq (hT.trans Closed.trips1.symm)) (j 0) (j 1) (j 2) (by rw [hT]; exact (j 0).isLt)

/-- The second scratch buffer, read whole after the first loop, holds the sixteen latent vectors. -/
theorem lat_read (G17 : BufTy.Contents (Elt F) arg17.view.ty) (G18 : BufTy.Contents (Elt F) arg18.view.ty) :
    View.readAt (Elt F) arg18.view (Rect.unit (s := S16x256x128) ![0, 0, 0] S16x256x128.size inb_S16x256x128_S16x256x128_0_0_0).toLoadRect
        (arg18.view.writes (Elt F) G18
          (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 (harg2.unread x1) (harg4.unread x3) (harg5.unread x4) (harg6.unread x5) (harg7.unread x6) (harg8.unread x7) (harg9.unread x8) (harg10.unread x9) (harg11.unread x10) G17 G18
            (Scf.trips k0_t1_loop.lb k0_t1_loop.ub k0_t1_loop.st)).2)
      = Closed.latAll arg2 harg2 arg8 harg8 arg9 harg9 arg10 harg10 arg11 harg11 x0 x1 x2 x7 x8 x9 x10 := by
  have hT : Scf.trips k0_t1_loop.lb k0_t1_loop.ub k0_t1_loop.st = 16 := by decide
  rw [readAt_whole arg18.view _ _ hz3]
  funext j
  refine (congrArg (arg18.view.read (Elt F) _) (eq_ix3 j)).trans ?_
  exact KTrips.read_lat Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 (harg2.unread x1) (harg4.unread x3) (harg5.unread x4) (harg6.unread x5) (harg7.unread x6) (harg8.unread x7) (harg9.unread x8) (harg10.unread x9) (harg11.unread x10) G17 G18
    (Scf.trips k0_t1_loop.lb k0_t1_loop.ub k0_t1_loop.st) (le_of_eq (hT.trans Closed.trips1.symm)) (j 0) (j 1) (j 2) (by rw [hT]; exact (j 0).isLt)

/-- The third scratch buffer, read whole after the second loop: sixteen accumulation steps from zero, over whatever
    contents of the second scratch buffer read as w18. -/
theorem acc_read (X12 : BufTy.Contents (Elt F) arg12.view.ty) (X18 : BufTy.Contents (Elt F) arg18.view.ty)
    (w18 : FVec F S16x256x128 .f32) (h18 : arg18.view.read (Elt F) X18 = w18) :
    View.readAt (Elt F) arg19.view (Rect.unit (s := S256x128) ![0, 0] S256x128.size inb_S256x128_S256x128_0_0).toLoadRect
        (arg19.view.writes (Elt F) arg19.view.junk
          (pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X18
              (arg19.view.writes (Elt F) arg19.view.junk [(⟨(Rect.unit (s := S256x128) ![0, 0] S256x128.size inb_S256x128_S256x128_0_0), k0_pay7⟩ : View.Piece (Elt F) S256x128 .f32)])
              (Scf.trips k0_t2_loop.lb k0_t2_loop.ub k0_t2_loop.st)
            ++ [(⟨(Rect.unit (s := S256x128) ![0, 0] S256x128.size inb_S256x128_S256x128_0_0), k0_pay7⟩ : View.Piece (Elt F) S256x128 .f32)]))
      = KTrips.headAcc arg12 arg18 arg19 X12 (harg18.unread w18) (harg19.unread (k0_pay7 (F := F))) 16 := by
  have hT : Scf.trips k0_t2_loop.lb k0_t2_loop.ub k0_t2_loop.st = 16 := by decide
  rw [hT, readAt_whole arg19.view _ _ hz2, View.writes_append,
    KTrips.read_acc Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X12 X18 _ 16 (le_of_eq Closed.trips2.symm)]
  refine headAcc_congr arg12 arg18 arg19 X12 X18 _ _ _ (h18.trans (harg18.read_unread (Val := Elt F) w18).symm) ?_ 16
  exact (read_write_whole arg19.view _ _ hz2 _ _).trans (harg19.read_unread (Val := Elt F) (k0_pay7 (F := F))).symm

/-! ## The piece list -/

/-- The run's one piece: the whole output block at the closed form, whatever the scratch buffers held at entry. -/
theorem pieces_eq (s0 : Vec F S16x256x128 .f32) (s1 : Vec F S16x256x128 .f32) (s2 : Vec F S256x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 s0 s1 s2).1
      = [(⟨(Rect.unit (s := S256x256) ![0, 0] S256x256.size inb_S256x256_S256x256_0_0),
          Closed.out arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 x12 x13 x14⟩ : View.Piece (Elt F) S256x256 .f32)] := by
  unfold kernelRun0_A
  dsimp only
  sl_unfold_words
  rw [readAt_whole_unread arg1 harg1 x0 _ hz2, readAt_whole_unread arg3 harg3 x2 _ hz1, readAt_whole_unread arg13 harg13 x12 _ hz1,
    readAt_whole_unread arg14 harg14 x13 _ hz2, readAt_whole_unread arg15 harg15 x14 _ hz1]
  rw [cm_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10, lat_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10]
  rw [acc_read c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (harg12.unread x11) _
    (Closed.mixedAll arg2 harg2 arg4 harg4 arg5 harg5 arg6 harg6 arg7 harg7 arg8 harg8 arg9 harg9 arg10 harg10 arg11 harg11 x0 x1 x2 x3 x4 x5 x6 x7 x8 x9 x10)
    (read_access_write_whole arg18 _ _ hz3 _ _)]
  rfl

end Cert.KernelIdeal.RunOpen

end
-- ==== Proof.Spec.lean ====
/-
  The network both programs compute, stage by stage, as functions of coordinates over the extended reals.

  For a batch row b, a concept c, and feature d: gate c d = σ(fp c d), and the masked input is
  gate·x + (1 − gate)·mean. Each concept has its own two-layer map (weights Wg1, Wg2) giving a concept
  vector cm c b ·, and a shared two-layer map (Wf1, Wf2) giving a latent vector lat c b ·. Concept vectors are
  scaled by the reciprocal root of the sum of their squares over the CONCEPT axis, floored at a small constant
  (cmn). The concept's probability is σ of the inner product of cmn and lat over the 128 lanes. The bottleneck
  mixes the upper and the lower 64 lanes of cmn by that probability; a two-layer head follows.

  Two arrangements of the head's first layer are stated. In the first the bottleneck is laid out flat,
  index q = 64·c + j, against the 1024 rows of the head matrix. In the second every concept contributes all 128
  lanes — lane l mixed with the lane half a turn away — against a matrix whose rows 64..127 are zero. They are
  the same number: the product with a zero row is zero on every extended real, and the remaining terms are the
  same terms grouped by concept.
-/
import Idealize.ShloMosaic.PureOps.Ideal

noncomputable section

open scoped BigOperators

namespace Cert.Spec

open Idealize.ShloMosaic

/-- The float literal one. -/
abbrev one : EReal := Ideal.ofBits .f32 0x3F800000#32
/-- The floor under the sum of squares (the float nearest 1e-12). -/
abbrev eps : EReal := Ideal.ofBits .f32 0x2B8CBCCC#32

variable (x : Fin 4096 → Fin 2048 → EReal) (fp : Fin 16 → Fin 2048 → EReal) (mean : Fin 2048 → EReal)
  (Wg1 : Fin 16 → Fin 2048 → Fin 256 → EReal) (bg1 : Fin 16 → Fin 256 → EReal)
  (Wg2 : Fin 16 → Fin 256 → Fin 128 → EReal) (bg2 : Fin 16 → Fin 128 → EReal)
  (Wf1 : Fin 2048 → Fin 512 → EReal) (bf1 : Fin 512 → EReal)
  (Wf2 : Fin 512 → Fin 128 → EReal) (bf2 : Fin 128 → EReal)
  (Wh : Fin 1024 → Fin 128 → EReal) (bh : Fin 128 → EReal)
  (Wc : Fin 128 → Fin 200 → EReal) (bc : Fin 200 → EReal)

/-- The gate of concept c on feature d. -/
def gate (c : Fin 16) (d : Fin 2048) : EReal := Ideal.logistic (fp c d)

/-- The masked input: the gate's mix of the input and the mean. -/
def masked (c : Fin 16) (b : Fin 4096) (d : Fin 2048) : EReal :=
  gate fp c d * x b d + (one - gate fp c d) * mean d

/-- Hidden layer of the concept's own map. -/
def hidG (c : Fin 16) (b : Fin 4096) (h : Fin 256) : EReal :=
  max (∑ d : Fin 2048, masked x fp mean c b d * Wg1 c d h + bg1 c h) 0

/-- The concept vector. -/
def cm (c : Fin 16) (b : Fin 4096) (l : Fin 128) : EReal :=
  ∑ h : Fin 256, hidG x fp mean Wg1 bg1 c b h * Wg2 c h l + bg2 c l

/-- Sum of squares over the concept axis. -/
def sq (b : Fin 4096) (l : Fin 128) : EReal :=
  ∑ c : Fin 16, cm x fp mean Wg1 bg1 Wg2 bg2 c b l * cm x fp mean Wg1 bg1 Wg2 bg2 c b l

/-- The concept vector scaled to unit length over the concept axis. -/
def cmn (c : Fin 16) (b : Fin 4096) (l : Fin 128) : EReal :=
  cm x fp mean Wg1 bg1 Wg2 bg2 c b l * Ideal.rsqrt (max (sq x fp mean Wg1 bg1 Wg2 bg2 b l) eps)

/-- Hidden layer of the shared map. -/
def hidF (c : Fin 16) (b : Fin 4096) (h : Fin 512) : EReal :=
  max (∑ d : Fin 2048, masked x fp mean c b d * Wf1 d h + bf1 h) 0

/-- The latent vector. -/
def lat (c : Fin 16) (b : Fin 4096) (l : Fin 128) : EReal :=
  ∑ h : Fin 512, hidF x fp mean Wf1 bf1 c b h * Wf2 h l + bf2 l

/-- The concept's probability. -/
def prob (c : Fin 16) (b : Fin 4096) : EReal :=
  Ideal.logistic (∑ l : Fin 128,
    cmn x fp mean Wg1 bg1 Wg2 bg2 c b l * lat x fp mean Wf1 bf1 Wf2 bf2 c b l)

/-! ## The head, flat arrangement -/

/-- The bottleneck at flat index q = 64·c + j: lane 64 + j and lane j of concept c mixed by its probability. -/
def bott (b : Fin 4096) (q : Fin 1024) : EReal :=
  prob x fp mean Wg1 bg1 Wg2 bg2 Wf1 bf1 Wf2 bf2 ⟨q.val / 64, by omega⟩ b
      * cmn x fp mean Wg1 bg1 Wg2 bg2 ⟨q.val / 64, by omega⟩ b ⟨q.val % 64 + 64, by omega⟩
    + (one - prob x fp mean Wg1 bg1 Wg2 bg2 Wf1 bf1 Wf2 bf2 ⟨q.val / 64, by omega⟩ b)
      * cmn x fp mean Wg1 bg1 Wg2 bg2 ⟨q.val / 64, by omega⟩ b ⟨q.val % 64, by omega⟩

/-- The head's hidden layer, flat arrangement. -/
def zFlat (b : Fin 4096) (g : Fin 128) : EReal :=
  max (∑ q : Fin 1024, bott x fp mean Wg1 bg1 Wg2 bg2 Wf1 bf1 Wf2 bf2 b q * Wh q g + bh g) 0

/-- The result, flat arrangement. -/
def outFlat (b : Fin 4096) (n : Fin 200) : EReal :=
  ∑ g : Fin 128, zFlat x fp mean Wg1 bg1 Wg2 bg2 Wf1 bf1 Wf2 bf2 Wh bh b g * Wc g n + bc n

/-! ## The head, by concept with the lanes turned -/

/-- The lane half a turn away. -/
def turn (l : Fin 128) : Fin 128 := if h : 64 ≤ l.val then ⟨l.val - 64, by omega⟩ else ⟨l.val + 64, by omega⟩

/-- All 128 lanes of concept c: lane l mixed with the lane half a turn away. -/
def mixed (c : Fin 16) (b : Fin 4096) (l : Fin 128) : EReal :=
  prob x fp mean Wg1 bg1 Wg2 bg2 Wf1 bf1 Wf2 bf2 c b * cmn x fp mean Wg1 bg1 Wg2 bg2 c b (turn l)
    + (one - prob x fp mean Wg1 bg1 Wg2 bg2 Wf1 bf1 Wf2 bf2 c b) * cmn x fp mean Wg1 bg1 Wg2 bg2 c b l

/-- The head matrix by concept, 128 rows each, rows 64..127 zero. -/
def headRows (c : Fin 16) (l : Fin 128) (g : Fin 128) : EReal :=
  if h : l.val < 64 then Wh ⟨64 * c.val + l.val, by omega⟩ g else 0

/-- The head's hidden layer, by concept. -/
def zByConcept (b : Fin 4096) (g : Fin 128) : EReal :=
  max (∑ c : Fin 16, ∑ l : Fin 128,
      mixed x fp mean Wg1 bg1 Wg2 bg2 Wf1 bf1 Wf2 bf2 c b l * headRows Wh c l g + bh g) 0

/-- The result, by concept. -/
def outByConcept (b : Fin 4096) (n : Fin 200) : EReal :=
  ∑ g : Fin 128, zByConcept x fp mean Wg1 bg1 Wg2 bg2 Wf1 bf1 Wf2 bf2 Wh bh b g * Wc g n + bc n

end Cert.Spec

end
-- ==== Proof.PayHead.lean ====
/-
  Four of the kernel body's stored values read at one entry, over the extended reals: the zero splat; an accumulator plus a
  matrix product of two slabs; a rectified affine layer times a matrix plus a bias row; and the bottleneck mix — each
  concept vector scaled by the reciprocal root of the sum of squares over the concept axis (floored at a small constant),
  its probability the logistic of the lane inner product with a second vector, and each lane mixed with the lane half a
  turn away by that probability.
-/
import proofs.«168377_j46110768889918_2_alg».proof.Proof.Gen.KernelIdeal.Skeleton
import proofs.«168377_j46110768889918_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.KernelVsHost

noncomputable section

open scoped BigOperators

namespace Cert.KernelIdeal.Pay

open Cert.KernelIdeal Cert.KernelIdeal.Gen Idealize.ShloMosaic Idealize.ShloMosaic.ValueIdx

/-- Entry (c, r, l) of v scaled by the reciprocal root of the sum over the first axis of the squares at (·, r, l), floored at eps. -/
def scaled (v3 : Vec Ideal S16x256x128 .f32) (c : Fin 16) (r : Fin 256) (l : Fin 128) : EReal :=
  v3 (ix3 c r l) * Ideal.rsqrt (max (∑ c' : Fin 16, v3 (ix3 c' r l) * v3 (ix3 c' r l)) Cert.Spec.eps)
/-- The logistic of the lane inner product of the scaled entries with v12. -/
def probAt (v3 v12 : Vec Ideal S16x256x128 .f32) (c : Fin 16) (r : Fin 256) : EReal :=
  Ideal.logistic (∑ l : Fin 128, scaled v3 c r l * v12 (ix3 c r l))

/-- The zero splat read at any entry is zero. -/
theorem pay7_apply (r : Fin 256) (g : Fin 128) : k0_pay7 (F := Ideal) (ix2 r g) = 0 := by
  unfold k0_pay7
  show shapeCast S256x128 (broadcast S256x128 (Scalar.ofBits (F := Ideal) .f32 0x00000000#32)) _ (ix2 r g) = 0
  rw [shapeCast_self]
  exact Ideal.ofBits_zero_f32

theorem matmul_256x128_128x128_apply_lhs0 (i : S256x128.Idx) (q : dot_S256x128_S128x128_S256x128_1_0_0_1_n_n.contr.Idx) : (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem matmul_256x128_128x128_apply_lhs1 (i : S256x128.Idx) (q : dot_S256x128_S128x128_S256x128_1_0_0_1_n_n.contr.Idx) : (dot_S256x128_S128x128_S256x128_1_0_0_1_n_n.lhsIdx i q 1).val = (q ⟨0, by decide⟩).val :=
  dot_S256x128_S128x128_S256x128_1_0_0_1_n_n.lhsIdx_val_of_single rfl i q
theorem matmul_256x128_128x128_apply_rhs0 (i : S256x128.Idx) (q : dot_S256x128_S128x128_S256x128_1_0_0_1_n_n.contr.Idx) : (dot_S256x128_S128x128_S256x128_1_0_0_1_n_n.rhsIdx i q 0).val = (q ⟨0, by decide⟩).val :=
  dot_S256x128_S128x128_S256x128_1_0_0_1_n_n.rhsIdx_val_of_single rfl i q
theorem matmul_256x128_128x128_apply_rhs1 (i : S256x128.Idx) (q : dot_S256x128_S128x128_S256x128_1_0_0_1_n_n.contr.Idx) : (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- The product of a [256, 128] matrix with a [128, 128] matrix, accumulated into the zero splat, read at (r, g): the sum
    over the one contracted coordinate of the products of the entries. -/
theorem matmul_256x128_128x128_apply (lhs : FVec Ideal S256x128 .bf16) (rhs : FVec Ideal S128x128 .bf16) (r : Fin 256) (g : Fin 128) :
    matmul dot_S256x128_S128x128_S256x128_1_0_0_1_n_n none lhs rhs (constant (F := Ideal) S256x128 .f32 0x00000000#32) (ix2 r g)
      = ∑ l : Fin 128, lhs (ix2 r l) * rhs (ix2 l g) := by
  simp only [matmul]
  rw [Ideal.matmul_constant_zero_apply, ← Equiv.sum_comp (contrEquiv1 dot_S256x128_S128x128_S256x128_1_0_0_1_n_n 128 rfl rfl).symm]
  refine Finset.sum_congr rfl fun k _ => ?_
  have hk := contrEquiv1_symm_val dot_S256x128_S128x128_S256x128_1_0_0_1_n_n 128 rfl rfl k
  have el : dot_S256x128_S128x128_S256x128_1_0_0_1_n_n.lhsIdx (ix2 r g) ((contrEquiv1 dot_S256x128_S128x128_S256x128_1_0_0_1_n_n 128 rfl rfl).symm k) = ix2 r k := funext fun a => Fin.ext (by
    match a with
    | ⟨0, _⟩ => exact matmul_256x128_128x128_apply_lhs0 _ _
    | ⟨1, _⟩ => exact (matmul_256x128_128x128_apply_lhs1 _ _).trans hk)
  have er : dot_S256x128_S128x128_S256x128_1_0_0_1_n_n.rhsIdx (ix2 r g) ((contrEquiv1 dot_S256x128_S128x128_S256x128_1_0_0_1_n_n 128 rfl rfl).symm k) = ix2 k g := funext fun a => Fin.ext (by
    match a with
    | ⟨0, _⟩ => exact (matmul_256x128_128x128_apply_rhs0 _ _).trans hk
    | ⟨1, _⟩ => exact matmul_256x128_128x128_apply_rhs1 _ _)
  rw [el, er]

theorem matmul_256x128_128x256_apply_lhs0 (i : S256x256.Idx) (q : dot_S256x128_S128x256_S256x256_1_0_0_1_n_n.contr.Idx) : (dot_S256x128_S128x256_S256x256_1_0_0_1_n_n.lhsIdx i q 0).val = (i 0).val := by
  unfold DotDims.lhsIdx
  rw [dif_neg (show ¬(0 : Fin S256x128.rank) ∈ dot_S256x128_S128x256_S256x256_1_0_0_1_n_n.lhsBatch by decide), dif_pos (show (0 : Fin S256x128.rank) ∈ dot_S256x128_S128x256_S256x256_1_0_0_1_n_n.lhsNonContracting by decide)]
  rfl
theorem matmul_256x128_128x256_apply_lhs1 (i : S256x256.Idx) (q : dot_S256x128_S128x256_S256x256_1_0_0_1_n_n.contr.Idx) : (dot_S256x128_S128x256_S256x256_1_0_0_1_n_n.lhsIdx i q 1).val = (q ⟨0, by decide⟩).val :=
  dot_S256x128_S128x256_S256x256_1_0_0_1_n_n.lhsIdx_val_of_single rfl i q
theorem matmul_256x128_128x256_apply_rhs0 (i : S256x256.Idx) (q : dot_S256x128_S128x256_S256x256_1_0_0_1_n_n.contr.Idx) : (dot_S256x128_S128x256_S256x256_1_0_0_1_n_n.rhsIdx i q 0).val = (q ⟨0, by decide⟩).val :=
  dot_S256x128_S128x256_S256x256_1_0_0_1_n_n.rhsIdx_val_of_single rfl i q
theorem matmul_256x128_128x256_apply_rhs1 (i : S256x256.Idx) (q : dot_S256x128_S128x256_S256x256_1_0_0_1_n_n.contr.Idx) : (dot_S256x128_S128x256_S256x256_1_0_0_1_n_n.rhsIdx i q 1).val = (i 1).val := by
  unfold DotDims.rhsIdx
  rw [dif_neg (show ¬(1 : Fin S128x256.rank) ∈ dot_S256x128_S128x256_S256x256_1_0_0_1_n_n.rhsBatch by decide), dif_pos (show (1 : Fin S128x256.rank) ∈ dot_S256x128_S128x256_S256x256_1_0_0_1_n_n.rhsNonContracting by decide)]
  rfl

/-- The product of a [256, 128] matrix with a [128, 256] matrix, accumulated into the zero splat, read at (r, g): the sum
    over the one contracted coordinate of the products of the entries. -/
theorem matmul_256x128_128x256_apply (lhs : FVec Ideal S256x128 .bf16) (rhs : FVec Ideal S128x256 .bf16) (r : Fin 256) (g : Fin 256) :
    matmul dot_S256x128_S128x256_S256x256_1_0_0_1_n_n none lhs rhs (constant (F := Ideal) S256x256 .f32 0x00000000#32) (ix2 r g)
      = ∑ l : Fin 128, lhs (ix2 r l) * rhs (ix2 l g) := by
  simp only [matmul]
  rw [Ideal.matmul_constant_zero_apply, ← Equiv.sum_comp (contrEquiv1 dot_S256x128_S128x256_S256x256_1_0_0_1_n_n 128 rfl rfl).symm]
  refine Finset.sum_congr rfl fun k _ => ?_
  have hk := contrEquiv1_symm_val dot_S256x128_S128x256_S256x256_1_0_0_1_n_n 128 rfl rfl k
  have el : dot_S256x128_S128x256_S256x256_1_0_0_1_n_n.lhsIdx (ix2 r g) ((contrEquiv1 dot_S256x128_S128x256_S256x256_1_0_0_1_n_n 128 rfl rfl).symm k) = ix2 r k := funext fun a => Fin.ext (by
    match a with
    | ⟨0, _⟩ => exact matmul_256x128_128x256_apply_lhs0 _ _
    | ⟨1, _⟩ => exact (matmul_256x128_128x256_apply_lhs1 _ _).trans hk)
  have er : dot_S256x128_S128x256_S256x256_1_0_0_1_n_n.rhsIdx (ix2 r g) ((contrEquiv1 dot_S256x128_S128x256_S256x256_1_0_0_1_n_n 128 rfl rfl).symm k) = ix2 k g := funext fun a => Fin.ext (by
    match a with
    | ⟨0, _⟩ => exact (matmul_256x128_128x256_apply_rhs0 _ _).trans hk
    | ⟨1, _⟩ => exact matmul_256x128_128x256_apply_rhs1 _ _)
  rw [el, er]

/-- The accumulator plus the product of the [1, 256, 128] slab (its unit axis dropped) with the [1, 128, 128] slab. -/
theorem pay1_apply (v53 : Vec Ideal S1x256x128 .f32) (v57 : Vec Ideal S1x128x128 .bf16) (v59 : Vec Ideal S256x128 .f32) (r : Fin 256) (g : Fin 128) :
    k0_pay1 (F := Ideal) v53 v57 v59 (ix2 r g) = v59 (ix2 r g) + ∑ l : Fin 128, v53 (ix3 0 r l) * v57 (ix3 0 l g) := by
  unfold k0_pay1
  show shapeCast S256x128 (addf v59 (matmul dot_S256x128_S128x128_S256x128_1_0_0_1_n_n none
      (truncf .bf16 (shapeCast S256x128 v53 _) _) (shapeCast S128x128 v57 _)
      (constant (F := Ideal) S256x128 .f32 0x00000000#32))) _ (ix2 r g) = _
  rw [shapeCast_self]
  refine congrArg (v59 (ix2 r g) + ·) ?_
  refine (matmul_256x128_128x128_apply _ _ r g).trans ?_
  refine Finset.sum_congr rfl fun l _ => ?_
  refine congrArg₂ (· * ·) ?_ ?_
  · exact shapeCast_1ab_ab_apply v53 _ r l
  · exact shapeCast_1ab_ab_apply v57 _ l g

theorem pay2_apply (v33 : Vec Ideal S256x128 .f32) (v34 : Vec Ideal S128 .f32) (v41 : Vec Ideal S128x256 .bf16) (v43 : Vec Ideal S256 .f32) (r : Fin 256) (n : Fin 256) :
    k0_pay2 (F := Ideal) v33 v34 v41 v43 (ix2 r n) = (∑ g : Fin 128, max (v33 (ix2 r g) + v34 (ix1 g)) 0 * v41 (ix2 g n)) + v43 (ix1 n) := by
  unfold k0_pay2
  show addf (matmul dot_S256x128_S128x256_S256x256_1_0_0_1_n_n none
      (truncf .bf16 (maximumf (addf v33 (broadcastTo S256x128 (shapeCast S1x128 v34 _) _)) (broadcast S256x128 (Scalar.ofBits (F := Ideal) .f32 0x00000000#32))) _)
      (shapeCast S128x256 v41 _)
      (constant (F := Ideal) S256x256 .f32 0x00000000#32))
      (broadcastTo S256x256 (shapeCast S1x256 (shapeCast S256 v43 _) _) _) (ix2 r n) = _
  rw [shapeCast_self, shapeCast_self]
  refine congrArg₂ (· + ·) ?_ ?_
  · refine (matmul_256x128_128x256_apply _ _ r n).trans ?_
    refine Finset.sum_congr rfl fun g _ => ?_
    refine congrArg₂ (· * ·) ?_ rfl
    refine congrArg₂ max (congrArg (v33 (ix2 r g) + ·) ?_) Ideal.ofBits_zero_f32
    exact (broadcastTo_1b_ab_apply _ _ r g).trans (shapeCast_a_1a_apply v34 _ 0 g)
  · exact (broadcastTo_1b_ab_apply _ _ r n).trans (shapeCast_a_1a_apply v43 _ 0 n)

section Layout
variable {α : Type}

/-- A [1, b, c] array broadcast to [a, b, c] reads, at (p, i, j), the operand's one slab at (i, j). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- An [a, b, 1] column array broadcast to [a, b, c] reads, at (p, i, j), the operand's entry (p, i, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (i : Fin b) (j : Fin c) :
    broadcastTo ⟨3, ![a, b, c]⟩ v h (ix3 p i j) = v (ix3 p i (0 : Fin 1)) := by
  refine broadcastTo_apply v h (ix3 p i j) (ix3 p i (0 : Fin 1)) fun ax => ?_
  match ax with
  | ⟨0, _⟩ =>
    show p.val = if a = 1 then 0 else p.val
    split
    · have := p.isLt; omega
    · rfl
  | ⟨1, _⟩ =>
    show i.val = if b = 1 then 0 else i.val
    split
    · have := i.isLt; omega
    · rfl
  | ⟨2, _⟩ => rfl

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

end Layout

/-- The sum over the first axis of a [16, 256, 128] array, read at (r, l). -/
theorem sumAxis0_apply (v : FVec Ideal S16x256x128 .f32) (r : Fin 256) (l : Fin 128) :
    multiReduction (F := Ideal) .add [0] S256x128 v 0x00000000#32 reduces_S16x256x128_S256x128 (.inl rfl) rfl (ix2 r l)
      = ∑ c' : Fin 16, v (ix3 c' r l) := by
  refine (Ideal.multiReduction_add_single v _ reduces_S16x256x128_S256x128 _ _ (ix2 r l)).trans ?_
  refine Finset.sum_congr rfl fun k _ => congrArg v ?_
  funext a
  exact Fin.ext (by match a with | ⟨0, _⟩ => rfl | ⟨1, _⟩ => rfl | ⟨2, _⟩ => rfl)

/-- The sum over the lanes of a [16, 256, 128] array, read at (c, r). -/
theorem sumAxis2_apply (v : FVec Ideal S16x256x128 .f32) (c : Fin 16) (r : Fin 256) :
    multiReduction (F := Ideal) .add [2] S16x256 v 0x00000000#32 reduces_S16x256x128_S16x256 (.inl rfl) rfl (ix2 c r)
      = ∑ l : Fin 128, v (ix3 c r l) := by
  refine (Ideal.multiReduction_add_single v _ reduces_S16x256x128_S16x256 _ _ (ix2 c r)).trans ?_
  refine Finset.sum_congr rfl fun k _ => congrArg v ?_
  funext a
  exact Fin.ext (by match a with | ⟨0, _⟩ => rfl | ⟨1, _⟩ => rfl | ⟨2, _⟩ => rfl)

/-- A rotation of the 128 lanes by 64 reads, at lane l, the operand at the lane half a turn away. -/
theorem rotate64_apply (x : FVec Ideal S16x256x128 .f32) (c : Fin 16) (r : Fin 256) (l : Fin 128) :
    dynamicRotate 2 64#32 none x rotates_S16x256x128_d2 (ix3 c r l) = x (ix3 c r (Cert.Spec.turn l)) := by
  refine dynamicRotate_apply (2 : Fin 3) 64#32 x rotates_S16x256x128_d2 (ix3 c r l) (ix3 c r (Cert.Spec.turn l)) fun b => ?_
  match b with
  | ⟨0, _⟩ => rfl
  | ⟨1, _⟩ => rfl
  | ⟨2, _⟩ =>
    show (Cert.Spec.turn l).val = (l.val + 128 - (64#32 : BitVec 32).toNat % 128) % 128
    have h64 : (64#32 : BitVec 32).toNat = 64 := rfl
    rw [h64]
    unfold Cert.Spec.turn
    have hl := l.isLt
    split
    · show l.val - 64 = _; omega
    · show l.val + 64 = _; omega

/-- The array of scaled entries, as the kernel body computes it: the operand times the reciprocal root of the floored sum
    of squares over the first axis, that [256, 128] sum given a unit axis and broadcast back over the 16 slabs. -/
def scaledVec (v3 : Vec Ideal S16x256x128 .f32) : FVec Ideal S16x256x128 .f32 :=
  mulf v3 (broadcastTo S16x256x128
    (rsqrt (maximumf
      (shapeCast S1x256x128
        (multiReduction .add [0] S256x128 (mulf v3 v3) 0x00000000#32 reduces_S16x256x128_S256x128 (.inl rfl) rfl)
        shapeCasts_S256x128_S1x256x128)
      (broadcast S1x256x128 (Scalar.ofBits .f32 0x2B8CBCCC#32))))
    broadcasts_S1x256x128_S16x256x128)

/-- The scaled array read at (c, r, l). -/
theorem scaledVec_apply (v3 : Vec Ideal S16x256x128 .f32) (c : Fin 16) (r : Fin 256) (l : Fin 128) :
    scaledVec v3 (ix3 c r l) = scaled v3 c r l := by
  unfold scaledVec scaled
  refine congrArg (v3 (ix3 c r l) * ·) ?_
  refine (broadcastTo_1bc_abc_apply _ _ c r l).trans ?_
  refine congrArg (fun t => Ideal.rsqrt (max t Cert.Spec.eps)) ?_
  exact (shapeCast_ab_1ab_apply _ _ 0 r l).trans (sumAxis0_apply (mulf v3 v3) r l)

/-- The column of probabilities, as the kernel body computes it: the logistic of the lane sums of the scaled array times
    the second operand, kept as a [16, 256, 1] column. -/
def probCol (v3 v12 : Vec Ideal S16x256x128 .f32) : FVec Ideal S16x256x1 .f32 :=
  logistic (shapeCast S16x256x1
    (multiReduction .add [2] S16x256 (mulf (scaledVec v3) v12) 0x00000000#32 reduces_S16x256x128_S16x256 (.inl rfl) rfl)
    shapeCasts_S16x256_S16x256x1)

/-- The probability column read at (c, r, ·). -/
theorem probCol_apply (v3 v12 : Vec Ideal S16x256x128 .f32) (c : Fin 16) (r : Fin 256) (u : Fin 1) :
    probCol v3 v12 (ix3 c r u) = probAt v3 v12 c r := by
  unfold probCol probAt
  refine congrArg Ideal.logistic ?_
  refine (shapeCast_ab_ab1_apply _ _ c r u).trans ?_
  refine (sumAxis2_apply _ c r).trans ?_
  exact Finset.sum_congr rfl fun l _ => congrArg (· * v12 (ix3 c r l)) (scaledVec_apply v3 c r l)

/-- The bottleneck mix read at (c, r, l): the probability times the scaled entry half a turn away, plus the complement of
    the probability times the scaled entry itself. -/
theorem pay6_apply (v3 v12 : Vec Ideal S16x256x128 .f32) (c : Fin 16) (r : Fin 256) (l : Fin 128) :
    k0_pay6 (F := Ideal) v3 v12 (ix3 c r l)
      = probAt v3 v12 c r * scaled v3 c r (Cert.Spec.turn l) + (Cert.Spec.one - probAt v3 v12 c r) * scaled v3 c r l := by
  unfold k0_pay6
  show shapeCast S16x256x128
      (addf
        (mulf (broadcastTo S16x256x128 (probCol v3 v12) _) (dynamicRotate 2 64#32 none (scaledVec v3) _))
        (mulf (broadcastTo S16x256x128 (subf (broadcast S16x256x1 (Scalar.ofBits (F := Ideal) .f32 0x3F800000#32)) (probCol v3 v12)) _)
          (scaledVec v3))) _ (ix3 c r l) = _
  rw [shapeCast_self]
  refine congrArg₂ (· + ·) (congrArg₂ (· * ·) ?_ ?_) (congrArg₂ (· * ·) ?_ ?_)
  · exact (broadcastTo_ab1_abc_apply _ _ c r l).trans (probCol_apply v3 v12 c r 0)
  · exact (rotate64_apply _ c r l).trans (scaledVec_apply v3 c r _)
  · exact (broadcastTo_ab1_abc_apply _ _ c r l).trans (congrArg (Cert.Spec.one - ·) (probCol_apply v3 v12 c r 0))
  · exact scaledVec_apply v3 c r l

end Cert.KernelIdeal.Pay

end
-- ==== Proof.PointHead.lean ====
/-
  The stored values of the kernel body tied to the stages of the network: the bottleneck mix is the specification's mixed
  lane when the operands hold the concept and latent vectors of one batch row; sixteen accumulation steps from zero are
  the sum over the concepts; and the last layer applied to the accumulated head sum is the specification's result.
-/
import proofs.«168377_j46110768889918_2_alg».proof.Proof.PayHead
import proofs.«168377_j46110768889918_2_alg».proof.Proof.Spec

noncomputable section

open scoped BigOperators

namespace Cert.KernelIdeal.Pay

open Cert.KernelIdeal Cert.KernelIdeal.Gen Idealize.ShloMosaic Idealize.ShloMosaic.ValueIdx

section Stages

variable (X : Fin 4096 → Fin 2048 → EReal) (fp : Fin 16 → Fin 2048 → EReal) (mean : Fin 2048 → EReal)
  (Wg1 : Fin 16 → Fin 2048 → Fin 256 → EReal) (bg1 : Fin 16 → Fin 256 → EReal)
  (Wg2 : Fin 16 → Fin 256 → Fin 128 → EReal) (bg2 : Fin 16 → Fin 128 → EReal)
  (Wf1 : Fin 2048 → Fin 512 → EReal) (bf1 : Fin 512 → EReal)
  (Wf2 : Fin 512 → Fin 128 → EReal) (bf2 : Fin 128 → EReal)
  (Wh : Fin 1024 → Fin 128 → EReal) (bh : Fin 128 → EReal)
  (Wc : Fin 128 → Fin 200 → EReal) (bc : Fin 200 → EReal)

/-- When row r of the two operands holds the concept vectors and the latent vectors of batch row b, the bottleneck mix at
    (c, r, l) is the specification's mixed lane: the sums run over the concept axis and over the lanes at the fixed row. -/
theorem mixed_of_scratch (v3 v12 : Vec Ideal S16x256x128 .f32) (b : Fin 4096) (r : Fin 256)
    (h3 : ∀ c l, v3 (ix3 c r l) = Cert.Spec.cm X fp mean Wg1 bg1 Wg2 bg2 c b l)
    (h12 : ∀ c l, v12 (ix3 c r l) = Cert.Spec.lat X fp mean Wf1 bf1 Wf2 bf2 c b l) (c : Fin 16) (l : Fin 128) :
    k0_pay6 (F := Ideal) v3 v12 (ix3 c r l) = Cert.Spec.mixed X fp mean Wg1 bg1 Wg2 bg2 Wf1 bf1 Wf2 bf2 c b l := by
  have hs : ∀ c l, scaled v3 c r l = Cert.Spec.cmn X fp mean Wg1 bg1 Wg2 bg2 c b l := by
    intro c l
    unfold scaled Cert.Spec.cmn Cert.Spec.sq
    rw [h3 c l]
    refine congrArg (fun t => Cert.Spec.cm X fp mean Wg1 bg1 Wg2 bg2 c b l * Ideal.rsqrt (max t Cert.Spec.eps)) ?_
    exact Finset.sum_congr rfl fun c' _ => by rw [h3 c' l]
  have hp : ∀ c, probAt v3 v12 c r = Cert.Spec.prob X fp mean Wg1 bg1 Wg2 bg2 Wf1 bf1 Wf2 bf2 c b := by
    intro c
    unfold probAt Cert.Spec.prob
    refine congrArg Ideal.logistic (Finset.sum_congr rfl fun l _ => ?_)
    rw [hs c l, h12 c l]
  rw [pay6_apply]
  unfold Cert.Spec.mixed
  rw [hp c, hs c l, hs c (Cert.Spec.turn l)]

/-- Sixteen accumulation steps from zero are the sum over the sixteen concepts. -/
theorem acc_sum (f : ℕ → EReal) (T : Fin 16 → EReal) (h0 : f 0 = 0)
    (hs : ∀ (k : ℕ) (hk : k < 16), f (k + 1) = f k + T ⟨k, hk⟩) : f 16 = ∑ c : Fin 16, T c := by
  have key : ∀ (k : ℕ) (hk : k ≤ 16), f k = ∑ i : Fin k, T ⟨i.val, by omega⟩ := by
    intro k
    induction k with
    | zero => intro _; rw [h0]; rfl
    | succ k ih =>
      intro hk
      rw [hs k (by omega), ih (by omega), Fin.sum_univ_castSucc]
      rfl
  exact key 16 le_rfl

/-- When the accumulator row holds the head's sum over concepts and lanes, and the bias rows and the matrix column hold the
    specification's, the last layer at (r, n) is the specification's result by concept. -/
theorem out_of_acc (v33 : Vec Ideal S256x128 .f32) (v34 : Vec Ideal S128 .f32) (v41 : Vec Ideal S128x256 .bf16) (v43 : Vec Ideal S256 .f32)
    (b : Fin 4096) (r : Fin 256) (n : Fin 200)
    (h33 : ∀ g, v33 (ix2 r g) = ∑ c : Fin 16, ∑ l : Fin 128,
      Cert.Spec.mixed X fp mean Wg1 bg1 Wg2 bg2 Wf1 bf1 Wf2 bf2 c b l * Cert.Spec.headRows Wh c l g)
    (h34 : ∀ g, v34 (ix1 g) = bh g) (h41 : ∀ g, v41 (ix2 g ⟨n.val, by omega⟩) = Wc g n) (h43 : v43 (ix1 ⟨n.val, by omega⟩) = bc n) :
    k0_pay2 (F := Ideal) v33 v34 v41 v43 (ix2 r ⟨n.val, by omega⟩)
      = Cert.Spec.outByConcept X fp mean Wg1 bg1 Wg2 bg2 Wf1 bf1 Wf2 bf2 Wh bh Wc bc b n := by
  rw [pay2_apply]
  unfold Cert.Spec.outByConcept Cert.Spec.zByConcept
  rw [h43]
  refine congrArg (· + bc n) (Finset.sum_congr rfl fun g _ => ?_)
  rw [h33 g, h34 g, h41 g]

end Stages

end Cert.KernelIdeal.Pay

end
-- ==== Proof.PayMaps.lean ====
/-
  Three of the kernel body's stored values, read at one index over the extended reals.

  The gated input at (r, d) is gate * x + (one - gate) * mean with gate the logistic of the loaded row at d. The two
  two-layer maps at (r, l) are a matrix product with a bias row, a max with 0, and a second matrix product with a
  bias row; every matrix product is read as the sum over its one contracted coordinate, and the leading unit axes
  that the shape casts add or drop carry the coordinate 0.
-/
import proofs.«168377_j46110768889918_2_alg».proof.Proof.Gen.KernelIdeal.Skeleton
import proofs.«168377_j46110768889918_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The logistic of a vector, read at an index. -/
theorem logistic_apply {s : Shape} {φ : FTy} (a : FVec Ideal s φ) (i : s.Idx) : logistic a i = Ideal.logistic (a i) := rfl

/-- The gate's mix of the input and the mean: gate = logistic of the loaded row. -/
theorem pay3_apply (v0 : Vec Ideal S256x2048 .f32) (v1 : Vec Ideal S2048 .f32) (v53 : Vec Ideal S1x2048 .f32) (r : Fin 256) (d : Fin 2048) :
    k0_pay3 (F := Ideal) v0 v1 v53 (ix2 r d)
      = Ideal.logistic (v53 (ix2 0 d)) * v0 (ix2 r d) + (Cert.Spec.one - Ideal.logistic (v53 (ix2 0 d))) * v1 (ix1 d) := by
  unfold k0_pay3
  simp only [truncf_apply, addf_apply, mulf_apply]
  rw [broadcastTo_1b_ab_apply, broadcastTo_1b_ab_apply]
  simp only [mulf_apply]
  rw [shapeCast_a_1a_apply, shapeCast_a_1a_apply, shapeCast_a_1a_apply]
  simp only [subf_apply, broadcast_apply, logistic_apply]
  rw [shapeCast_1a_a_apply]
  rfl

/-! ### The [256,2048] by [2048,256] product -/

/-- The left operand's row coordinate is the output's row. -/
theorem mm_256x2048x256_lhs0 (i : S256x256.Idx) (q : dot_S256x2048_S2048x256_S256x256_1_0_0_1_n_n.contr.Idx) : (dot_S256x2048_S2048x256_S256x256_1_0_0_1_n_n.lhsIdx i q 0).val = (i 0).val := by
  unfold DotDims.lhsIdx
  rw [dif_neg (show ¬(0 : Fin S256x2048.rank) ∈ dot_S256x2048_S2048x256_S256x256_1_0_0_1_n_n.lhsBatch by decide), dif_pos (show (0 : Fin S256x2048.rank) ∈ dot_S256x2048_S2048x256_S256x256_1_0_0_1_n_n.lhsNonContracting by decide)]
  rfl
/-- The left operand's column coordinate is the contracted one. -/
theorem mm_256x2048x256_lhs1 (i : S256x256.Idx) (q : dot_S256x2048_S2048x256_S256x256_1_0_0_1_n_n.contr.Idx) : (dot_S256x2048_S2048x256_S256x256_1_0_0_1_n_n.lhsIdx i q 1).val = (q ⟨0, by decide⟩).val :=
  dot_S256x2048_S2048x256_S256x256_1_0_0_1_n_n.lhsIdx_val_of_single rfl i q
/-- The right operand's row coordinate is the contracted one. -/
theorem mm_256x2048x256_rhs0 (i : S256x256.Idx) (q : dot_S256x2048_S2048x256_S256x256_1_0_0_1_n_n.contr.Idx) : (dot_S256x2048_S2048x256_S256x256_1_0_0_1_n_n.rhsIdx i q 0).val = (q ⟨0, by decide⟩).val :=
  dot_S256x2048_S2048x256_S256x256_1_0_0_1_n_n.rhsIdx_val_of_single rfl i q
/-- The right operand's column coordinate is the output's column. -/
theorem mm_256x2048x256_rhs1 (i : S256x256.Idx) (q : dot_S256x2048_S2048x256_S256x256_1_0_0_1_n_n.contr.Idx) : (dot_S256x2048_S2048x256_S256x256_1_0_0_1_n_n.rhsIdx i q 1).val = (i 1).val := by
  unfold DotDims.rhsIdx
  rw [dif_neg (show ¬(1 : Fin S2048x256.rank) ∈ dot_S256x2048_S2048x256_S256x256_1_0_0_1_n_n.rhsBatch by decide), dif_pos (show (1 : Fin S2048x256.rank) ∈ dot_S256x2048_S2048x256_S256x256_1_0_0_1_n_n.rhsNonContracting by decide)]
  rfl

/-- The product into the zero accumulator, at row r and column c: the sum over the one contracted coordinate q of
    lhs (r, q) * rhs (q, c). -/
theorem mm_256x2048x256_apply (lhs : FVec Ideal S256x2048 .bf16) (rhs : FVec Ideal S2048x256 .bf16) (r : Fin 256) (c : Fin 256) :
    matmul dot_S256x2048_S2048x256_S256x256_1_0_0_1_n_n none lhs rhs (constant (F := Ideal) S256x256 .f32 0x00000000#32) (ix2 r c)
      = ∑ q : Fin 2048, lhs (ix2 r q) * rhs (ix2 q c) := by
  simp only [matmul]
  rw [Ideal.matmul_constant_zero_apply, ← Equiv.sum_comp (contrEquiv1 dot_S256x2048_S2048x256_S256x256_1_0_0_1_n_n 2048 rfl rfl).symm]
  refine Finset.sum_congr rfl fun q _ => ?_
  have hq := contrEquiv1_symm_val dot_S256x2048_S2048x256_S256x256_1_0_0_1_n_n 2048 rfl rfl q
  have el : dot_S256x2048_S2048x256_S256x256_1_0_0_1_n_n.lhsIdx (ix2 r c) ((contrEquiv1 dot_S256x2048_S2048x256_S256x256_1_0_0_1_n_n 2048 rfl rfl).symm q) = ix2 r q := funext fun a => Fin.ext (by
    match a with
    | ⟨0, _⟩ => exact mm_256x2048x256_lhs0 _ _
    | ⟨1, _⟩ => exact (mm_256x2048x256_lhs1 _ _).trans hq)
  have er : dot_S256x2048_S2048x256_S256x256_1_0_0_1_n_n.rhsIdx (ix2 r c) ((contrEquiv1 dot_S256x2048_S2048x256_S256x256_1_0_0_1_n_n 2048 rfl rfl).symm q) = ix2 q c := funext fun a => Fin.ext (by
    match a with
    | ⟨0, _⟩ => exact (mm_256x2048x256_rhs0 _ _).trans hq
    | ⟨1, _⟩ => exact mm_256x2048x256_rhs1 _ _)
  rw [el, er]

/-! ### The [256,256] by [256,128] product -/

/-- The left operand's row coordinate is the output's row. -/
theorem mm_256x256x128_lhs0 (i : S256x128.Idx) (q : dot_S256x256_S256x128_S256x128_1_0_0_1_n_n.contr.Idx) : (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide), dif_pos (show (0 : Fin S256x256.rank) ∈ dot_S256x256_S256x128_S256x128_1_0_0_1_n_n.lhsNonContracting by decide)]
  rfl
/-- The left operand's column coordinate is the contracted one. -/
theorem mm_256x256x128_lhs1 (i : S256x128.Idx) (q : dot_S256x256_S256x128_S256x128_1_0_0_1_n_n.contr.Idx) : (dot_S256x256_S256x128_S256x128_1_0_0_1_n_n.lhsIdx i q 1).val = (q ⟨0, by decide⟩).val :=
  dot_S256x256_S256x128_S256x128_1_0_0_1_n_n.lhsIdx_val_of_single rfl i q
/-- The right operand's row coordinate is the contracted one. -/
theorem mm_256x256x128_rhs0 (i : S256x128.Idx) (q : dot_S256x256_S256x128_S256x128_1_0_0_1_n_n.contr.Idx) : (dot_S256x256_S256x128_S256x128_1_0_0_1_n_n.rhsIdx i q 0).val = (q ⟨0, by decide⟩).val :=
  dot_S256x256_S256x128_S256x128_1_0_0_1_n_n.rhsIdx_val_of_single rfl i q
/-- The right operand's column coordinate is the output's column. -/
theorem mm_256x256x128_rhs1 (i : S256x128.Idx) (q : dot_S256x256_S256x128_S256x128_1_0_0_1_n_n.contr.Idx) : (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide), dif_pos (show (1 : Fin S256x128.rank) ∈ dot_S256x256_S256x128_S256x128_1_0_0_1_n_n.rhsNonContracting by decide)]
  rfl

/-- The product into the zero accumulator, at row r and column c: the sum over the one contracted coordinate q of
    lhs (r, q) * rhs (q, c). -/
theorem mm_256x256x128_apply (lhs : FVec Ideal S256x256 .bf16) (rhs : FVec Ideal S256x128 .bf16) (r : Fin 256) (c : Fin 128) :
    matmul dot_S256x256_S256x128_S256x128_1_0_0_1_n_n none lhs rhs (constant (F := Ideal) S256x128 .f32 0x00000000#32) (ix2 r c)
      = ∑ q : Fin 256, lhs (ix2 r q) * rhs (ix2 q c) := by
  simp only [matmul]
  rw [Ideal.matmul_constant_zero_apply, ← Equiv.sum_comp (contrEquiv1 dot_S256x256_S256x128_S256x128_1_0_0_1_n_n 256 rfl rfl).symm]
  refine Finset.sum_congr rfl fun q _ => ?_
  have hq := contrEquiv1_symm_val dot_S256x256_S256x128_S256x128_1_0_0_1_n_n 256 rfl rfl q
  have el : dot_S256x256_S256x128_S256x128_1_0_0_1_n_n.lhsIdx (ix2 r c) ((contrEquiv1 dot_S256x256_S256x128_S256x128_1_0_0_1_n_n 256 rfl rfl).symm q) = ix2 r q := funext fun a => Fin.ext (by
    match a with
    | ⟨0, _⟩ => exact mm_256x256x128_lhs0 _ _
    | ⟨1, _⟩ => exact (mm_256x256x128_lhs1 _ _).trans hq)
  have er : dot_S256x256_S256x128_S256x128_1_0_0_1_n_n.rhsIdx (ix2 r c) ((contrEquiv1 dot_S256x256_S256x128_S256x128_1_0_0_1_n_n 256 rfl rfl).symm q) = ix2 q c := funext fun a => Fin.ext (by
    match a with
    | ⟨0, _⟩ => exact (mm_256x256x128_rhs0 _ _).trans hq
    | ⟨1, _⟩ => exact mm_256x256x128_rhs1 _ _)
  rw [el, er]

/-! ### The [256,2048] by [2048,512] product -/

/-- The left operand's row coordinate is the output's row. -/
theorem mm_256x2048x512_lhs0 (i : S256x512.Idx) (q : dot_S256x2048_S2048x512_S256x512_1_0_0_1_n_n.contr.Idx) : (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
/-- The left operand's column coordinate is the contracted one. -/
theorem mm_256x2048x512_lhs1 (i : S256x512.Idx) (q : dot_S256x2048_S2048x512_S256x512_1_0_0_1_n_n.contr.Idx) : (dot_S256x2048_S2048x512_S256x512_1_0_0_1_n_n.lhsIdx i q 1).val = (q ⟨0, by decide⟩).val :=
  dot_S256x2048_S2048x512_S256x512_1_0_0_1_n_n.lhsIdx_val_of_single rfl i q
/-- The right operand's row coordinate is the contracted one. -/
theorem mm_256x2048x512_rhs0 (i : S256x512.Idx) (q : dot_S256x2048_S2048x512_S256x512_1_0_0_1_n_n.contr.Idx) : (dot_S256x2048_S2048x512_S256x512_1_0_0_1_n_n.rhsIdx i q 0).val = (q ⟨0, by decide⟩).val :=
  dot_S256x2048_S2048x512_S256x512_1_0_0_1_n_n.rhsIdx_val_of_single rfl i q
/-- The right operand's column coordinate is the output's column. -/
theorem mm_256x2048x512_rhs1 (i : S256x512.Idx) (q : dot_S256x2048_S2048x512_S256x512_1_0_0_1_n_n.contr.Idx) : (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

/-- The product into the zero accumulator, at row r and column c: the sum over the one contracted coordinate q of
    lhs (r, q) * rhs (q, c). -/
theorem mm_256x2048x512_apply (lhs : FVec Ideal S256x2048 .bf16) (rhs : FVec Ideal S2048x512 .bf16) (r : Fin 256) (c : Fin 512) :
    matmul dot_S256x2048_S2048x512_S256x512_1_0_0_1_n_n none lhs rhs (constant (F := Ideal) S256x512 .f32 0x00000000#32) (ix2 r c)
      = ∑ q : Fin 2048, lhs (ix2 r q) * rhs (ix2 q c) := by
  simp only [matmul]
  rw [Ideal.matmul_constant_zero_apply, ← Equiv.sum_comp (contrEquiv1 dot_S256x2048_S2048x512_S256x512_1_0_0_1_n_n 2048 rfl rfl).symm]
  refine Finset.sum_congr rfl fun q _ => ?_
  have hq := contrEquiv1_symm_val dot_S256x2048_S2048x512_S256x512_1_0_0_1_n_n 2048 rfl rfl q
  have el : dot_S256x2048_S2048x512_S256x512_1_0_0_1_n_n.lhsIdx (ix2 r c) ((contrEquiv1 dot_S256x2048_S2048x512_S256x512_1_0_0_1_n_n 2048 rfl rfl).symm q) = ix2 r q := funext fun a => Fin.ext (by
    match a with
    | ⟨0, _⟩ => exact mm_256x2048x512_lhs0 _ _
    | ⟨1, _⟩ => exact (mm_256x2048x512_lhs1 _ _).trans hq)
  have er : dot_S256x2048_S2048x512_S256x512_1_0_0_1_n_n.rhsIdx (ix2 r c) ((contrEquiv1 dot_S256x2048_S2048x512_S256x512_1_0_0_1_n_n 2048 rfl rfl).symm q) = ix2 q c := funext fun a => Fin.ext (by
    match a with
    | ⟨0, _⟩ => exact (mm_256x2048x512_rhs0 _ _).trans hq
    | ⟨1, _⟩ => exact mm_256x2048x512_rhs1 _ _)
  rw [el, er]

/-! ### The [256,512] by [512,128] product -/

/-- The left operand's row coordinate is the output's row. -/
theorem mm_256x512x128_lhs0 (i : S256x128.Idx) (q : dot_S256x512_S512x128_S256x128_1_0_0_1_n_n.contr.Idx) : (dot_S256x512_S512x128_S256x128_1_0_0_1_n_n.lhsIdx i q 0).val = (i 0).val := by
  unfold DotDims.lhsIdx
  rw [dif_neg (show ¬(0 : Fin S256x512.rank) ∈ dot_S256x512_S512x128_S256x128_1_0_0_1_n_n.lhsBatch by decide), dif_pos (show (0 : Fin S256x512.rank) ∈ dot_S256x512_S512x128_S256x128_1_0_0_1_n_n.lhsNonContracting by decide)]
  rfl
/-- The left operand's column coordinate is the contracted one. -/
theorem mm_256x512x128_lhs1 (i : S256x128.Idx) (q : dot_S256x512_S512x128_S256x128_1_0_0_1_n_n.contr.Idx) : (dot_S256x512_S512x128_S256x128_1_0_0_1_n_n.lhsIdx i q 1).val = (q ⟨0, by decide⟩).val :=
  dot_S256x512_S512x128_S256x128_1_0_0_1_n_n.lhsIdx_val_of_single rfl i q
/-- The right operand's row coordinate is the contracted one. -/
theorem mm_256x512x128_rhs0 (i : S256x128.Idx) (q : dot_S256x512_S512x128_S256x128_1_0_0_1_n_n.contr.Idx) : (dot_S256x512_S512x128_S256x128_1_0_0_1_n_n.rhsIdx i q 0).val = (q ⟨0, by decide⟩).val :=
  dot_S256x512_S512x128_S256x128_1_0_0_1_n_n.rhsIdx_val_of_single rfl i q
/-- The right operand's column coordinate is the output's column. -/
theorem mm_256x512x128_rhs1 (i : S256x128.Idx) (q : dot_S256x512_S512x128_S256x128_1_0_0_1_n_n.contr.Idx) : (dot_S256x512_S512x128_S256x128_1_0_0_1_n_n.rhsIdx i q 1).val = (i 1).val := by
  unfold DotDims.rhsIdx
  rw [dif_neg (show ¬(1 : Fin S512x128.rank) ∈ dot_S256x512_S512x128_S256x128_1_0_0_1_n_n.rhsBatch by decide), dif_pos (show (1 : Fin S512x128.rank) ∈ dot_S256x512_S512x128_S256x128_1_0_0_1_n_n.rhsNonContracting by decide)]
  rfl

/-- The product into the zero accumulator, at row r and column c: the sum over the one contracted coordinate q of
    lhs (r, q) * rhs (q, c). -/
theorem mm_256x512x128_apply (lhs : FVec Ideal S256x512 .bf16) (rhs : FVec Ideal S512x128 .bf16) (r : Fin 256) (c : Fin 128) :
    matmul dot_S256x512_S512x128_S256x128_1_0_0_1_n_n none lhs rhs (constant (F := Ideal) S256x128 .f32 0x00000000#32) (ix2 r c)
      = ∑ q : Fin 512, lhs (ix2 r q) * rhs (ix2 q c) := by
  simp only [matmul]
  rw [Ideal.matmul_constant_zero_apply, ← Equiv.sum_comp (contrEquiv1 dot_S256x512_S512x128_S256x128_1_0_0_1_n_n 512 rfl rfl).symm]
  refine Finset.sum_congr rfl fun q _ => ?_
  have hq := contrEquiv1_symm_val dot_S256x512_S512x128_S256x128_1_0_0_1_n_n 512 rfl rfl q
  have el : dot_S256x512_S512x128_S256x128_1_0_0_1_n_n.lhsIdx (ix2 r c) ((contrEquiv1 dot_S256x512_S512x128_S256x128_1_0_0_1_n_n 512 rfl rfl).symm q) = ix2 r q := funext fun a => Fin.ext (by
    match a with
    | ⟨0, _⟩ => exact mm_256x512x128_lhs0 _ _
    | ⟨1, _⟩ => exact (mm_256x512x128_lhs1 _ _).trans hq)
  have er : dot_S256x512_S512x128_S256x128_1_0_0_1_n_n.rhsIdx (ix2 r c) ((contrEquiv1 dot_S256x512_S512x128_S256x128_1_0_0_1_n_n 512 rfl rfl).symm q) = ix2 q c := funext fun a => Fin.ext (by
    match a with
    | ⟨0, _⟩ => exact (mm_256x512x128_rhs0 _ _).trans hq
    | ⟨1, _⟩ => exact mm_256x512x128_rhs1 _ _)
  rw [el, er]

/-- Two matrix products with bias, a max with 0 between them; the leading unit axes are added and dropped by shape casts. -/
theorem pay4_apply (v0 : Vec Ideal S256x2048 .f32) (v1 : Vec Ideal S2048 .f32) (v53 : Vec Ideal S1x2048 .f32) (v68 : Vec Ideal S1x2048x256 .bf16) (v71 : Vec Ideal S1x256 .f32) (v81 : Vec Ideal S1x256x128 .bf16) (v84 : Vec Ideal S1x128 .f32) (r : Fin 256) (l : Fin 128) :
    k0_pay4 (F := Ideal) v0 v1 v53 v68 v71 v81 v84 (ix3 0 r l)
      = (∑ h : Fin 256, max ((∑ d : Fin 2048, k0_pay3 (F := Ideal) v0 v1 v53 (ix2 r d) * v68 (ix3 0 d h)) + v71 (ix2 0 h)) 0 * v81 (ix3 0 h l)) + v84 (ix2 0 l) := by
  unfold k0_pay4
  generalize k0_pay3 (F := Ideal) v0 v1 v53 = y
  -- the outer layer: the cast that adds the unit axis, the bias row, the second product
  rw [shapeCast_ab_1ab_apply]
  simp only [addf_apply]
  rw [mm_256x256x128_apply, broadcastTo_1b_ab_apply, shapeCast_a_1a_apply, shapeCast_1a_a_apply]
  refine congrArg (· + v84 (ix2 0 l)) (Finset.sum_congr rfl fun h _ => ?_)
  -- the hidden layer at (r, h): the max with the zero word, the bias row, the first product
  simp only [truncf_apply, maximumf_apply, addf_apply, broadcast_apply]
  rw [shapeCast_1ab_ab_apply, mm_256x2048x256_apply, broadcastTo_1b_ab_apply, shapeCast_a_1a_apply, shapeCast_1a_a_apply]
  have hz : FloatOps.ofBits (F := Ideal) .f32 0x00000000#32 = (0 : EReal) := Ideal.ofBits_zero_f32
  rw [hz]
  refine congrArg (fun t => max (t + v71 (ix2 0 h)) 0 * v81 (ix3 0 h l)) (Finset.sum_congr rfl fun d _ => ?_)
  rw [shapeCast_1ab_ab_apply]

/-- The same two-layer map with the shared weights: two matrix products with bias, a max with 0 between them. -/
theorem pay5_apply (v66 : FVec Ideal S256x2048 .bf16) (v94 : Vec Ideal S2048x512 .bf16) (v96 : Vec Ideal S512 .f32) (v104 : Vec Ideal S512x128 .bf16) (v106 : Vec Ideal S128 .f32) (r : Fin 256) (l : Fin 128) :
    k0_pay5 (F := Ideal) v66 v94 v96 v104 v106 (ix3 0 r l)
      = (∑ h : Fin 512, max ((∑ d : Fin 2048, v66 (ix2 r d) * v94 (ix2 d h)) + v96 (ix1 h)) 0 * v104 (ix2 h l)) + v106 (ix1 l) := by
  unfold k0_pay5
  -- the outer layer: the cast that adds the unit axis, the bias row, the second product
  rw [shapeCast_ab_1ab_apply]
  simp only [addf_apply]
  rw [mm_256x512x128_apply, broadcastTo_1b_ab_apply, shapeCast_a_1a_apply, shapeCast_self]
  refine congrArg (· + v106 (ix1 l)) (Finset.sum_congr rfl fun h _ => ?_)
  -- the hidden layer at (r, h): the max with the zero word, the bias row, the first product
  simp only [truncf_apply, maximumf_apply, addf_apply, broadcast_apply]
  rw [mm_256x2048x512_apply, broadcastTo_1b_ab_apply, shapeCast_a_1a_apply, shapeCast_self]
  have hz : FloatOps.ofBits (F := Ideal) .f32 0x00000000#32 = (0 : EReal) := Ideal.ofBits_zero_f32
  rw [hz]

end Cert.KernelIdeal.Pay

end
-- ==== Proof.PointMaps.lean ====
/-
  The kernel body's stored values tied to the specification's stages.

  When the loaded blocks are the rows of the arrays — row r of the input block is batch row b, the gate row,
  the weights and the biases are concept c's — the gated input at (r, d) is the masked input at (c, b, d), the
  concept's own two-layer map at (r, l) is the concept vector at (c, b, l), and the shared two-layer map of the
  gated input at (r, l) is the latent vector at (c, b, l): term by term under the sums.
-/
import proofs.«168377_j46110768889918_2_alg».proof.Proof.PayMaps
import proofs.«168377_j46110768889918_2_alg».proof.Proof.Spec

noncomputable section

open scoped BigOperators

namespace Cert.KernelIdeal.Pay

open Cert.KernelIdeal Cert.KernelIdeal.Gen Idealize.ShloMosaic Idealize.ShloMosaic.ValueIdx

section Points

variable (X : Fin 4096 → Fin 2048 → EReal) (fp : Fin 16 → Fin 2048 → EReal) (mean : Fin 2048 → EReal)
  (Wg1 : Fin 16 → Fin 2048 → Fin 256 → EReal) (bg1 : Fin 16 → Fin 256 → EReal)
  (Wg2 : Fin 16 → Fin 256 → Fin 128 → EReal) (bg2 : Fin 16 → Fin 128 → EReal)
  (Wf1 : Fin 2048 → Fin 512 → EReal) (bf1 : Fin 512 → EReal)
  (Wf2 : Fin 512 → Fin 128 → EReal) (bf2 : Fin 128 → EReal)
  (Wh : Fin 1024 → Fin 128 → EReal) (bh : Fin 128 → EReal)
  (Wc : Fin 128 → Fin 200 → EReal) (bc : Fin 200 → EReal)

/-- The gated input of a block row is the masked input of the specification, once the loaded blocks are the arrays' rows. -/
theorem masked_of_blocks (v0 : Vec Ideal S256x2048 .f32) (v1 : Vec Ideal S2048 .f32) (v53 : Vec Ideal S1x2048 .f32)
    (c : Fin 16) (b : Fin 4096) (r : Fin 256)
    (h0 : ∀ d, v0 (ix2 r d) = X b d) (h1 : ∀ d, v1 (ix1 d) = mean d) (h53 : ∀ d, v53 (ix2 0 d) = fp c d) (d : Fin 2048) :
    k0_pay3 (F := Ideal) v0 v1 v53 (ix2 r d) = Cert.Spec.masked X fp mean c b d := by
  rw [pay3_apply, h0, h1, h53]
  rfl

/-- The concept's own two-layer map of a block row is the specification's concept vector. -/
theorem cm_of_blocks (v0 : Vec Ideal S256x2048 .f32) (v1 : Vec Ideal S2048 .f32) (v53 : Vec Ideal S1x2048 .f32) (v68 : Vec Ideal S1x2048x256 .bf16) (v71 : Vec Ideal S1x256 .f32) (v81 : Vec Ideal S1x256x128 .bf16) (v84 : Vec Ideal S1x128 .f32) (c : Fin 16) (b : Fin 4096) (r : Fin 256)
    (h0 : ∀ d, v0 (ix2 r d) = X b d) (h1 : ∀ d, v1 (ix1 d) = mean d) (h53 : ∀ d, v53 (ix2 0 d) = fp c d) (h68 : ∀ d h, v68 (ix3 0 d h) = Wg1 c d h) (h71 : ∀ h, v71 (ix2 0 h) = bg1 c h) (h81 : ∀ h l, v81 (ix3 0 h l) = Wg2 c h l) (h84 : ∀ l, v84 (ix2 0 l) = bg2 c l) (l : Fin 128) :
    k0_pay4 (F := Ideal) v0 v1 v53 v68 v71 v81 v84 (ix3 0 r l) = Cert.Spec.cm X fp mean Wg1 bg1 Wg2 bg2 c b l := by
  rw [pay4_apply, h84]
  unfold Cert.Spec.cm Cert.Spec.hidG
  refine congrArg (· + bg2 c l) (Finset.sum_congr rfl fun h _ => ?_)
  rw [h71, h81]
  refine congrArg (fun t => max (t + bg1 c h) 0 * Wg2 c h l) (Finset.sum_congr rfl fun d _ => ?_)
  rw [masked_of_blocks X fp mean v0 v1 v53 c b r h0 h1 h53, h68]

/-- The shared two-layer map of a block row's gated input is the specification's latent vector. -/
theorem lat_of_blocks (v0 : Vec Ideal S256x2048 .f32) (v1 : Vec Ideal S2048 .f32) (v53 : Vec Ideal S1x2048 .f32) (v94 : Vec Ideal S2048x512 .bf16) (v96 : Vec Ideal S512 .f32) (v104 : Vec Ideal S512x128 .bf16) (v106 : Vec Ideal S128 .f32) (c : Fin 16) (b : Fin 4096) (r : Fin 256)
    (h0 : ∀ d, v0 (ix2 r d) = X b d) (h1 : ∀ d, v1 (ix1 d) = mean d) (h53 : ∀ d, v53 (ix2 0 d) = fp c d) (h94 : ∀ d h, v94 (ix2 d h) = Wf1 d h) (h96 : ∀ h, v96 (ix1 h) = bf1 h) (h104 : ∀ h l, v104 (ix2 h l) = Wf2 h l) (h106 : ∀ l, v106 (ix1 l) = bf2 l) (l : Fin 128) :
    k0_pay5 (F := Ideal) (k0_pay3 (F := Ideal) v0 v1 v53) v94 v96 v104 v106 (ix3 0 r l) = Cert.Spec.lat X fp mean Wf1 bf1 Wf2 bf2 c b l := by
  rw [pay5_apply, h106]
  unfold Cert.Spec.lat Cert.Spec.hidF
  refine congrArg (· + bf2 l) (Finset.sum_congr rfl fun h _ => ?_)
  rw [h96, h104]
  refine congrArg (fun t => max (t + bf1 h) 0 * Wf2 h l) (Finset.sum_congr rfl fun d _ => ?_)
  rw [masked_of_blocks X fp mean v0 v1 v53 c b r h0 h1 h53, h94]

end Points

end Cert.KernelIdeal.Pay

end
-- ==== Proof.OutValue.lean ====
/-
  The kernel body's output block, read at one entry, is the network's result.

  Row r of the input block is batch row b. A load of slab c of a buffer held at a block reads the block's entries
  with first coordinate c: the rectangle starts at (c, 0, …) with unit strides, so its index (0, …) lands on (c, …).
  With every slab read an entry of a block, slab c of the first scratch buffer at (r, l) is the concept vector of
  concept c, slab c of the second is the latent vector, and the mix of the two is the specification's mixed lane.
  The accumulator starts at the zero splat and gains, at trip k, the lane sum of the products of slab k of the mix
  with slab k of the head matrix; after sixteen trips it is the sum over the sixteen concepts. The last layer applied
  to that sum is the specification's result by concept.
-/
import proofs.«168377_j46110768889918_2_alg».proof.Proof.Closed
import proofs.«168377_j46110768889918_2_alg».proof.Proof.PointHead
import proofs.«168377_j46110768889918_2_alg».proof.Proof.PointMaps
import Idealize.ShloMosaic.Lib.WholeRead

noncomputable section

open scoped BigOperators

namespace Cert.KernelIdeal.OutValue

open Cert.KernelIdeal Cert.KernelIdeal.Gen Idealize.ShloMosaic Idealize.ShloMosaic.ValueIdx
open Idealize.ShloMosaic.TcCoe

/-! ## Slab reads -/

/-- Slab c of the gate logits: a one-slab load of a buffer held at a block reads the block's row c. -/
theorem slab_x1 (a : Memref sig .tc .vmem S16x2048 .f32) (h : a.IsWhole) (Y : Vec Ideal S16x2048 .f32)
    (kk : Fin k0_t1_loop.trips) (c : Fin 16) (hc : kk.val = c.val) (d : Fin 2048) :
    (View.readAt (Elt Ideal) a.view (Rect.unit (s := S16x2048) (k0_off1 kk) S1x2048.size (k0_off1_inb kk)).toLoadRect (h.unread Y)
      : Vec Ideal S1x2048 .f32) (ix2 0 d) = Y (ix2 c d) := by
  refine (h.readAt_unread Y _ _).trans (congrArg Y ?_)
  funext ax
  refine Fin.ext ?_
  match ax with
  | ⟨0, _⟩ =>
    rw [LoadRect.idx_apply]
    show k0_off1 kk (0 : Fin 2) + 1 * (0 : Fin 1).val = c.val
    rw [k0_off1_eq kk]
    show kk.val + 1 * 0 = c.val
    omega
  | ⟨1, _⟩ =>
    rw [LoadRect.idx_apply]
    show k0_off1 kk (1 : Fin 2) + 1 * d.val = d.val
    rw [k0_off1_eq kk]
    show 0 + 1 * d.val = d.val
    omega

/-- Slab c of the concepts' first-layer matrices. -/
theorem slab_x3 (a : Memref sig .tc .vmem S16x2048x256 .bf16) (h : a.IsWhole) (Y : Vec Ideal S16x2048x256 .bf16)
    (kk : Fin k0_t1_loop.trips) (c : Fin 16) (hc : kk.val = c.val) (d : Fin 2048) (q : Fin 256) :
    (View.readAt (Elt Ideal) a.view (Rect.unit (s := S16x2048x256) (k0_off2 kk) S1x2048x256.size (k0_off2_inb kk)).toLoadRect (h.unread Y)
      : Vec Ideal S1x2048x256 .bf16) (ix3 0 d q) = Y (ix3 c d q) := by
  refine (h.readAt_unread Y _ _).trans (congrArg Y ?_)
  funext ax
  refine Fin.ext ?_
  match ax with
  | ⟨0, _⟩ =>
    rw [LoadRect.idx_apply]
    show k0_off2 kk (0 : Fin 3) + 1 * (0 : Fin 1).val = c.val
    rw [k0_off2_eq kk]
    show kk.val + 1 * 0 = c.val
    omega
  | ⟨1, _⟩ =>
    rw [LoadRect.idx_apply]
    show k0_off2 kk (1 : Fin 3) + 1 * d.val = d.val
    rw [k0_off2_eq kk]
    show 0 + 1 * d.val = d.val
    omega
  | ⟨2, _⟩ =>
    rw [LoadRect.idx_apply]
    show k0_off2 kk (2 : Fin 3) + 1 * q.val = q.val
    rw [k0_off2_eq kk]
    show 0 + 1 * q.val = q.val
    omega

/-- Slab c of the concepts' first-layer biases. -/
theorem slab_x4 (a : Memref sig .tc .vmem S16x256 .f32) (h : a.IsWhole) (Y : Vec Ideal S16x256 .f32)
    (kk : Fin k0_t1_loop.trips) (c : Fin 16) (hc : kk.val = c.val) (q : Fin 256) :
    (View.readAt (Elt Ideal) a.view (Rect.unit (s := S16x256) (k0_off3 kk) S1x256.size (k0_off3_inb kk)).toLoadRect (h.unread Y)
      : Vec Ideal S1x256 .f32) (ix2 0 q) = Y (ix2 c q) := by
  refine (h.readAt_unread Y _ _).trans (congrArg Y ?_)
  funext ax
  refine Fin.ext ?_
  match ax with
  | ⟨0, _⟩ =>
    rw [LoadRect.idx_apply]
    show k0_off3 kk (0 : Fin 2) + 1 * (0 : Fin 1).val = c.val
    rw [k0_off3_eq kk]
    show kk.val + 1 * 0 = c.val
    omega
  | ⟨1, _⟩ =>
    rw [LoadRect.idx_apply]
    show k0_off3 kk (1 : Fin 2) + 1 * q.val = q.val
    rw [k0_off3_eq kk]
    show 0 + 1 * q.val = q.val
    omega

/-- Slab c of the concepts' second-layer matrices. -/
theorem slab_x5 (a : Memref sig .tc .vmem S16x256x128 .bf16) (h : a.IsWhole) (Y : Vec Ideal S16x256x128 .bf16)
    (kk : Fin k0_t1_loop.trips) (c : Fin 16) (hc : kk.val = c.val) (q : Fin 256) (l : Fin 128) :
    (View.readAt (Elt Ideal) a.view (Rect.unit (s := S16x256x128) (k0_off4 kk) S1x256x128.size (k0_off4_inb kk)).toLoadRect (h.unread Y)
      : Vec Ideal S1x256x128 .bf16) (ix3 0 q l) = Y (ix3 c q l) := by
  refine (h.readAt_unread Y _ _).trans (congrArg Y ?_)
  funext ax
  refine Fin.ext ?_
  match ax with
  | ⟨0, _⟩ =>
    rw [LoadRect.idx_apply]
    show k0_off4 kk (0 : Fin 3) + 1 * (0 : Fin 1).val = c.val
    rw [k0_off4_eq kk]
    show kk.val + 1 * 0 = c.val
    omega
  | ⟨1, _⟩ =>
    rw [LoadRect.idx_apply]
    show k0_off4 kk (1 : Fin 3) + 1 * q.val = q.val
    rw [k0_off4_eq kk]
    show 0 + 1 * q.val = q.val
    omega
  | ⟨2, _⟩ =>
    rw [LoadRect.idx_apply]
    show k0_off4 kk (2 : Fin 3) + 1 * l.val = l.val
    rw [k0_off4_eq kk]
    show 0 + 1 * l.val = l.val
    omega

/-- Slab c of the concepts' second-layer biases. -/
theorem slab_x6 (a : Memref sig .tc .vmem S16x128 .f32) (h : a.IsWhole) (Y : Vec Ideal S16x128 .f32)
    (kk : Fin k0_t1_loop.trips) (c : Fin 16) (hc : kk.val = c.val) (l : Fin 128) :
    (View.readAt (Elt Ideal) a.view (Rect.unit (s := S16x128) (k0_off5 kk) S1x128.size (k0_off5_inb kk)).toLoadRect (h.unread Y)
      : Vec Ideal S1x128 .f32) (ix2 0 l) = Y (ix2 c l) := by
  refine (h.readAt_unread Y _ _).trans (congrArg Y ?_)
  funext ax
  refine Fin.ext ?_
  match ax with
  | ⟨0, _⟩ =>
    rw [LoadRect.idx_apply]
    show k0_off5 kk (0 : Fin 2) + 1 * (0 : Fin 1).val = c.val
    rw [k0_off5_eq kk]
    show kk.val + 1 * 0 = c.val
    omega
  | ⟨1, _⟩ =>
    rw [LoadRect.idx_apply]
    show k0_off5 kk (1 : Fin 2) + 1 * l.val = l.val
    rw [k0_off5_eq kk]
    show 0 + 1 * l.val = l.val
    omega

/-- Slab c of the mixed lanes, in the second loop. -/
theorem slab_mix (a : Memref sig .tc .vmem S16x256x128 .f32) (h : a.IsWhole) (Y : Vec Ideal S16x256x128 .f32)
    (kk : Fin k0_t2_loop.trips) (c : Fin 16) (hc : kk.val = c.val) (r : Fin 256) (l : Fin 128) :
    (View.readAt (Elt Ideal) a.view (Rect.unit (s := S16x256x128) (k0_off6 kk) S1x256x128.size (k0_off6_inb kk)).toLoadRect (h.unread Y)
      : Vec Ideal S1x256x128 .f32) (ix3 0 r l) = Y (ix3 c r l) := by
  refine (h.readAt_unread Y _ _).trans (congrArg Y ?_)
  funext ax
  refine Fin.ext ?_
  match ax with
  | ⟨0, _⟩ =>
    rw [LoadRect.idx_apply]
    show k0_off6 kk (0 : Fin 3) + 1 * (0 : Fin 1).val = c.val
    rw [k0_off6_eq kk]
    show kk.val + 1 * 0 = c.val
    omega
  | ⟨1, _⟩ =>
    rw [LoadRect.idx_apply]
    show k0_off6 kk (1 : Fin 3) + 1 * r.val = r.val
    rw [k0_off6_eq kk]
    show 0 + 1 * r.val = r.val
    omega
  | ⟨2, _⟩ =>
    rw [LoadRect.idx_apply]
    show k0_off6 kk (2 : Fin 3) + 1 * l.val = l.val
    rw [k0_off6_eq kk]
    show 0 + 1 * l.val = l.val
    omega

/-- Slab c of the head matrix, in the second loop. -/
theorem slab_x11 (a : Memref sig .tc .vmem S16x128x128 .bf16) (h : a.IsWhole) (Y : Vec Ideal S16x128x128 .bf16)
    (kk : Fin k0_t2_loop.trips) (c : Fin 16) (hc : kk.val = c.val) (l : Fin 128) (g : Fin 128) :
    (View.readAt (Elt Ideal) a.view (Rect.unit (s := S16x128x128) (k0_off7 kk) S1x128x128.size (k0_off7_inb kk)).toLoadRect (h.unread Y)
      : Vec Ideal S1x128x128 .bf16) (ix3 0 l g) = Y (ix3 c l g) := by
  refine (h.readAt_unread Y _ _).trans (congrArg Y ?_)
  funext ax
  refine Fin.ext ?_
  match ax with
  | ⟨0, _⟩ =>
    rw [LoadRect.idx_apply]
    show k0_off7 kk (0 : Fin 3) + 1 * (0 : Fin 1).val = c.val
    rw [k0_off7_eq kk]
    show kk.val + 1 * 0 = c.val
    omega
  | ⟨1, _⟩ =>
    rw [LoadRect.idx_apply]
    show k0_off7 kk (1 : Fin 3) + 1 * l.val = l.val
    rw [k0_off7_eq kk]
    show 0 + 1 * l.val = l.val
    omega
  | ⟨2, _⟩ =>
    rw [LoadRect.idx_apply]
    show k0_off7 kk (2 : Fin 3) + 1 * g.val = g.val
    rw [k0_off7_eq kk]
    show 0 + 1 * g.val = g.val
    omega

/-- A load of the whole shared first-layer matrix reads the block. -/
theorem whole_x7 (a : Memref sig .tc .vmem S2048x512 .bf16) (h : a.IsWhole) (Y : Vec Ideal S2048x512 .bf16) (d : Fin 2048) (q : Fin 512) :
    (View.readAt (Elt Ideal) a.view (Rect.unit (s := S2048x512) ![0, 0] S2048x512.size inb_S2048x512_S2048x512_0_0).toLoadRect (h.unread Y)
      : Vec Ideal S2048x512 .bf16) (ix2 d q) = Y (ix2 d q) := by
  refine (h.readAt_unread Y _ _).trans (congrArg Y ?_)
  funext ax
  refine Fin.ext ?_
  match ax with
  | ⟨0, _⟩ =>
    rw [LoadRect.idx_apply]
    show 0 + 1 * d.val = d.val
    omega
  | ⟨1, _⟩ =>
    rw [LoadRect.idx_apply]
    show 0 + 1 * q.val = q.val
    omega

/-- A load of the whole shared first-layer bias reads the block. -/
theorem whole_x8 (a : Memref sig .tc .vmem S512 .f32) (h : a.IsWhole) (Y : Vec Ideal S512 .f32) (q : Fin 512) :
    (View.readAt (Elt Ideal) a.view (Rect.unit (s := S512) ![0] S512.size inb_S512_S512_0).toLoadRect (h.unread Y)
      : Vec Ideal S512 .f32) (ix1 q) = Y (ix1 q) := by
  refine (h.readAt_unread Y _ _).trans (congrArg Y ?_)
  funext ax
  refine Fin.ext ?_
  match ax with
  | ⟨0, _⟩ =>
    rw [LoadRect.idx_apply]
    show 0 + 1 * q.val = q.val
    omega

/-- A load of the whole shared second-layer matrix reads the block. -/
theorem whole_x9 (a : Memref sig .tc .vmem S512x128 .bf16) (h : a.IsWhole) (Y : Vec Ideal S512x128 .bf16) (q : Fin 512) (l : Fin 128) :
    (View.readAt (Elt Ideal) a.view (Rect.unit (s := S512x128) ![0, 0] S512x128.size inb_S512x128_S512x128_0_0).toLoadRect (h.unread Y)
      : Vec Ideal S512x128 .bf16) (ix2 q l) = Y (ix2 q l) := by
  refine (h.readAt_unread Y _ _).trans (congrArg Y ?_)
  funext ax
  refine Fin.ext ?_
  match ax with
  | ⟨0, _⟩ =>
    rw [LoadRect.idx_apply]
    show 0 + 1 * q.val = q.val
    omega
  | ⟨1, _⟩ =>
    rw [LoadRect.idx_apply]
    show 0 + 1 * l.val = l.val
    omega

/-- A load of the whole shared second-layer bias reads the block. -/
theorem whole_x10 (a : Memref sig .tc .vmem S128 .f32) (h : a.IsWhole) (Y : Vec Ideal S128 .f32) (l : Fin 128) :
    (View.readAt (Elt Ideal) a.view (Rect.unit (s := S128) ![0] S128.size inb_S128_S128_0).toLoadRect (h.unread Y)
      : Vec Ideal S128 .f32) (ix1 l) = Y (ix1 l) := by
  refine (h.readAt_unread Y _ _).trans (congrArg Y ?_)
  funext ax
  refine Fin.ext ?_
  match ax with
  | ⟨0, _⟩ =>
    rw [LoadRect.idx_apply]
    show 0 + 1 * l.val = l.val
    omega

/-! ## The stages at one entry -/

section Stages

variable (X : Fin 4096 → Fin 2048 → EReal) (fp : Fin 16 → Fin 2048 → EReal) (mean : Fin 2048 → EReal)
  (Wg1 : Fin 16 → Fin 2048 → Fin 256 → EReal) (bg1 : Fin 16 → Fin 256 → EReal)
  (Wg2 : Fin 16 → Fin 256 → Fin 128 → EReal) (bg2 : Fin 16 → Fin 128 → EReal)
  (Wf1 : Fin 2048 → Fin 512 → EReal) (bf1 : Fin 512 → EReal)
  (Wf2 : Fin 512 → Fin 128 → EReal) (bf2 : Fin 128 → EReal)
  (Wh : Fin 1024 → Fin 128 → EReal) (bh : Fin 128 → EReal)
  (Wc : Fin 128 → Fin 200 → EReal) (bc : Fin 200 → EReal)

/-- Slab c of the first scratch buffer at (r, l) is the concept vector of concept c on batch row b. -/
theorem cm_at (arg2 : Memref sig .tc .vmem S16x2048 .f32) (harg2 : arg2.IsWhole) (arg4 : Memref sig .tc .vmem S16x2048x256 .bf16) (harg4 : arg4.IsWhole) (arg5 : Memref sig .tc .vmem S16x256 .f32) (harg5 : arg5.IsWhole) (arg6 : Memref sig .tc .vmem S16x256x128 .bf16) (harg6 : arg6.IsWhole) (arg7 : Memref sig .tc .vmem S16x128 .f32) (harg7 : arg7.IsWhole)
    (x0 : Vec Ideal S256x2048 .f32) (x1 : Vec Ideal S16x2048 .f32) (x2 : Vec Ideal S2048 .f32) (x3 : Vec Ideal S16x2048x256 .bf16) (x4 : Vec Ideal S16x256 .f32) (x5 : Vec Ideal S16x256x128 .bf16) (x6 : Vec Ideal S16x128 .f32)
    (b : Fin 4096) (r : Fin 256)
    (h0 : ∀ d, x0 (ix2 r d) = X b d) (h1 : ∀ c d, x1 (ix2 c d) = fp c d) (h2 : ∀ d, x2 (ix1 d) = mean d) (h3 : ∀ c d h, x3 (ix3 c d h) = Wg1 c d h) (h4 : ∀ c h, x4 (ix2 c h) = bg1 c h) (h5 : ∀ c h l, x5 (ix3 c h l) = Wg2 c h l) (h6 : ∀ c l, x6 (ix2 c l) = bg2 c l)
    (c : Fin 16) (l : Fin 128) :
    Closed.cmAll (F := Ideal) arg2 harg2 arg4 harg4 arg5 harg5 arg6 harg6 arg7 harg7 x0 x1 x2 x3 x4 x5 x6 (ix3 c r l) = Cert.Spec.cm X fp mean Wg1 bg1 Wg2 bg2 c b l := by
  have hc : c.val < k0_t1_loop.trips := by rw [Closed.trips1]; exact c.isLt
  show KTrips.slabCm (F := Ideal) arg2 arg4 arg5 arg6 arg7 x0 x2 (harg2.unread x1) (harg4.unread x3) (harg5.unread x4) (harg6.unread x5) (harg7.unread x6) ⟨c.val, hc⟩ (ix3 0 r l) = _
  unfold KTrips.slabCm
  exact Pay.cm_of_blocks X fp mean Wg1 bg1 Wg2 bg2 x0 x2
    (View.readAt (Elt Ideal) arg2.view (Rect.unit (s := S16x2048) (k0_off1 ⟨c.val, hc⟩) S1x2048.size (k0_off1_inb ⟨c.val, hc⟩)).toLoadRect (harg2.unread x1))
    (View.readAt (Elt Ideal) arg4.view (Rect.unit (s := S16x2048x256) (k0_off2 ⟨c.val, hc⟩) S1x2048x256.size (k0_off2_inb ⟨c.val, hc⟩)).toLoadRect (harg4.unread x3))
    (View.readAt (Elt Ideal) arg5.view (Rect.unit (s := S16x256) (k0_off3 ⟨c.val, hc⟩) S1x256.size (k0_off3_inb ⟨c.val, hc⟩)).toLoadRect (harg5.unread x4))
    (View.readAt (Elt Ideal) arg6.view (Rect.unit (s := S16x256x128) (k0_off4 ⟨c.val, hc⟩) S1x256x128.size (k0_off4_inb ⟨c.val, hc⟩)).toLoadRect (harg6.unread x5))
    (View.readAt (Elt Ideal) arg7.view (Rect.unit (s := S16x128) (k0_off5 ⟨c.val, hc⟩) S1x128.size (k0_off5_inb ⟨c.val, hc⟩)).toLoadRect (harg7.unread x6))
    c b r h0 h2
    (fun d => (slab_x1 arg2 harg2 x1 ⟨c.val, hc⟩ c rfl d).trans (h1 c d))
    (fun d q => (slab_x3 arg4 harg4 x3 ⟨c.val, hc⟩ c rfl d q).trans (h3 c d q))
    (fun q => (slab_x4 arg5 harg5 x4 ⟨c.val, hc⟩ c rfl q).trans (h4 c q))
    (fun q l => (slab_x5 arg6 harg6 x5 ⟨c.val, hc⟩ c rfl q l).trans (h5 c q l))
    (fun l => (slab_x6 arg7 harg7 x6 ⟨c.val, hc⟩ c rfl l).trans (h6 c l)) l

/-- Slab c of the second scratch buffer at (r, l), before the mix overwrites it, is the latent vector of concept c on
    batch row b. -/
theorem lat_at (arg2 : Memref sig .tc .vmem S16x2048 .f32) (harg2 : arg2.IsWhole) (arg8 : Memref sig .tc .vmem S2048x512 .bf16) (harg8 : arg8.IsWhole) (arg9 : Memref sig .tc .vmem S512 .f32) (harg9 : arg9.IsWhole) (arg10 : Memref sig .tc .vmem S512x128 .bf16) (harg10 : arg10.IsWhole) (arg11 : Memref sig .tc .vmem S128 .f32) (harg11 : arg11.IsWhole)
    (x0 : Vec Ideal S256x2048 .f32) (x1 : Vec Ideal S16x2048 .f32) (x2 : Vec Ideal S2048 .f32) (x7 : Vec Ideal S2048x512 .bf16) (x8 : Vec Ideal S512 .f32) (x9 : Vec Ideal S512x128 .bf16) (x10 : Vec Ideal S128 .f32)
    (b : Fin 4096) (r : Fin 256)
    (h0 : ∀ d, x0 (ix2 r d) = X b d) (h1 : ∀ c d, x1 (ix2 c d) = fp c d) (h2 : ∀ d, x2 (ix1 d) = mean d) (h7 : ∀ d h, x7 (ix2 d h) = Wf1 d h) (h8 : ∀ h, x8 (ix1 h) = bf1 h) (h9 : ∀ h l, x9 (ix2 h l) = Wf2 h l) (h10 : ∀ l, x10 (ix1 l) = bf2 l)
    (c : Fin 16) (l : Fin 128) :
    Closed.latAll (F := Ideal) arg2 harg2 arg8 harg8 arg9 harg9 arg10 harg10 arg11 harg11 x0 x1 x2 x7 x8 x9 x10 (ix3 c r l) = Cert.Spec.lat X fp mean Wf1 bf1 Wf2 bf2 c b l := by
  have hc : c.val < k0_t1_loop.trips := by rw [Closed.trips1]; exact c.isLt
  show KTrips.slabLat (F := Ideal) arg2 arg8 arg9 arg10 arg11 x0 x2 (harg2.unread x1) (harg8.unread x7) (harg9.unread x8) (harg10.unread x9) (harg11.unread x10) ⟨c.val, hc⟩ (ix3 0 r l) = _
  unfold KTrips.slabLat
  exact Pay.lat_of_blocks X fp mean Wf1 bf1 Wf2 bf2 x0 x2
    (View.readAt (Elt Ideal) arg2.view (Rect.unit (s := S16x2048) (k0_off1 ⟨c.val, hc⟩) S1x2048.size (k0_off1_inb ⟨c.val, hc⟩)).toLoadRect (harg2.unread x1))
    (View.readAt (Elt Ideal) arg8.view (Rect.unit (s := S2048x512) ![0, 0] S2048x512.size inb_S2048x512_S2048x512_0_0).toLoadRect (harg8.unread x7))
    (View.readAt (Elt Ideal) arg9.view (Rect.unit (s := S512) ![0] S512.size inb_S512_S512_0).toLoadRect (harg9.unread x8))
    (View.readAt (Elt Ideal) arg10.view (Rect.unit (s := S512x128) ![0, 0] S512x128.size inb_S512x128_S512x128_0_0).toLoadRect (harg10.unread x9))
    (View.readAt (Elt Ideal) arg11.view (Rect.unit (s := S128) ![0] S128.size inb_S128_S128_0).toLoadRect (harg11.unread x10))
    c b r h0 h2
    (fun d => (slab_x1 arg2 harg2 x1 ⟨c.val, hc⟩ c rfl d).trans (h1 c d))
    (fun d q => (whole_x7 arg8 harg8 x7 d q).trans (h7 d q))
    (fun q => (whole_x8 arg9 harg9 x8 q).trans (h8 q))
    (fun q l => (whole_x9 arg10 harg10 x9 q l).trans (h9 q l))
    (fun l => (whole_x10 arg11 harg11 x10 l).trans (h10 l)) l

/-- The mix at (c, r, l) is the specification's mixed lane of concept c on batch row b. -/
theorem mixed_at (arg2 : Memref sig .tc .vmem S16x2048 .f32) (harg2 : arg2.IsWhole) (arg4 : Memref sig .tc .vmem S16x2048x256 .bf16) (harg4 : arg4.IsWhole) (arg5 : Memref sig .tc .vmem S16x256 .f32) (harg5 : arg5.IsWhole) (arg6 : Memref sig .tc .vmem S16x256x128 .bf16) (harg6 : arg6.IsWhole) (arg7 : Memref sig .tc .vmem S16x128 .f32) (harg7 : arg7.IsWhole) (arg8 : Memref sig .tc .vmem S2048x512 .bf16) (harg8 : arg8.IsWhole) (arg9 : Memref sig .tc .vmem S512 .f32) (harg9 : arg9.IsWhole) (arg10 : Memref sig .tc .vmem S512x128 .bf16) (harg10 : arg10.IsWhole) (arg11 : Memref sig .tc .vmem S128 .f32) (harg11 : arg11.IsWhole)
    (x0 : Vec Ideal S256x2048 .f32) (x1 : Vec Ideal S16x2048 .f32) (x2 : Vec Ideal S2048 .f32) (x3 : Vec Ideal S16x2048x256 .bf16) (x4 : Vec Ideal S16x256 .f32) (x5 : Vec Ideal S16x256x128 .bf16) (x6 : Vec Ideal S16x128 .f32) (x7 : Vec Ideal S2048x512 .bf16) (x8 : Vec Ideal S512 .f32) (x9 : Vec Ideal S512x128 .bf16) (x10 : Vec Ideal S128 .f32)
    (b : Fin 4096) (r : Fin 256)
    (h0 : ∀ d, x0 (ix2 r d) = X b d) (h1 : ∀ c d, x1 (ix2 c d) = fp c d) (h2 : ∀ d, x2 (ix1 d) = mean d) (h3 : ∀ c d h, x3 (ix3 c d h) = Wg1 c d h) (h4 : ∀ c h, x4 (ix2 c h) = bg1 c h) (h5 : ∀ c h l, x5 (ix3 c h l) = Wg2 c h l) (h6 : ∀ c l, x6 (ix2 c l) = bg2 c l) (h7 : ∀ d h, x7 (ix2 d h) = Wf1 d h) (h8 : ∀ h, x8 (ix1 h) = bf1 h) (h9 : ∀ h l, x9 (ix2 h l) = Wf2 h l) (h10 : ∀ l, x10 (ix1 l) = bf2 l)
    (c : Fin 16) (l : Fin 128) :
    Closed.mixedAll (F := Ideal) arg2 harg2 arg4 harg4 arg5 harg5 arg6 harg6 arg7 harg7 arg8 harg8 arg9 harg9 arg10 harg10 arg11 harg11 x0 x1 x2 x3 x4 x5 x6 x7 x8 x9 x10 (ix3 c r l) = Cert.Spec.mixed X fp mean Wg1 bg1 Wg2 bg2 Wf1 bf1 Wf2 bf2 c b l := by
  unfold Closed.mixedAll
  exact Pay.mixed_of_scratch X fp mean Wg1 bg1 Wg2 bg2 Wf1 bf1 Wf2 bf2
    (Closed.cmAll (F := Ideal) arg2 harg2 arg4 harg4 arg5 harg5 arg6 harg6 arg7 harg7 x0 x1 x2 x3 x4 x5 x6)
    (Closed.latAll (F := Ideal) arg2 harg2 arg8 harg8 arg9 harg9 arg10 harg10 arg11 harg11 x0 x1 x2 x7 x8 x9 x10) b r
    (fun c l => cm_at X fp mean Wg1 bg1 Wg2 bg2 arg2 harg2 arg4 harg4 arg5 harg5 arg6 harg6 arg7 harg7 x0 x1 x2 x3 x4 x5 x6 b r h0 h1 h2 h3 h4 h5 h6 c l)
    (fun c l => lat_at X fp mean Wf1 bf1 Wf2 bf2 arg2 harg2 arg8 harg8 arg9 harg9 arg10 harg10 arg11 harg11 x0 x1 x2 x7 x8 x9 x10 b r h0 h1 h2 h7 h8 h9 h10 c l) c l

end Stages

/-! ## The accumulator -/

/-- Before the first trip the accumulator reads the zero splat. -/
theorem acc_zero (arg2 : Memref sig .tc .vmem S16x2048 .f32) (harg2 : arg2.IsWhole) (arg4 : Memref sig .tc .vmem S16x2048x256 .bf16) (harg4 : arg4.IsWhole) (arg5 : Memref sig .tc .vmem S16x256 .f32) (harg5 : arg5.IsWhole) (arg6 : Memref sig .tc .vmem S16x256x128 .bf16) (harg6 : arg6.IsWhole) (arg7 : Memref sig .tc .vmem S16x128 .f32) (harg7 : arg7.IsWhole) (arg8 : Memref sig .tc .vmem S2048x512 .bf16) (harg8 : arg8.IsWhole) (arg9 : Memref sig .tc .vmem S512 .f32) (harg9 : arg9.IsWhole) (arg10 : Memref sig .tc .vmem S512x128 .bf16) (harg10 : arg10.IsWhole) (arg11 : Memref sig .tc .vmem S128 .f32) (harg11 : arg11.IsWhole) (arg12 : Memref sig .tc .vmem S16x128x128 .bf16) (harg12 : arg12.IsWhole) (arg18 : Memref sig .tc .vmem S16x256x128 .f32) (harg18 : arg18.IsWhole) (arg19 : Memref sig .tc .vmem S256x128 .f32) (harg19 : arg19.IsWhole)
    (x0 : Vec Ideal S256x2048 .f32) (x1 : Vec Ideal S16x2048 .f32) (x2 : Vec Ideal S2048 .f32) (x3 : Vec Ideal S16x2048x256 .bf16) (x4 : Vec Ideal S16x256 .f32) (x5 : Vec Ideal S16x256x128 .bf16) (x6 : Vec Ideal S16x128 .f32) (x7 : Vec Ideal S2048x512 .bf16) (x8 : Vec Ideal S512 .f32) (x9 : Vec Ideal S512x128 .bf16) (x10 : Vec Ideal S128 .f32) (x11 : Vec Ideal S16x128x128 .bf16)
    (r : Fin 256) (g : Fin 128) :
    Closed.accAt (F := Ideal) arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 0 (ix2 r g) = 0 := by
  show arg19.view.read (Elt Ideal) (harg19.unread (k0_pay7 (F := Ideal))) (ix2 r g) = 0
  refine (congrFun (Memref.IsWhole.read_unread (Val := Elt Ideal) harg19 (k0_pay7 (F := Ideal))) (ix2 r g)).trans ?_
  exact Pay.pay7_apply r g

/-- Trip k adds, at (r, g), the lane sum of the products of slab k of the mix with slab k of the head matrix. -/
theorem acc_succ (arg2 : Memref sig .tc .vmem S16x2048 .f32) (harg2 : arg2.IsWhole) (arg4 : Memref sig .tc .vmem S16x2048x256 .bf16) (harg4 : arg4.IsWhole) (arg5 : Memref sig .tc .vmem S16x256 .f32) (harg5 : arg5.IsWhole) (arg6 : Memref sig .tc .vmem S16x256x128 .bf16) (harg6 : arg6.IsWhole) (arg7 : Memref sig .tc .vmem S16x128 .f32) (harg7 : arg7.IsWhole) (arg8 : Memref sig .tc .vmem S2048x512 .bf16) (harg8 : arg8.IsWhole) (arg9 : Memref sig .tc .vmem S512 .f32) (harg9 : arg9.IsWhole) (arg10 : Memref sig .tc .vmem S512x128 .bf16) (harg10 : arg10.IsWhole) (arg11 : Memref sig .tc .vmem S128 .f32) (harg11 : arg11.IsWhole) (arg12 : Memref sig .tc .vmem S16x128x128 .bf16) (harg12 : arg12.IsWhole) (arg18 : Memref sig .tc .vmem S16x256x128 .f32) (harg18 : arg18.IsWhole) (arg19 : Memref sig .tc .vmem S256x128 .f32) (harg19 : arg19.IsWhole)
    (x0 : Vec Ideal S256x2048 .f32) (x1 : Vec Ideal S16x2048 .f32) (x2 : Vec Ideal S2048 .f32) (x3 : Vec Ideal S16x2048x256 .bf16) (x4 : Vec Ideal S16x256 .f32) (x5 : Vec Ideal S16x256x128 .bf16) (x6 : Vec Ideal S16x128 .f32) (x7 : Vec Ideal S2048x512 .bf16) (x8 : Vec Ideal S512 .f32) (x9 : Vec Ideal S512x128 .bf16) (x10 : Vec Ideal S128 .f32) (x11 : Vec Ideal S16x128x128 .bf16)
    (r : Fin 256) (k : ℕ) (hk : k < 16) (g : Fin 128) :
    Closed.accAt (F := Ideal) arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 (k + 1) (ix2 r g)
      = Closed.accAt (F := Ideal) arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 k (ix2 r g)
        + ∑ l : Fin 128, Closed.mixedAll (F := Ideal) arg2 harg2 arg4 harg4 arg5 harg5 arg6 harg6 arg7 harg7 arg8 harg8 arg9 harg9 arg10 harg10 arg11 harg11 x0 x1 x2 x3 x4 x5 x6 x7 x8 x9 x10 (ix3 (⟨k, hk⟩ : Fin 16) r l) * x11 (ix3 (⟨k, hk⟩ : Fin 16) l g) := by
  have hk2 : k < k0_t2_loop.trips := by rw [Closed.trips2]; exact hk
  have e : Closed.accAt (F := Ideal) arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 (k + 1)
      = KTrips.headStep (F := Ideal) arg12 arg18 (harg12.unread x11) (harg18.unread (Closed.mixedAll (F := Ideal) arg2 harg2 arg4 harg4 arg5 harg5 arg6 harg6 arg7 harg7 arg8 harg8 arg9 harg9 arg10 harg10 arg11 harg11 x0 x1 x2 x3 x4 x5 x6 x7 x8 x9 x10)) ⟨k, hk2⟩
          (Closed.accAt (F := Ideal) arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 k) := by
    unfold Closed.accAt
    rw [KTrips.headAcc, dif_pos hk2]
  refine (congrFun e (ix2 r g)).trans ?_
  unfold KTrips.headStep
  refine (Pay.pay1_apply
    (View.readAt (Elt Ideal) arg18.view (Rect.unit (s := S16x256x128) (k0_off6 ⟨k, hk2⟩) S1x256x128.size (k0_off6_inb ⟨k, hk2⟩)).toLoadRect (harg18.unread (Closed.mixedAll (F := Ideal) arg2 harg2 arg4 harg4 arg5 harg5 arg6 harg6 arg7 harg7 arg8 harg8 arg9 harg9 arg10 harg10 arg11 harg11 x0 x1 x2 x3 x4 x5 x6 x7 x8 x9 x10)))
    (View.readAt (Elt Ideal) arg12.view (Rect.unit (s := S16x128x128) (k0_off7 ⟨k, hk2⟩) S1x128x128.size (k0_off7_inb ⟨k, hk2⟩)).toLoadRect (harg12.unread x11))
    (Closed.accAt (F := Ideal) arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 k) r g).trans ?_
  refine congrArg (Closed.accAt (F := Ideal) arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 k (ix2 r g) + ·) (Finset.sum_congr rfl fun l _ => ?_)
  exact congrArg₂ (· * ·)
    (slab_mix arg18 harg18 (Closed.mixedAll (F := Ideal) arg2 harg2 arg4 harg4 arg5 harg5 arg6 harg6 arg7 harg7 arg8 harg8 arg9 harg9 arg10 harg10 arg11 harg11 x0 x1 x2 x3 x4 x5 x6 x7 x8 x9 x10) ⟨k, hk2⟩ ⟨k, hk⟩ rfl r l)
    (slab_x11 arg12 harg12 x11 ⟨k, hk2⟩ ⟨k, hk⟩ rfl l g)

section Result

variable (X : Fin 4096 → Fin 2048 → EReal) (fp : Fin 16 → Fin 2048 → EReal) (mean : Fin 2048 → EReal)
  (Wg1 : Fin 16 → Fin 2048 → Fin 256 → EReal) (bg1 : Fin 16 → Fin 256 → EReal)
  (Wg2 : Fin 16 → Fin 256 → Fin 128 → EReal) (bg2 : Fin 16 → Fin 128 → EReal)
  (Wf1 : Fin 2048 → Fin 512 → EReal) (bf1 : Fin 512 → EReal)
  (Wf2 : Fin 512 → Fin 128 → EReal) (bf2 : Fin 128 → EReal)
  (Wh : Fin 1024 → Fin 128 → EReal) (bh : Fin 128 → EReal)
  (Wc : Fin 128 → Fin 200 → EReal) (bc : Fin 200 → EReal)

/-- After sixteen trips the accumulator at (r, g) is the head's sum over the concepts and the lanes. -/
theorem acc_at (arg2 : Memref sig .tc .vmem S16x2048 .f32) (harg2 : arg2.IsWhole) (arg4 : Memref sig .tc .vmem S16x2048x256 .bf16) (harg4 : arg4.IsWhole) (arg5 : Memref sig .tc .vmem S16x256 .f32) (harg5 : arg5.IsWhole) (arg6 : Memref sig .tc .vmem S16x256x128 .bf16) (harg6 : arg6.IsWhole) (arg7 : Memref sig .tc .vmem S16x128 .f32) (harg7 : arg7.IsWhole) (arg8 : Memref sig .tc .vmem S2048x512 .bf16) (harg8 : arg8.IsWhole) (arg9 : Memref sig .tc .vmem S512 .f32) (harg9 : arg9.IsWhole) (arg10 : Memref sig .tc .vmem S512x128 .bf16) (harg10 : arg10.IsWhole) (arg11 : Memref sig .tc .vmem S128 .f32) (harg11 : arg11.IsWhole) (arg12 : Memref sig .tc .vmem S16x128x128 .bf16) (harg12 : arg12.IsWhole) (arg18 : Memref sig .tc .vmem S16x256x128 .f32) (harg18 : arg18.IsWhole) (arg19 : Memref sig .tc .vmem S256x128 .f32) (harg19 : arg19.IsWhole)
    (x0 : Vec Ideal S256x2048 .f32) (x1 : Vec Ideal S16x2048 .f32) (x2 : Vec Ideal S2048 .f32) (x3 : Vec Ideal S16x2048x256 .bf16) (x4 : Vec Ideal S16x256 .f32) (x5 : Vec Ideal S16x256x128 .bf16) (x6 : Vec Ideal S16x128 .f32) (x7 : Vec Ideal S2048x512 .bf16) (x8 : Vec Ideal S512 .f32) (x9 : Vec Ideal S512x128 .bf16) (x10 : Vec Ideal S128 .f32) (x11 : Vec Ideal S16x128x128 .bf16)
    (b : Fin 4096) (r : Fin 256)
    (h0 : ∀ d, x0 (ix2 r d) = X b d) (h1 : ∀ c d, x1 (ix2 c d) = fp c d) (h2 : ∀ d, x2 (ix1 d) = mean d) (h3 : ∀ c d h, x3 (ix3 c d h) = Wg1 c d h) (h4 : ∀ c h, x4 (ix2 c h) = bg1 c h) (h5 : ∀ c h l, x5 (ix3 c h l) = Wg2 c h l) (h6 : ∀ c l, x6 (ix2 c l) = bg2 c l) (h7 : ∀ d h, x7 (ix2 d h) = Wf1 d h) (h8 : ∀ h, x8 (ix1 h) = bf1 h) (h9 : ∀ h l, x9 (ix2 h l) = Wf2 h l) (h10 : ∀ l, x10 (ix1 l) = bf2 l) (h11 : ∀ c l g, x11 (ix3 c l g) = Cert.Spec.headRows Wh c l g)
    (g : Fin 128) :
    Closed.accAt (F := Ideal) arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 16 (ix2 r g)
      = ∑ c : Fin 16, ∑ l : Fin 128, Cert.Spec.mixed X fp mean Wg1 bg1 Wg2 bg2 Wf1 bf1 Wf2 bf2 c b l * Cert.Spec.headRows Wh c l g := by
  refine Pay.acc_sum (fun k => Closed.accAt (F := Ideal) arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 k (ix2 r g))
    (fun c => ∑ l : Fin 128, Cert.Spec.mixed X fp mean Wg1 bg1 Wg2 bg2 Wf1 bf1 Wf2 bf2 c b l * Cert.Spec.headRows Wh c l g)
    (acc_zero arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 r g) (fun k hk => ?_)
  show Closed.accAt (F := Ideal) arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 (k + 1) (ix2 r g)
    = Closed.accAt (F := Ideal) arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 k (ix2 r g)
      + ∑ l : Fin 128, Cert.Spec.mixed X fp mean Wg1 bg1 Wg2 bg2 Wf1 bf1 Wf2 bf2 ⟨k, hk⟩ b l * Cert.Spec.headRows Wh ⟨k, hk⟩ l g
  refine (acc_succ arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 r k hk g).trans ?_
  refine congrArg (Closed.accAt (F := Ideal) arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 k (ix2 r g) + ·) (Finset.sum_congr rfl fun l _ => ?_)
  exact congrArg₂ (· * ·)
    (mixed_at X fp mean Wg1 bg1 Wg2 bg2 Wf1 bf1 Wf2 bf2 arg2 harg2 arg4 harg4 arg5 harg5 arg6 harg6 arg7 harg7 arg8 harg8 arg9 harg9 arg10 harg10 arg11 harg11 x0 x1 x2 x3 x4 x5 x6 x7 x8 x9 x10 b r h0 h1 h2 h3 h4 h5 h6 h7 h8 h9 h10 ⟨k, hk⟩ l)
    (h11 ⟨k, hk⟩ l g)

/-- The output block at (r, n), for a batch row b held in row r of the input block and n among the 200 results,
    is the specification's result by concept. -/
theorem out_value (arg1 : Memref sig .tc .vmem S256x2048 .f32) (harg1 : arg1.IsWhole) (arg2 : Memref sig .tc .vmem S16x2048 .f32) (harg2 : arg2.IsWhole) (arg3 : Memref sig .tc .vmem S2048 .f32) (harg3 : arg3.IsWhole) (arg4 : Memref sig .tc .vmem S16x2048x256 .bf16) (harg4 : arg4.IsWhole) (arg5 : Memref sig .tc .vmem S16x256 .f32) (harg5 : arg5.IsWhole) (arg6 : Memref sig .tc .vmem S16x256x128 .bf16) (harg6 : arg6.IsWhole) (arg7 : Memref sig .tc .vmem S16x128 .f32) (harg7 : arg7.IsWhole) (arg8 : Memref sig .tc .vmem S2048x512 .bf16) (harg8 : arg8.IsWhole) (arg9 : Memref sig .tc .vmem S512 .f32) (harg9 : arg9.IsWhole) (arg10 : Memref sig .tc .vmem S512x128 .bf16) (harg10 : arg10.IsWhole) (arg11 : Memref sig .tc .vmem S128 .f32) (harg11 : arg11.IsWhole) (arg12 : Memref sig .tc .vmem S16x128x128 .bf16) (harg12 : arg12.IsWhole) (arg13 : Memref sig .tc .vmem S128 .f32) (harg13 : arg13.IsWhole) (arg14 : Memref sig .tc .vmem S128x256 .bf16) (harg14 : arg14.IsWhole) (arg15 : Memref sig .tc .vmem S256 .f32) (harg15 : arg15.IsWhole) (arg16 : Memref sig .tc .vmem S256x256 .f32) (harg16 : arg16.IsWhole) (arg17 : Memref sig .tc .vmem S16x256x128 .f32) (harg17 : arg17.IsWhole) (arg18 : Memref sig .tc .vmem S16x256x128 .f32) (harg18 : arg18.IsWhole) (arg19 : Memref sig .tc .vmem S256x128 .f32) (harg19 : arg19.IsWhole)
    (x0 : Vec Ideal S256x2048 .f32) (x1 : Vec Ideal S16x2048 .f32) (x2 : Vec Ideal S2048 .f32) (x3 : Vec Ideal S16x2048x256 .bf16) (x4 : Vec Ideal S16x256 .f32) (x5 : Vec Ideal S16x256x128 .bf16) (x6 : Vec Ideal S16x128 .f32) (x7 : Vec Ideal S2048x512 .bf16) (x8 : Vec Ideal S512 .f32) (x9 : Vec Ideal S512x128 .bf16) (x10 : Vec Ideal S128 .f32) (x11 : Vec Ideal S16x128x128 .bf16) (x12 : Vec Ideal S128 .f32) (x13 : Vec Ideal S128x256 .bf16) (x14 : Vec Ideal S256 .f32)
    (b : Fin 4096) (r : Fin 256) (n : Fin 200)
    (h0 : ∀ d, x0 (ix2 r d) = X b d) (h1 : ∀ c d, x1 (ix2 c d) = fp c d) (h2 : ∀ d, x2 (ix1 d) = mean d)
    (h3 : ∀ c d h, x3 (ix3 c d h) = Wg1 c d h) (h4 : ∀ c h, x4 (ix2 c h) = bg1 c h) (h5 : ∀ c h l, x5 (ix3 c h l) = Wg2 c h l) (h6 : ∀ c l, x6 (ix2 c l) = bg2 c l)
    (h7 : ∀ d h, x7 (ix2 d h) = Wf1 d h) (h8 : ∀ h, x8 (ix1 h) = bf1 h) (h9 : ∀ h l, x9 (ix2 h l) = Wf2 h l) (h10 : ∀ l, x10 (ix1 l) = bf2 l)
    (h11 : ∀ c l g, x11 (ix3 c l g) = Cert.Spec.headRows Wh c l g) (h12 : ∀ g, x12 (ix1 g) = bh g)
    (h13 : ∀ g, x13 (ix2 g ⟨n.val, by omega⟩) = Wc g n) (h14 : x14 (ix1 ⟨n.val, by omega⟩) = bc n) :
    Cert.KernelIdeal.Closed.out (F := Ideal) arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 x12 x13 x14 (ix2 r ⟨n.val, by omega⟩)
      = Cert.Spec.outByConcept X fp mean Wg1 bg1 Wg2 bg2 Wf1 bf1 Wf2 bf2 Wh bh Wc bc b n := by
  unfold Closed.out
  exact Pay.out_of_acc X fp mean Wg1 bg1 Wg2 bg2 Wf1 bf1 Wf2 bf2 Wh bh Wc bc
    (Closed.accAt (F := Ideal) arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 16) x12 x13 x14 b r n
    (fun g => acc_at X fp mean Wg1 bg1 Wg2 bg2 Wf1 bf1 Wf2 bf2 Wh arg2 harg2 arg4 harg4 arg5 harg5 arg6 harg6 arg7 harg7 arg8 harg8 arg9 harg9 arg10 harg10 arg11 harg11 arg12 harg12 arg18 harg18 arg19 harg19 x0 x1 x2 x3 x4 x5 x6 x7 x8 x9 x10 x11 b r h0 h1 h2 h3 h4 h5 h6 h7 h8 h9 h10 h11 g)
    h12 h13 h14

end Result

end Cert.KernelIdeal.OutValue

end
-- ==== Proof.BlockReads.lean ====
/-
  What each input window's block at a grid point holds, as entries of the arrays the region finds.

  The grid is one axis of 16 points. A block's coordinate on an axis is always (block index) × (block size) + the
  coordinate inside the block. Window 0's index map sends point t to block (t, 0) of 256 × 2048 blocks, so entry
  (r, d) of its block is entry (256·t + r, d) of the array. Every other input window's index map is constantly
  zero and its block is the whole array, so entry i of its block is entry i of the array, at every point.
-/
import proofs.«168377_j46110768889918_2_alg».proof.Proof.Gen.KernelIdeal.Frame.Runs
import Idealize.ShloMosaic.Lib.ValueIdx
import Idealize.ShloMosaic.Lib.Decide

set_option maxRecDepth 16384

noncomputable section

namespace Cert.KernelIdeal.BlockReads

open Idealize.ShloMosaic Idealize.ShloMosaic.TcCoe Idealize.ShloMosaic.Tactic Idealize.ShloMosaic.ValueIdx
open Idealize.ShloMosaic.Pipeline (Dat Cfg Window)
open Cert.KernelIdeal.Gen

variable (m : (ℓ : Loc nD τ sig) → Buf (Elt Ideal) ℓ) (c : Dev nD)

/-- The grid has 16 points. -/
theorem t_lt (t : Fin cfg0.N) : t.val < 16 := t.isLt

/-! ## Window 0: the batch rows, 256 at a time

The index map sends point t to block (t, 0): rows 256·t … 256·t + 255, all 2048 columns. -/

theorem idx0 : ∀ t : Fin cfg0.N, win0_0.index t (0 : Fin 2) = t.val ∧ win0_0.index t (1 : Fin 2) = 0 :=
  (by decide +kernel : ∀ t : Fin grid0.N, _)

/-- Entry (r, d) of point t's block of the input is entry (256·t + r, d) of the input. -/
theorem iblk0_apply (t : Fin cfg0.N) (r : Fin 256) (d : Fin 2048) :
    iblk m c 0 t (ix2 r d)
      = (V m c main_arg0 : S4096x2048.Idx → EReal) (ix2 (⟨256 * t.val + r.val, by have := t_lt t; omega⟩ : Fin 4096) d) := by
  show (V m c main_arg0 : S4096x2048.Idx → EReal) (((cfg0.win 0).blk t).view.emb (ix2 r d)) = _
  refine congrArg (V m c main_arg0 : S4096x2048.Idx → EReal) ?_
  obtain ⟨e0, e1⟩ := idx0 t
  funext a; apply Fin.ext
  match a with
  | ⟨0, _⟩ => show win0_0.index t (0 : Fin 2) * 256 + 1 * r.val = 256 * t.val + r.val; omega
  | ⟨1, _⟩ => show win0_0.index t (1 : Fin 2) * 2048 + 1 * d.val = d.val; omega

/-! ## Windows 1 to 14: whole arrays

Each index map is constantly zero and the block is the whole array, so every point's block is the array itself. -/

theorem idx1 : ∀ t : Fin cfg0.N, win0_1.index t (0 : Fin 2) = 0 ∧ win0_1.index t (1 : Fin 2) = 0 :=
  (by decide +kernel : ∀ t : Fin grid0.N, _)

/-- Window 1 (the gate parameters): the block at any point is the whole array. -/
theorem iblk1_apply (t : Fin cfg0.N) (x0 : Fin 16) (x1 : Fin 2048) :
    iblk m c 1 t (ix2 x0 x1) = (V m c main_arg1 : S16x2048.Idx → EReal) (ix2 x0 x1) := by
  show (V m c main_arg1 : S16x2048.Idx → EReal) (((cfg0.win 1).blk t).view.emb (ix2 x0 x1)) = _
  refine congrArg (V m c main_arg1 : S16x2048.Idx → EReal) ?_
  obtain ⟨e0, e1⟩ := idx1 t
  funext a; apply Fin.ext
  match a with
  | ⟨0, _⟩ => show win0_1.index t (0 : Fin 2) * 16 + 1 * x0.val = x0.val; omega
  | ⟨1, _⟩ => show win0_1.index t (1 : Fin 2) * 2048 + 1 * x1.val = x1.val; omega

theorem idx2 : ∀ t : Fin cfg0.N, win0_2.index t (0 : Fin 1) = 0 :=
  (by decide +kernel : ∀ t : Fin grid0.N, _)

/-- Window 2 (the mean): the block at any point is the whole array. -/
theorem iblk2_apply (t : Fin cfg0.N) (x0 : Fin 2048) :
    iblk m c 2 t (ix1 x0) = (V m c main_arg2 : S2048.Idx → EReal) (ix1 x0) := by
  show (V m c main_arg2 : S2048.Idx → EReal) (((cfg0.win 2).blk t).view.emb (ix1 x0)) = _
  refine congrArg (V m c main_arg2 : S2048.Idx → EReal) ?_
  have e0 := idx2 t
  funext a; apply Fin.ext
  match a with
  | ⟨0, _⟩ => show win0_2.index t (0 : Fin 1) * 2048 + 1 * x0.val = x0.val; omega

theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)

/-- Window 3 (the concepts' first-layer matrices): the block at any point is the whole array. -/
theorem iblk3_apply (t : Fin cfg0.N) (x0 : Fin 16) (x1 : Fin 2048) (x2 : Fin 256) :
    iblk m c 3 t (ix3 x0 x1 x2) = (V m c main_v0 : S16x2048x256.Idx → EReal) (ix3 x0 x1 x2) := by
  show (V m c main_v0 : S16x2048x256.Idx → EReal) (((cfg0.win 3).blk t).view.emb (ix3 x0 x1 x2)) = _
  refine congrArg (V m c main_v0 : S16x2048x256.Idx → EReal) ?_
  obtain ⟨e0, e1, e2⟩ := idx3 t
  funext a; apply Fin.ext
  match a with
  | ⟨0, _⟩ => show win0_3.index t (0 : Fin 3) * 16 + 1 * x0.val = x0.val; omega
  | ⟨1, _⟩ => show win0_3.index t (1 : Fin 3) * 2048 + 1 * x1.val = x1.val; omega
  | ⟨2, _⟩ => show win0_3.index t (2 : Fin 3) * 256 + 1 * x2.val = x2.val; omega

theorem idx4 : ∀ t : Fin cfg0.N, win0_4.index t (0 : Fin 2) = 0 ∧ win0_4.index t (1 : Fin 2) = 0 :=
  (by decide +kernel : ∀ t : Fin grid0.N, _)

/-- Window 4 (the concepts' first-layer biases): the block at any point is the whole array. -/
theorem iblk4_apply (t : Fin cfg0.N) (x0 : Fin 16) (x1 : Fin 256) :
    iblk m c 4 t (ix2 x0 x1) = (V m c main_arg4 : S16x256.Idx → EReal) (ix2 x0 x1) := by
  show (V m c main_arg4 : S16x256.Idx → EReal) (((cfg0.win 4).blk t).view.emb (ix2 x0 x1)) = _
  refine congrArg (V m c main_arg4 : S16x256.Idx → EReal) ?_
  obtain ⟨e0, e1⟩ := idx4 t
  funext a; apply Fin.ext
  match a with
  | ⟨0, _⟩ => show win0_4.index t (0 : Fin 2) * 16 + 1 * x0.val = x0.val; omega
  | ⟨1, _⟩ => show win0_4.index t (1 : Fin 2) * 256 + 1 * x1.val = x1.val; omega

theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

/-- Window 5 (the concepts' second-layer matrices): the block at any point is the whole array. -/
theorem iblk5_apply (t : Fin cfg0.N) (x0 : Fin 16) (x1 : Fin 256) (x2 : Fin 128) :
    iblk m c 5 t (ix3 x0 x1 x2) = (V m c main_v1 : S16x256x128.Idx → EReal) (ix3 x0 x1 x2) := by
  show (V m c main_v1 : S16x256x128.Idx → EReal) (((cfg0.win 5).blk t).view.emb (ix3 x0 x1 x2)) = _
  refine congrArg (V m c main_v1 : S16x256x128.Idx → EReal) ?_
  obtain ⟨e0, e1, e2⟩ := idx5 t
  funext a; apply Fin.ext
  match a with
  | ⟨0, _⟩ => show win0_5.index t (0 : Fin 3) * 16 + 1 * x0.val = x0.val; omega
  | ⟨1, _⟩ => show win0_5.index t (1 : Fin 3) * 256 + 1 * x1.val = x1.val; omega
  | ⟨2, _⟩ => show win0_5.index t (2 : Fin 3) * 128 + 1 * x2.val = x2.val; omega

theorem idx6 : ∀ t : Fin cfg0.N, win0_6.index t (0 : Fin 2) = 0 ∧ win0_6.index t (1 : Fin 2) = 0 :=
  (by decide +kernel : ∀ t : Fin grid0.N, _)

/-- Window 6 (the concepts' second-layer biases): the block at any point is the whole array. -/
theorem iblk6_apply (t : Fin cfg0.N) (x0 : Fin 16) (x1 : Fin 128) :
    iblk m c 6 t (ix2 x0 x1) = (V m c main_arg6 : S16x128.Idx → EReal) (ix2 x0 x1) := by
  show (V m c main_arg6 : S16x128.Idx → EReal) (((cfg0.win 6).blk t).view.emb (ix2 x0 x1)) = _
  refine congrArg (V m c main_arg6 : S16x128.Idx → EReal) ?_
  obtain ⟨e0, e1⟩ := idx6 t
  funext a; apply Fin.ext
  match a with
  | ⟨0, _⟩ => show win0_6.index t (0 : Fin 2) * 16 + 1 * x0.val = x0.val; omega
  | ⟨1, _⟩ => show win0_6.index t (1 : Fin 2) * 128 + 1 * x1.val = x1.val; omega

theorem idx7 : ∀ t : Fin cfg0.N, win0_7.index t (0 : Fin 2) = 0 ∧ win0_7.index t (1 : Fin 2) = 0 :=
  (by decide +kernel : ∀ t : Fin grid0.N, _)

/-- Window 7 (the shared first-layer matrix): the block at any point is the whole array. -/
theorem iblk7_apply (t : Fin cfg0.N) (x0 : Fin 2048) (x1 : Fin 512) :
    iblk m c 7 t (ix2 x0 x1) = (V m c main_v2 : S2048x512.Idx → EReal) (ix2 x0 x1) := by
  show (V m c main_v2 : S2048x512.Idx → EReal) (((cfg0.win 7).blk t).view.emb (ix2 x0 x1)) = _
  refine congrArg (V m c main_v2 : S2048x512.Idx → EReal) ?_
  obtain ⟨e0, e1⟩ := idx7 t
  funext a; apply Fin.ext
  match a with
  | ⟨0, _⟩ => show win0_7.index t (0 : Fin 2) * 2048 + 1 * x0.val = x0.val; omega
  | ⟨1, _⟩ => show win0_7.index t (1 : Fin 2) * 512 + 1 * x1.val = x1.val; omega

theorem idx8 : ∀ t : Fin cfg0.N, win0_8.index t (0 : Fin 1) = 0 :=
  (by decide +kernel : ∀ t : Fin grid0.N, _)

/-- Window 8 (the shared first-layer bias): the block at any point is the whole array. -/
theorem iblk8_apply (t : Fin cfg0.N) (x0 : Fin 512) :
    iblk m c 8 t (ix1 x0) = (V m c main_arg8 : S512.Idx → EReal) (ix1 x0) := by
  show (V m c main_arg8 : S512.Idx → EReal) (((cfg0.win 8).blk t).view.emb (ix1 x0)) = _
  refine congrArg (V m c main_arg8 : S512.Idx → EReal) ?_
  have e0 := idx8 t
  funext a; apply Fin.ext
  match a with
  | ⟨0, _⟩ => show win0_8.index t (0 : Fin 1) * 512 + 1 * x0.val = x0.val; omega

theorem idx9 : ∀ t : Fin cfg0.N, win0_9.index t (0 : Fin 2) = 0 ∧ win0_9.index t (1 : Fin 2) = 0 :=
  (by decide +kernel : ∀ t : Fin grid0.N, _)

/-- Window 9 (the shared second-layer matrix): the block at any point is the whole array. -/
theorem iblk9_apply (t : Fin cfg0.N) (x0 : Fin 512) (x1 : Fin 128) :
    iblk m c 9 t (ix2 x0 x1) = (V m c main_v3 : S512x128.Idx → EReal) (ix2 x0 x1) := by
  show (V m c main_v3 : S512x128.Idx → EReal) (((cfg0.win 9).blk t).view.emb (ix2 x0 x1)) = _
  refine congrArg (V m c main_v3 : S512x128.Idx → EReal) ?_
  obtain ⟨e0, e1⟩ := idx9 t
  funext a; apply Fin.ext
  match a with
  | ⟨0, _⟩ => show win0_9.index t (0 : Fin 2) * 512 + 1 * x0.val = x0.val; omega
  | ⟨1, _⟩ => show win0_9.index t (1 : Fin 2) * 128 + 1 * x1.val = x1.val; omega

theorem idx10 : ∀ t : Fin cfg0.N, win0_10.index t (0 : Fin 1) = 0 :=
  (by decide +kernel : ∀ t : Fin grid0.N, _)

/-- Window 10 (the shared second-layer bias): the block at any point is the whole array. -/
theorem iblk10_apply (t : Fin cfg0.N) (x0 : Fin 128) :
    iblk m c 10 t (ix1 x0) = (V m c main_arg10 : S128.Idx → EReal) (ix1 x0) := by
  show (V m c main_arg10 : S128.Idx → EReal) (((cfg0.win 10).blk t).view.emb (ix1 x0)) = _
  refine congrArg (V m c main_arg10 : S128.Idx → EReal) ?_
  have e0 := idx10 t
  funext a; apply Fin.ext
  match a with
  | ⟨0, _⟩ => show win0_10.index t (0 : Fin 1) * 128 + 1 * x0.val = x0.val; omega

theorem idx11 : ∀ t : Fin cfg0.N, win0_11.index t (0 : Fin 3) = 0 ∧ win0_11.index t (1 : Fin 3) = 0 ∧ win0_11.index t (2 : Fin 3) = 0 :=
  (by decide +kernel : ∀ t : Fin grid0.N, _)

/-- Window 11 (the head matrix by concept): the block at any point is the whole array. -/
theorem iblk11_apply (t : Fin cfg0.N) (x0 : Fin 16) (x1 : Fin 128) (x2 : Fin 128) :
    iblk m c 11 t (ix3 x0 x1 x2) = (V m c main_v6 : S16x128x128.Idx → EReal) (ix3 x0 x1 x2) := by
  show (V m c main_v6 : S16x128x128.Idx → EReal) (((cfg0.win 11).blk t).view.emb (ix3 x0 x1 x2)) = _
  refine congrArg (V m c main_v6 : S16x128x128.Idx → EReal) ?_
  obtain ⟨e0, e1, e2⟩ := idx11 t
  funext a; apply Fin.ext
  match a with
  | ⟨0, _⟩ => show win0_11.index t (0 : Fin 3) * 16 + 1 * x0.val = x0.val; omega
  | ⟨1, _⟩ => show win0_11.index t (1 : Fin 3) * 128 + 1 * x1.val = x1.val; omega
  | ⟨2, _⟩ => show win0_11.index t (2 : Fin 3) * 128 + 1 * x2.val = x2.val; omega

theorem idx12 : ∀ t : Fin cfg0.N, win0_12.index t (0 : Fin 1) = 0 :=
  (by decide +kernel : ∀ t : Fin grid0.N, _)

/-- Window 12 (the head bias): the block at any point is the whole array. -/
theorem iblk12_apply (t : Fin cfg0.N) (x0 : Fin 128) :
    iblk m c 12 t (ix1 x0) = (V m c main_arg12 : S128.Idx → EReal) (ix1 x0) := by
  show (V m c main_arg12 : S128.Idx → EReal) (((cfg0.win 12).blk t).view.emb (ix1 x0)) = _
  refine congrArg (V m c main_arg12 : S128.Idx → EReal) ?_
  have e0 := idx12 t
  funext a; apply Fin.ext
  match a with
  | ⟨0, _⟩ => show win0_12.index t (0 : Fin 1) * 128 + 1 * x0.val = x0.val; omega

theorem idx13 : ∀ t : Fin cfg0.N, win0_13.index t (0 : Fin 2) = 0 ∧ win0_13.index t (1 : Fin 2) = 0 :=
  (by decide +kernel : ∀ t : Fin grid0.N, _)

/-- Window 13 (the padded last matrix): the block at any point is the whole array. -/
theorem iblk13_apply (t : Fin cfg0.N) (x0 : Fin 128) (x1 : Fin 256) :
    iblk m c 13 t (ix2 x0 x1) = (V m c main_v8 : S128x256.Idx → EReal) (ix2 x0 x1) := by
  show (V m c main_v8 : S128x256.Idx → EReal) (((cfg0.win 13).blk t).view.emb (ix2 x0 x1)) = _
  refine congrArg (V m c main_v8 : S128x256.Idx → EReal) ?_
  obtain ⟨e0, e1⟩ := idx13 t
  funext a; apply Fin.ext
  match a with
  | ⟨0, _⟩ => show win0_13.index t (0 : Fin 2) * 128 + 1 * x0.val = x0.val; omega
  | ⟨1, _⟩ => show win0_13.index t (1 : Fin 2) * 256 + 1 * x1.val = x1.val; omega

theorem idx14 : ∀ t : Fin cfg0.N, win0_14.index t (0 : Fin 1) = 0 :=
  (by decide +kernel : ∀ t : Fin grid0.N, _)

/-- Window 14 (the padded last bias): the block at any point is the whole array. -/
theorem iblk14_apply (t : Fin cfg0.N) (x0 : Fin 256) :
    iblk m c 14 t (ix1 x0) = (V m c main_v9 : S256.Idx → EReal) (ix1 x0) := by
  show (V m c main_v9 : S256.Idx → EReal) (((cfg0.win 14).blk t).view.emb (ix1 x0)) = _
  refine congrArg (V m c main_v9 : S256.Idx → EReal) ?_
  have e0 := idx14 t
  funext a; apply Fin.ext
  match a with
  | ⟨0, _⟩ => show win0_14.index t (0 : Fin 1) * 256 + 1 * x0.val = x0.val; omega

end Cert.KernelIdeal.BlockReads

end
-- ==== Proof.HostReads.lean ====
/-
  What the host operations around the kernel's launch compute, read at an index, at the ideal values.

  Before the launch: four narrowing format changes (the identity on extended reals); the 1024 × 128 head matrix
  reshaped to 16 × 64 × 128 (row-major: row q is (q / 64, q % 64)) and its middle axis padded with zero from 64 to
  128 rows, which is the head matrix by concept with rows 64..127 zero; the last matrix's 200 columns and the last
  bias's 200 entries padded with zero to 256. The padding value is the integer zero converted to a float: zero.
  After the launch: the leading 200 columns of the 4096 × 256 result.
-/
import proofs.«168377_j46110768889918_2_alg».proof.Proof.Gen.KernelIdeal.Frame.Runs
import proofs.«168377_j46110768889918_2_alg».proof.Proof.Spec
import Idealize.ShloMosaic.Lib.KernelVsHost
import Idealize.ShloMosaic.Lib.ValueIdx
import Idealize.ShloMosaic.Lib.Pipeline.Value

noncomputable section

namespace Cert.KernelIdeal.HostReads

open Idealize.ShloMosaic Idealize.ShloMosaic.TcCoe Idealize.ShloMosaic.Tactic Idealize.ShloMosaic.ValueIdx
open Idealize.ShloMosaic.StableHlo
open Cert.KernelIdeal.Gen

variable (m : (ℓ : Loc nD τ sig) → Buf (Elt Ideal) ℓ) (c : Dev nD)

/-! ## The format changes before the launch

A narrowing format change is the identity on extended reals, so each converted array is the argument itself. -/

theorem V_v0 : (V m c main_v0 : S16x2048x256.Idx → EReal) = ((m ((c : Thread nD τ).loc main_arg3)) : S16x2048x256.Idx → EReal) := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  rfl

theorem V_v1 : (V m c main_v1 : S16x256x128.Idx → EReal) = ((m ((c : Thread nD τ).loc main_arg5)) : S16x256x128.Idx → EReal) := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  rfl

theorem V_v2 : (V m c main_v2 : S2048x512.Idx → EReal) = ((m ((c : Thread nD τ).loc main_arg7)) : S2048x512.Idx → EReal) := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  rfl

theorem V_v3 : (V m c main_v3 : S512x128.Idx → EReal) = ((m ((c : Thread nD τ).loc main_arg9)) : S512x128.Idx → EReal) := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  rfl

/-! ## The padding value -/

/-- The padding value of the three pads: the integer zero converted to a float. -/
abbrev zpad : FVec Ideal S_ .f32 := sitofp .f32 (constantI S_ 32 0#32)

/-- It is the extended real zero. -/
theorem zpad_apply (i : S_.Idx) : zpad i = 0 := by
  show (Scalar.sitofp .f32 0#32 : Ideal .f32) = 0
  exact sitofp_zero

/-! ## The pads and the reshape read at an index, over any operand -/

/-- Padding a vector of 200 entries to 256 at the high end: the operand below 200, the padding value from 200. -/
theorem pad1_apply (x : S200.Idx → EReal) (v : S_.Idx → EReal) (n : Fin 256) :
    pad S256 ![0] ![56] ![0] x v pads_S200_S256_0560 h_S_ (ix1 n)
      = if h : n.val < 200 then x (ix1 ⟨n.val, h⟩) else v (Shape.Idx.first h_S_) := by
  by_cases h : n.val < 200
  · rw [dif_pos h]
    exact pad_apply_of_inside _ _ _ x v pads_S200_S256_0560 h_S_ (ix1 n) (ix1 ⟨n.val, h⟩) (fun a => match a with
      | ⟨0, _⟩ => by show n.val = 0 + n.val * (0 + 1); omega)
  · rw [dif_neg h]
    exact pad_apply_of_not_inside _ _ _ x v pads_S200_S256_0560 h_S_ (ix1 n) (0 : Fin 1) (by
      intro hin
      have e : (n.val - 0) / (0 + 1) < 200 := hin.2.2
      rw [Nat.sub_zero, Nat.zero_add, Nat.div_one] at e
      exact h e)

/-- Padding the columns of a 128 × 200 matrix to 256 at the high end. -/
theorem pad2_apply (x : S128x200.Idx → EReal) (v : S_.Idx → EReal) (g : Fin 128) (n : Fin 256) :
    pad S128x256 ![0, 0] ![0, 56] ![0, 0] x v pads_S128x200_S128x256_000_0560 h_S_ (ix2 g n)
      = if h : n.val < 200 then x (ix2 g ⟨n.val, h⟩) else v (Shape.Idx.first h_S_) := by
  by_cases h : n.val < 200
  · rw [dif_pos h]
    exact pad_apply_of_inside _ _ _ x v pads_S128x200_S128x256_000_0560 h_S_ (ix2 g n) (ix2 g ⟨n.val, h⟩) (fun a => match a with
      | ⟨0, _⟩ => by show g.val = 0 + g.val * (0 + 1); omega
      | ⟨1, _⟩ => by show n.val = 0 + n.val * (0 + 1); omega)
  · rw [dif_neg h]
    exact pad_apply_of_not_inside _ _ _ x v pads_S128x200_S128x256_000_0560 h_S_ (ix2 g n) (1 : Fin 2) (by
      intro hin
      have e : (n.val - 0) / (0 + 1) < 200 := hin.2.2
      rw [Nat.sub_zero, Nat.zero_add, Nat.div_one] at e
      exact h e)

/-- Padding the middle axis of a 16 × 64 × 128 array to 128 at the high end. -/
theorem pad3_apply (x : S16x64x128.Idx → EReal) (v : S_.Idx → EReal) (cc : Fin 16) (l : Fin 128) (g : Fin 128) :
    pad S16x128x128 ![0, 0, 0] ![0, 64, 0] ![0, 0, 0] x v pads_S16x64x128_S16x128x128_000_0640_000 h_S_ (ix3 cc l g)
      = if h : l.val < 64 then x (ix3 cc ⟨l.val, h⟩ g) else v (Shape.Idx.first h_S_) := by
  by_cases h : l.val < 64
  · rw [dif_pos h]
    exact pad_apply_of_inside _ _ _ x v pads_S16x64x128_S16x128x128_000_0640_000 h_S_ (ix3 cc l g) (ix3 cc ⟨l.val, h⟩ g)
      (fun a => match a with
      | ⟨0, _⟩ => by show cc.val = 0 + cc.val * (0 + 1); omega
      | ⟨1, _⟩ => by show l.val = 0 + l.val * (0 + 1); omega
      | ⟨2, _⟩ => by show g.val = 0 + g.val * (0 + 1); omega)
  · rw [dif_neg h]
    exact pad_apply_of_not_inside _ _ _ x v pads_S16x64x128_S16x128x128_000_0640_000 h_S_ (ix3 cc l g) (1 : Fin 3) (by
      intro hin
      have e : (l.val - 0) / (0 + 1) < 64 := hin.2.2
      rw [Nat.sub_zero, Nat.zero_add, Nat.div_one] at e
      exact h e)

/-- Row-major: entry (c, j, g) of the 16 × 64 × 128 reshape is entry (64·c + j, g) of the 1024 × 128 matrix. -/
theorem reshape_apply (x : S1024x128.Idx → EReal) (cc : Fin 16) (j : Fin 64) (g : Fin 128) :
    shapeCast S16x64x128 x shapeCasts_S1024x128_S16x64x128 (ix3 cc j g)
      = x (ix2 (⟨64 * cc.val + j.val, by omega⟩ : Fin 1024) g) := by
  refine shapeCast_apply x shapeCasts_S1024x128_S16x64x128 (ix3 cc j g) (ix2 (⟨64 * cc.val + j.val, by omega⟩ : Fin 1024) g) ?_
  rw [Shape.rowMajor_val_two, Shape.rowMajor_val_three]
  show (64 * cc.val + j.val) * 128 + g.val = (cc.val * 64 + j.val) * 128 + g.val
  omega

/-- The leading 200 columns of a 4096 × 256 matrix. -/
theorem slice_apply (x : S4096x256.Idx → EReal) (b : Fin 4096) (n : Fin 200) :
    extractStridedSlice S4096x200 ![0, 0] x slices_S4096x256_S4096x200_0_0 (ix2 b n)
      = x (ix2 b (⟨n.val, by omega⟩ : Fin 256)) := by
  refine extractStridedSlice_apply _ x slices_S4096x256_S4096x200_0_0 (ix2 b n) (ix2 b (⟨n.val, by omega⟩ : Fin 256)) (fun a => match a with
    | ⟨0, _⟩ => by show b.val = 0 + b.val; omega
    | ⟨1, _⟩ => by show n.val = 0 + n.val; omega)

/-! ## The arrays the region finds, as the operations' terms of the arguments -/

theorem V_v9_eq : (V m c main_v9 : S256.Idx → EReal)
    = pad S256 ![0] ![56] ![0] ((m ((c : Thread nD τ).loc main_arg14)) : S200.Idx → EReal) zpad pads_S200_S256_0560 h_S_ := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  rfl

theorem V_v8_eq : (V m c main_v8 : S128x256.Idx → EReal)
    = pad S128x256 ![0, 0] ![0, 56] ![0, 0] ((m ((c : Thread nD τ).loc main_arg13)) : S128x200.Idx → EReal) zpad pads_S128x200_S128x256_000_0560 h_S_ := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  rfl

theorem V_v6_eq : (V m c main_v6 : S16x128x128.Idx → EReal)
    = pad S16x128x128 ![0, 0, 0] ![0, 64, 0] ![0, 0, 0]
        (shapeCast S16x64x128 ((m ((c : Thread nD τ).loc main_arg11)) : S1024x128.Idx → EReal) shapeCasts_S1024x128_S16x64x128) zpad
        pads_S16x64x128_S16x128x128_000_0640_000 h_S_ := by
  dsimp only [Gen.V, Gen.V0]
  simp only [Gen.hostOps0, Gen.hostOps0_1, Gen.hostOps0_2, Gen.hostOps0_3, Gen.hostOps0_4, Gen.hostOps0_5,
    List.flatten_cons, List.flatten_nil, List.append_nil, List.cons_append, List.nil_append]
  after_results
  rfl

/-! ## Read at an index -/

/-- The padded last bias: the argument below 200, zero from 200. -/
theorem V_v9_apply (n : Fin 256) :
    (V m c main_v9 : S256.Idx → EReal) (ix1 n)
      = if h : n.val < 200 then ((m ((c : Thread nD τ).loc main_arg14)) : S200.Idx → EReal) (ix1 ⟨n.val, h⟩) else (0 : EReal) := by
  refine (congrFun (V_v9_eq m c) (ix1 n)).trans ?_
  refine (pad1_apply _ _ n).trans ?_
  by_cases h : n.val < 200
  · rw [dif_pos h, dif_pos h]
  · rw [dif_neg h, dif_neg h]; exact zpad_apply _

/-- The padded last matrix: the argument's columns below 200, zero columns from 200. -/
theorem V_v8_apply (g : Fin 128) (n : Fin 256) :
    (V m c main_v8 : S128x256.Idx → EReal) (ix2 g n)
      = if h : n.val < 200 then ((m ((c : Thread nD τ).loc main_arg13)) : S128x200.Idx → EReal) (ix2 g ⟨n.val, h⟩) else (0 : EReal) := by
  refine (congrFun (V_v8_eq m c) (ix2 g n)).trans ?_
  refine (pad2_apply _ _ g n).trans ?_
  by_cases h : n.val < 200
  · rw [dif_pos h, dif_pos h]
  · rw [dif_neg h, dif_neg h]; exact zpad_apply _

/-- The head matrix as the region finds it: by concept, 128 rows each, rows 64..127 zero. -/
theorem V_v6_apply (cc : Fin 16) (l : Fin 128) (g : Fin 128) :
    (V m c main_v6 : S16x128x128.Idx → EReal) (ix3 cc l g)
      = Cert.Spec.headRows (fun q g => ((m ((c : Thread nD τ).loc main_arg11)) : S1024x128.Idx → EReal) (ix2 q g)) cc l g := by
  refine (congrFun (V_v6_eq m c) (ix3 cc l g)).trans ?_
  refine (pad3_apply _ _ cc l g).trans ?_
  unfold Cert.Spec.headRows
  by_cases h : l.val < 64
  · rw [dif_pos h, dif_pos h]
    exact reshape_apply _ cc ⟨l.val, h⟩ g
  · rw [dif_neg h, dif_neg h]; exact zpad_apply _

/-! ## The slice after the launch -/

/-- The result is the leading 200 columns of what the launch leaves, whatever the contents. -/
theorem tail_apply (W : Valuation τ sig (Elt Ideal)) (b : Fin 4096) (n : Fin 200) :
    (StableHlo.after hostOps1 W (Proc.devRef .tc main_v11) : S4096x200.Idx → EReal) (ix2 b n)
      = (W (Proc.devRef .tc main_v10) : S4096x256.Idx → EReal) (ix2 b (⟨n.val, by omega⟩ : Fin 256)) := by
  have e : (StableHlo.after hostOps1 W (Proc.devRef .tc main_v11) : S4096x200.Idx → EReal)
      = extractStridedSlice S4096x200 ![0, 0] (W (Proc.devRef .tc main_v10) : S4096x256.Idx → EReal) slices_S4096x256_S4096x200_0_0 := by
    after_results
  exact (congrFun e (ix2 b n)).trans (slice_apply _ b n)

end Cert.KernelIdeal.HostReads

end
-- ==== Proof.PointValue.lean ====
/-
  What a grid point leaves in its output block, entry by entry.

  At point t the input block holds batch rows 256·t … 256·t + 255 and every other block is a whole array as the
  region finds it: the arguments themselves, the four narrowed copies (the same extended reals), the head matrix by
  concept with its upper 64 rows zero, and the last matrix and bias padded with zero columns. With these the body's
  closed form at row r and a column n below 200 is the network's result for batch row 256·t + r, class n, in the
  arrangement by concept.
-/
import proofs.«168377_j46110768889918_2_alg».proof.Proof.KernelIdealFrame
import proofs.«168377_j46110768889918_2_alg».proof.Proof.OutValue
import proofs.«168377_j46110768889918_2_alg».proof.Proof.BlockReads
import proofs.«168377_j46110768889918_2_alg».proof.Proof.HostReads

set_option maxRecDepth 16384

noncomputable section

namespace Cert.KernelIdeal.PointValue

open Idealize.ShloMosaic Idealize.ShloMosaic.TcCoe Idealize.ShloMosaic.Tactic Idealize.ShloMosaic.ValueIdx
open Cert.KernelIdeal Cert.KernelIdeal.Gen Cert.KernelIdeal.GenP

variable (m : (ℓ : Loc nD τ sig) → Buf (Elt Ideal) ℓ) (c : Dev nD)

/-- Point t's output block at row r and a column n below 200 is the network's result at batch row 256·t + r. -/
theorem point_value (t : Fin cfg0.N) (r : Fin 256) (n : Fin 200) :
    outsAt0 (F := Ideal) m c t (ix2 r (⟨n.val, by omega⟩ : Fin 256))
      = Cert.Spec.outByConcept (fun b d => ((m ((c : Thread nD τ).loc main_arg0)) : S4096x2048.Idx → EReal) (ix2 b d)) (fun cc d => ((m ((c : Thread nD τ).loc main_arg1)) : S16x2048.Idx → EReal) (ix2 cc d)) (fun d => ((m ((c : Thread nD τ).loc main_arg2)) : S2048.Idx → EReal) (ix1 d))
      (fun cc d h => ((m ((c : Thread nD τ).loc main_arg3)) : S16x2048x256.Idx → EReal) (ix3 cc d h)) (fun cc h => ((m ((c : Thread nD τ).loc main_arg4)) : S16x256.Idx → EReal) (ix2 cc h)) (fun cc h l => ((m ((c : Thread nD τ).loc main_arg5)) : S16x256x128.Idx → EReal) (ix3 cc h l))
      (fun cc l => ((m ((c : Thread nD τ).loc main_arg6)) : S16x128.Idx → EReal) (ix2 cc l)) (fun d h => ((m ((c : Thread nD τ).loc main_arg7)) : S2048x512.Idx → EReal) (ix2 d h)) (fun h => ((m ((c : Thread nD τ).loc main_arg8)) : S512.Idx → EReal) (ix1 h)) (fun h l => ((m ((c : Thread nD τ).loc main_arg9)) : S512x128.Idx → EReal) (ix2 h l))
      (fun l => ((m ((c : Thread nD τ).loc main_arg10)) : S128.Idx → EReal) (ix1 l)) (fun q g => ((m ((c : Thread nD τ).loc main_arg11)) : S1024x128.Idx → EReal) (ix2 q g)) (fun g => ((m ((c : Thread nD τ).loc main_arg12)) : S128.Idx → EReal) (ix1 g)) (fun g n => ((m ((c : Thread nD τ).loc main_arg13)) : S128x200.Idx → EReal) (ix2 g n))
      (fun n => ((m ((c : Thread nD τ).loc main_arg14)) : S200.Idx → EReal) (ix1 n))
          (⟨256 * t.val + r.val, by have := BlockReads.t_lt t; omega⟩ : Fin 4096) n := by
  unfold outsAt0 out0_A_15
  rw [RunOpen.pieces_eq, RunOpen.read_write_whole VO0_15 _ _ RunOpen.hz2 _ _]
  refine OutValue.out_value _ _ _ _ _ _ _ _ _ _ _ _ _ _ _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    (⟨256 * t.val + r.val, by have := BlockReads.t_lt t; omega⟩ : Fin 4096) r n ?_ ?_ ?_ ?_ ?_ ?_ ?_ ?_ ?_ ?_ ?_ ?_ ?_ ?_ ?_
  · intro d; exact (BlockReads.iblk0_apply m c t r d).trans (congrFun (V_main_arg0 m c) _)
  · intro cc d; exact (BlockReads.iblk1_apply m c t cc d).trans (congrFun (V_main_arg1 m c) _)
  · intro d; exact (BlockReads.iblk2_apply m c t d).trans (congrFun (V_main_arg2 m c) _)
  · intro cc d h; exact (BlockReads.iblk3_apply m c t cc d h).trans (congrFun (HostReads.V_v0 m c) _)
  · intro cc h; exact (BlockReads.iblk4_apply m c t cc h).trans (congrFun (V_main_arg4 m c) _)
  · intro cc h l; exact (BlockReads.iblk5_apply m c t cc h l).trans (congrFun (HostReads.V_v1 m c) _)
  · intro cc l; exact (BlockReads.iblk6_apply m c t cc l).trans (congrFun (V_main_arg6 m c) _)
  · intro d h; exact (BlockReads.iblk7_apply m c t d h).trans (congrFun (HostReads.V_v2 m c) _)
  · intro h; exact (BlockReads.iblk8_apply m c t h).trans (congrFun (V_main_arg8 m c) _)
  · intro h l; exact (BlockReads.iblk9_apply m c t h l).trans (congrFun (HostReads.V_v3 m c) _)
  · intro l; exact (BlockReads.iblk10_apply m c t l).trans (congrFun (V_main_arg10 m c) _)
  · intro cc l g; exact (BlockReads.iblk11_apply m c t cc l g).trans (HostReads.V_v6_apply m c cc l g)
  · intro g; exact (BlockReads.iblk12_apply m c t g).trans (congrFun (V_main_arg12 m c) _)
  · intro g
    refine (BlockReads.iblk13_apply m c t g _).trans ((HostReads.V_v8_apply m c g _).trans ?_)
    rw [dif_pos (show (⟨n.val, by omega⟩ : Fin 256).val < 200 from n.isLt)]
  · refine (BlockReads.iblk14_apply m c t _).trans ((HostReads.V_v9_apply m c _).trans ?_)
    rw [dif_pos (show (⟨n.val, by omega⟩ : Fin 256).val < 200 from n.isLt)]

end Cert.KernelIdeal.PointValue

end
-- ==== Proof.Blocks.lean ====
/-
  From what each grid point leaves to the array the launch writes, and to the result.

  The launch writes a 4096 × 256 array, 256 rows at a time: the output window's index map sends point t to block
  (t, 0) of 256 × 256 blocks, so point t writes rows 256·t … 256·t + 255, all 256 columns. Every row b lies in
  exactly the block of point b / 256, at row b % 256 of that block. The array after the launch is therefore, entry
  by entry, what point b / 256 left at (b % 256, n). The result is the leading 200 columns of that array.
-/
import proofs.«168377_j46110768889918_2_alg».proof.Proof.KernelIdealFrame
import proofs.«168377_j46110768889918_2_alg».proof.Proof.HostReads
import Idealize.ShloMosaic.Lib.Pipeline.Value
import Idealize.ShloMosaic.Lib.ValueIdx
import Idealize.ShloMosaic.Lib.Decide

set_option maxRecDepth 16384

noncomputable section

namespace Cert.KernelIdeal.Blocks

open Idealize.ShloMosaic Idealize.ShloMosaic.TcCoe Idealize.ShloMosaic.Tactic Idealize.ShloMosaic.ValueIdx
open Idealize.ShloMosaic.Pipeline (Dat Cfg Window)
open Cert.KernelIdeal.Gen Cert.KernelIdeal.GenP

variable (m : (ℓ : Loc nD τ sig) → Buf (Elt Ideal) ℓ) (c : Dev nD)

/-- The output window's index map: point t writes block (t, 0). -/
theorem idx15 : ∀ t : Fin cfg0.N, win0_15.index t (0 : Fin 2) = t.val ∧ win0_15.index t (1 : Fin 2) = 0 :=
  (by decide +kernel : ∀ t : Fin grid0.N, _)

/-- The block that holds row b is one of the sixteen. -/
theorem row_lt (i : S4096x256.Idx) : (i 0).val / 256 < cfg0.N := by
  have h : (i 0).val < 4096 := (i 0).isLt
  show (i 0).val / 256 < 16
  omega

/-- What a point leaves depends only on the point and the entry. -/
theorem outsAt_congr (t t' : Fin cfg0.N) (y y' : S256x256.Idx) (ht : t = t') (hy : y = y') :
    outsAt0 (F := Ideal) m c t y = outsAt0 (F := Ideal) m c t' y' := by
  subst ht; subst hy; rfl

/-- The array the launch writes, entry by entry: row b, column n is what point b / 256 left at (b % 256, n). -/
def padded (i : S4096x256.Idx) : EReal :=
  outsAt0 (F := Ideal) m c ⟨(i 0).val / 256, row_lt i⟩
    (ix2 (⟨(i 0).val % 256, Nat.mod_lt _ (by decide)⟩ : Fin 256) (⟨(i 1).val, (i 1).isLt⟩ : Fin 256))

/-- Read through point t's block, that array is what point t left. -/
theorem padded_at_block (t : Fin cfg0.N) (y : S256x256.Idx) :
    padded m c (((cfg0.win 15).blk t).view.emb y) = outsAt0 (F := Ideal) m c t y := by
  obtain ⟨e0, e1⟩ := idx15 t
  have h0 : (y 0).val < 256 := (y 0).isLt
  have h1 : (y 1).val < 256 := (y 1).isLt
  have ht : t.val < 16 := t.isLt
  unfold padded
  refine outsAt_congr m c _ _ _ _ (Fin.ext ?_) (funext fun a => Fin.ext ?_)
  · show (win0_15.index t (0 : Fin 2) * 256 + 1 * (y 0).val) / 256 = t.val
    omega
  · match a with
    | ⟨0, _⟩ => show (win0_15.index t (0 : Fin 2) * 256 + 1 * (y 0).val) % 256 = (y 0).val; omega
    | ⟨1, _⟩ => show win0_15.index t (1 : Fin 2) * 256 + 1 * (y 1).val = (y 1).val; omega

/-- What point t writes back is block t of that array. -/
theorem flushed_eq (t : Fin cfg0.N) :
    (dats (F := Ideal) m 0 c).flushed 15 t = ((cfg0.win 15).blk t).view.read (Elt Ideal) (padded m c) := by
  show (cfg0.win 15).cut (grid0.coords t) ((dats (F := Ideal) m 0 c).after 15 t) = _
  rw [after0_15]
  funext y
  exact (padded_at_block m c t y).symm

/-- An entry of the array is in point t's block iff each coordinate is in the block's range on its axis. -/
theorem mem_blk (t : Fin cfg0.N) (i : S4096x256.Idx) :
    i ∈ ((cfg0.win 15).blk t).view.set ↔ ∀ a : Fin 2, win0_15.index t a * S256x256.size a ≤ (i a).val ∧ (i a).val < win0_15.index t a * S256x256.size a + S256x256.size a := by
  show i ∈ ((View.whole main_v10).slice (win0_15.rect t)).set ↔ _
  rw [View.set_slice_whole, Rect.mem_set_unit]
  exact Iff.rfl

/-- Every entry of the array is written by the point that holds its row. -/
theorem cover (i : S4096x256.Idx) :
    ∃ t : Fin cfg0.N, (cfg0.win 15).flush t = true ∧ i ∈ ((cfg0.win 15).blk t).view.set := by
  have h0 : (i 0).val < 4096 := (i 0).isLt
  have h1 : (i 1).val < 256 := (i 1).isLt
  refine ⟨⟨(i 0).val / 256, row_lt i⟩, flush0_15 _, ?_⟩
  rw [mem_blk]
  obtain ⟨e0, e1⟩ := idx15 ⟨(i 0).val / 256, row_lt i⟩
  have e0' : win0_15.index ⟨(i 0).val / 256, row_lt i⟩ (0 : Fin 2) = (i 0).val / 256 := e0
  intro a
  match a with
  | ⟨0, _⟩ =>
    show win0_15.index ⟨(i 0).val / 256, row_lt i⟩ (0 : Fin 2) * 256 ≤ (i 0).val ∧ (i 0).val < win0_15.index ⟨(i 0).val / 256, row_lt i⟩ (0 : Fin 2) * 256 + 256
    omega
  | ⟨1, _⟩ =>
    show win0_15.index ⟨(i 0).val / 256, row_lt i⟩ (1 : Fin 2) * 256 ≤ (i 1).val ∧ (i 1).val < win0_15.index ⟨(i 0).val / 256, row_lt i⟩ (1 : Fin 2) * 256 + 256
    omega

/-- The array after the launch. -/
theorem final : (dats (F := Ideal) m 0 c).arrAt 15 cfg0.N = padded m c :=
  (dats (F := Ideal) m 0 c).arrAt_eq_of_cover 15 (padded m c) (fun t _ => flushed_eq m c t) (cover)

/-- The result, entry by entry: the leading 200 columns of the array the launch writes. -/
theorem result_apply (b : Fin 4096) (n : Fin 200) :
    (Pipeline.afterTail₀ cfgs (dats (F := Ideal) m) 0 (V0 m) [hostOps1] c main_v11 : S4096x200.Idx → EReal) (ix2 b n)
      = padded m c (ix2 b (⟨n.val, by omega⟩ : Fin 256)) := by
  unfold Pipeline.afterTail₀
  show (StableHlo.after (hostOps1 (F := Ideal)) _ (Proc.devRef .tc main_v11) : S4096x200.Idx → EReal) (ix2 b n) = _
  refine (Cert.KernelIdeal.HostReads.tail_apply _ b n).trans ?_
  have e := (Pipeline.withArrays_arr spec0 launch0.win.arr_inj c (V0 m c) (fun w => (dats (F := Ideal) m 0 c).arrAt w cfg0.N) 15).trans (final m c)
  exact congrFun e _

end Cert.KernelIdeal.Blocks

end
-- ==== Proof.Bridge.lean ====
/-
  The two arrangements of the head's first layer are the same number.

  By concept, every concept c contributes all 128 lanes against a matrix whose rows 64..127 are zero. A product
  with zero is zero for every extended real (no finiteness is used), so only the lanes j < 64 remain. At such a
  lane the lane half a turn away is j + 64, and (64·c + j) / 64 = c, (64·c + j) % 64 = j, so the mixed lane is
  the bottleneck at the flat index 64·c + j and the matrix row is row 64·c + j of the head matrix. The pairs
  (c, j) correspond one to one to the flat indices q < 1024, and sums of extended reals may be regrouped freely,
  so the double sum is the flat sum.
-/
import proofs.«168377_j46110768889918_2_alg».proof.Proof.Spec
import Mathlib.Algebra.BigOperators.Fin
import Mathlib.Algebra.BigOperators.Group.Finset.Basic

noncomputable section

open scoped BigOperators

namespace Cert.Spec

open Idealize.ShloMosaic

/-! ## Index facts for the flat index q = 64·c + j -/

theorem flat_lt (c : Fin 16) (j : Fin 64) : 64 * c.val + j.val < 1024 := by omega

theorem flat_div (c : Fin 16) (j : Fin 64) : (64 * c.val + j.val) / 64 = c.val := by omega

theorem flat_mod (c : Fin 16) (j : Fin 64) : (64 * c.val + j.val) % 64 = j.val := by omega

/-- The pairs (concept, low lane) are the flat indices: (c, j) ↦ 64·c + j, with inverse q ↦ (q / 64, q % 64). -/
def flatEquiv : Fin 16 × Fin 64 ≃ Fin 1024 where
  toFun p := ⟨64 * p.1.val + p.2.val, flat_lt p.1 p.2⟩
  invFun q := (⟨q.val / 64, by omega⟩, ⟨q.val % 64, by omega⟩)
  left_inv p := by
    refine Prod.ext (Fin.ext ?_) (Fin.ext ?_)
    · exact flat_div p.1 p.2
    · exact flat_mod p.1 p.2
  right_inv q := Fin.ext (by show 64 * (q.val / 64) + q.val % 64 = q.val; omega)

/-- A double sum over concepts and low lanes is the sum over flat indices. -/
theorem sum_concept_lane (H : Fin 1024 → EReal) :
    ∑ c : Fin 16, ∑ j : Fin 64, H ⟨64 * c.val + j.val, flat_lt c j⟩ = ∑ q : Fin 1024, H q := by
  rw [← Equiv.sum_comp flatEquiv H, Fintype.sum_prod_type]
  rfl

/-! ## The lane half a turn away, at a low lane -/

/-- A low lane j seen among the 128 lanes. -/
def low (j : Fin 64) : Fin 128 := ⟨j.val, by omega⟩

theorem turn_low (j : Fin 64) : turn (low j) = ⟨j.val + 64, by omega⟩ := by
  unfold turn low
  rw [dif_neg (by simp)]

theorem low_injective : Function.Injective low := by
  intro a a' h
  have hv : (low a).val = (low a').val := congrArg Fin.val h
  exact Fin.ext hv

/-- A lane outside the low lanes is one of the lanes 64..127. -/
theorem not_lt_of_not_low (l : Fin 128) (hl : l ∉ Set.range low) : ¬ l.val < 64 := by
  intro h
  exact hl ⟨⟨l.val, h⟩, Fin.ext rfl⟩

variable (x : Fin 4096 → Fin 2048 → EReal) (fp : Fin 16 → Fin 2048 → EReal) (mean : Fin 2048 → EReal)
  (Wg1 : Fin 16 → Fin 2048 → Fin 256 → EReal) (bg1 : Fin 16 → Fin 256 → EReal)
  (Wg2 : Fin 16 → Fin 256 → Fin 128 → EReal) (bg2 : Fin 16 → Fin 128 → EReal)
  (Wf1 : Fin 2048 → Fin 512 → EReal) (bf1 : Fin 512 → EReal)
  (Wf2 : Fin 512 → Fin 128 → EReal) (bf2 : Fin 128 → EReal)
  (Wh : Fin 1024 → Fin 128 → EReal) (bh : Fin 128 → EReal)
  (Wc : Fin 128 → Fin 200 → EReal) (bc : Fin 200 → EReal)

/-! ## The bottleneck and the mixed lanes -/

/-- The bottleneck at a flat index q = 64·c + j is the mixed lane j of concept c. -/
theorem bott_eq_mixed (b : Fin 4096) (q : Fin 1024) (c : Fin 16) (j : Fin 64)
    (hq : q.val = 64 * c.val + j.val) :
    bott x fp mean Wg1 bg1 Wg2 bg2 Wf1 bf1 Wf2 bf2 b q
      = mixed x fp mean Wg1 bg1 Wg2 bg2 Wf1 bf1 Wf2 bf2 c b (low j) := by
  have hc : (⟨q.val / 64, by omega⟩ : Fin 16) = c := Fin.ext (by show q.val / 64 = c.val; omega)
  have hhi : (⟨q.val % 64 + 64, by omega⟩ : Fin 128) = turn (low j) := by
    rw [turn_low]
    exact Fin.ext (by show q.val % 64 + 64 = j.val + 64; omega)
  have hlo : (⟨q.val % 64, by omega⟩ : Fin 128) = low j :=
    Fin.ext (by show q.val % 64 = j.val; omega)
  unfold bott mixed
  rw [hc, hhi, hlo]

/-! ## One concept's 128 lanes against its rows of the head matrix -/

/-- Rows 64..127 are zero and anything times zero is zero, so only the low lanes contribute. -/
theorem sum_lanes (c : Fin 16) (g : Fin 128) (F : Fin 128 → EReal) :
    ∑ l : Fin 128, F l * headRows Wh c l g
      = ∑ j : Fin 64, F (low j) * Wh ⟨64 * c.val + j.val, flat_lt c j⟩ g := by
  symm
  refine Fintype.sum_of_injective low low_injective _ _ ?_ ?_
  · intro l hl
    unfold headRows
    rw [dif_neg (not_lt_of_not_low l hl), mul_zero]
  · intro j
    unfold headRows
    rw [dif_pos (show (low j).val < 64 from j.isLt)]
    rfl

/-! ## The two arrangements agree -/

/-- The head's first-layer sum: by concept over all lanes, or flat over the 1024 rows. -/
theorem headSum_eq (b : Fin 4096) (g : Fin 128) :
    ∑ c : Fin 16, ∑ l : Fin 128,
        mixed x fp mean Wg1 bg1 Wg2 bg2 Wf1 bf1 Wf2 bf2 c b l * headRows Wh c l g
      = ∑ q : Fin 1024, bott x fp mean Wg1 bg1 Wg2 bg2 Wf1 bf1 Wf2 bf2 b q * Wh q g := by
  rw [← sum_concept_lane (fun q => bott x fp mean Wg1 bg1 Wg2 bg2 Wf1 bf1 Wf2 bf2 b q * Wh q g)]
  refine Finset.sum_congr rfl fun c _ => ?_
  rw [sum_lanes]
  refine Finset.sum_congr rfl fun j _ => ?_
  rw [bott_eq_mixed x fp mean Wg1 bg1 Wg2 bg2 Wf1 bf1 Wf2 bf2 b ⟨64 * c.val + j.val, flat_lt c j⟩ c j rfl]

theorem zByConcept_eq_zFlat (b : Fin 4096) (g : Fin 128) :
    zByConcept x fp mean Wg1 bg1 Wg2 bg2 Wf1 bf1 Wf2 bf2 Wh bh b g
      = zFlat x fp mean Wg1 bg1 Wg2 bg2 Wf1 bf1 Wf2 bf2 Wh bh b g := by
  unfold zByConcept zFlat
  rw [headSum_eq]

theorem outByConcept_eq_outFlat (b : Fin 4096) (n : Fin 200) :
    outByConcept x fp mean Wg1 bg1 Wg2 bg2 Wf1 bf1 Wf2 bf2 Wh bh Wc bc b n
      = outFlat x fp mean Wg1 bg1 Wg2 bg2 Wf1 bf1 Wf2 bf2 Wh bh Wc bc b n := by
  unfold outByConcept outFlat
  refine congrArg (· + bc n) (Finset.sum_congr rfl fun g _ => ?_)
  rw [zByConcept_eq_zFlat]

end Cert.Spec

end
-- ==== Proof.KernelValue.lean ====
/-
  The idealized kernel's run, read: the result is the network's function of the argument arrays.

  The result's entry (b, n) is the leading-columns slice of the array the launch writes, hence what point b / 256 left
  at (b % 256, n), hence the network's result by concept for batch row 256·(b / 256) + b % 256 = b; and the two
  arrangements of the head's first layer are the same number, so it is the result in the flat arrangement too.
-/
import proofs.«168377_j46110768889918_2_alg».proof.Proof.PointValue
import proofs.«168377_j46110768889918_2_alg».proof.Proof.Blocks
import proofs.«168377_j46110768889918_2_alg».proof.Proof.Bridge

set_option maxRecDepth 16384

noncomputable section

namespace Cert.KernelIdeal.KernelValue

open Idealize.ShloMosaic Idealize.ShloMosaic.TcCoe Idealize.ShloMosaic.Tactic Idealize.ShloMosaic.ValueIdx Idealize.SL.Sem
open Idealize.ShloMosaic.Pipeline (Dat)
open Cert.KernelIdeal Cert.KernelIdeal.Gen Cert.KernelIdeal.GenP

variable (m : (ℓ : Loc nD τ sig) → Buf (Elt Ideal) ℓ) (ρ : Dev nD → PrngReg)

/-- The network's result as a function of the argument arrays, entry by entry. -/
def result (c : Dev nD) : Buf (Elt Ideal) ((c.tc : Thread nD τ).loc main_v11) :=
  fun i => Cert.Spec.outFlat (fun b d => ((m ((c : Thread nD τ).loc main_arg0)) : S4096x2048.Idx → EReal) (ix2 b d)) (fun cc d => ((m ((c : Thread nD τ).loc main_arg1)) : S16x2048.Idx → EReal) (ix2 cc d)) (fun d => ((m ((c : Thread nD τ).loc main_arg2)) : S2048.Idx → EReal) (ix1 d))
      (fun cc d h => ((m ((c : Thread nD τ).loc main_arg3)) : S16x2048x256.Idx → EReal) (ix3 cc d h)) (fun cc h => ((m ((c : Thread nD τ).loc main_arg4)) : S16x256.Idx → EReal) (ix2 cc h)) (fun cc h l => ((m ((c : Thread nD τ).loc main_arg5)) : S16x256x128.Idx → EReal) (ix3 cc h l))
      (fun cc l => ((m ((c : Thread nD τ).loc main_arg6)) : S16x128.Idx → EReal) (ix2 cc l)) (fun d h => ((m ((c : Thread nD τ).loc main_arg7)) : S2048x512.Idx → EReal) (ix2 d h)) (fun h => ((m ((c : Thread nD τ).loc main_arg8)) : S512.Idx → EReal) (ix1 h)) (fun h l => ((m ((c : Thread nD τ).loc main_arg9)) : S512x128.Idx → EReal) (ix2 h l))
      (fun l => ((m ((c : Thread nD τ).loc main_arg10)) : S128.Idx → EReal) (ix1 l)) (fun q g => ((m ((c : Thread nD τ).loc main_arg11)) : S1024x128.Idx → EReal) (ix2 q g)) (fun g => ((m ((c : Thread nD τ).loc main_arg12)) : S128.Idx → EReal) (ix1 g)) (fun g n => ((m ((c : Thread nD τ).loc main_arg13)) : S128x200.Idx → EReal) (ix2 g n))
      (fun n => ((m ((c : Thread nD τ).loc main_arg14)) : S200.Idx → EReal) (ix1 n)) (i 0) (i 1)

/-- The array the launch writes, at row b and a column n below 200, is the network's result. -/
theorem padded_apply (c : Dev nD) (b : Fin 4096) (n : Fin 200) :
    Blocks.padded m c (ix2 b (⟨n.val, by omega⟩ : Fin 256)) = result m c (ix2 b n) := by
  have hb : 256 * (b.val / 256) + b.val % 256 = b.val := by omega
  unfold Blocks.padded
  refine (PointValue.point_value m c ⟨b.val / 256, Blocks.row_lt (ix2 b (⟨n.val, by omega⟩ : Fin 256))⟩ ⟨b.val % 256, Nat.mod_lt _ (by decide)⟩ n).trans ?_
  rw [Cert.Spec.outByConcept_eq_outFlat]
  unfold result
  exact congrArg (fun q : Fin 4096 => Cert.Spec.outFlat (fun b d => ((m ((c : Thread nD τ).loc main_arg0)) : S4096x2048.Idx → EReal) (ix2 b d)) (fun cc d => ((m ((c : Thread nD τ).loc main_arg1)) : S16x2048.Idx → EReal) (ix2 cc d)) (fun d => ((m ((c : Thread nD τ).loc main_arg2)) : S2048.Idx → EReal) (ix1 d))
      (fun cc d h => ((m ((c : Thread nD τ).loc main_arg3)) : S16x2048x256.Idx → EReal) (ix3 cc d h)) (fun cc h => ((m ((c : Thread nD τ).loc main_arg4)) : S16x256.Idx → EReal) (ix2 cc h)) (fun cc h l => ((m ((c : Thread nD τ).loc main_arg5)) : S16x256x128.Idx → EReal) (ix3 cc h l))
      (fun cc l => ((m ((c : Thread nD τ).loc main_arg6)) : S16x128.Idx → EReal) (ix2 cc l)) (fun d h => ((m ((c : Thread nD τ).loc main_arg7)) : S2048x512.Idx → EReal) (ix2 d h)) (fun h => ((m ((c : Thread nD τ).loc main_arg8)) : S512.Idx → EReal) (ix1 h)) (fun h l => ((m ((c : Thread nD τ).loc main_arg9)) : S512x128.Idx → EReal) (ix2 h l))
      (fun l => ((m ((c : Thread nD τ).loc main_arg10)) : S128.Idx → EReal) (ix1 l)) (fun q g => ((m ((c : Thread nD τ).loc main_arg11)) : S1024x128.Idx → EReal) (ix2 q g)) (fun g => ((m ((c : Thread nD τ).loc main_arg12)) : S128.Idx → EReal) (ix1 g)) (fun g n => ((m ((c : Thread nD τ).loc main_arg13)) : S128x200.Idx → EReal) (ix2 g n))
      (fun n => ((m ((c : Thread nD τ).loc main_arg14)) : S200.Idx → EReal) (ix1 n)) q n) (Fin.ext hb)

/-- The result after the run. -/
theorem result_eq (c : Dev nD) :
    (Pipeline.afterTail₀ cfgs (dats (F := Ideal) m) 0 (V0 m) [hostOps1] c main_v11 : S4096x200.Idx → EReal)
      = (result m c : S4096x200.Idx → EReal) := by
  funext i
  obtain ⟨b, n, rfl⟩ : ∃ (b : Fin 4096) (n : Fin 200), i = ix2 b n := ⟨i 0, i 1, eq_ix2 i⟩
  exact (Blocks.result_apply m c b n).trans (padded_apply m c b n)

/-- Every weakly fair execution of the idealized kernel terminates with the result at the network's function of the
    arguments, and the arguments unchanged. -/
theorem run : θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(((h c).2 main_v11 (Pipeline.mem_restRefs_of main_v11 (by decide) (by decide))).trans (result_eq m c)),
      ((h c).1 0).trans ((((dats (F := Ideal) m) 0 c).arrAt_in 0 rfl _).trans ((A_eq m c 0).trans (V_main_arg0 m c))),
      ((h c).1 1).trans ((((dats (F := Ideal) m) 0 c).arrAt_in 1 rfl _).trans ((A_eq m c 1).trans (V_main_arg1 m c))),
      ((h c).1 2).trans ((((dats (F := Ideal) m) 0 c).arrAt_in 2 rfl _).trans ((A_eq m c 2).trans (V_main_arg2 m c))),
      (((h c).2 main_arg3 (Pipeline.mem_restRefs_of main_arg3 (by decide) (by decide))).trans (W_main_arg3 m (dats (F := Ideal) m) c)),
      ((h c).1 4).trans ((((dats (F := Ideal) m) 0 c).arrAt_in 4 rfl _).trans ((A_eq m c 4).trans (V_main_arg4 m c))),
      (((h c).2 main_arg5 (Pipeline.mem_restRefs_of main_arg5 (by decide) (by decide))).trans (W_main_arg5 m (dats (F := Ideal) m) c)),
      ((h c).1 6).trans ((((dats (F := Ideal) m) 0 c).arrAt_in 6 rfl _).trans ((A_eq m c 6).trans (V_main_arg6 m c))),
      (((h c).2 main_arg7 (Pipeline.mem_restRefs_of main_arg7 (by decide) (by decide))).trans (W_main_arg7 m (dats (F := Ideal) m) c)),
      ((h c).1 8).trans ((((dats (F := Ideal) m) 0 c).arrAt_in 8 rfl _).trans ((A_eq m c 8).trans (V_main_arg8 m c))),
      (((h c).2 main_arg9 (Pipeline.mem_restRefs_of main_arg9 (by decide) (by decide))).trans (W_main_arg9 m (dats (F := Ideal) m) c)),
      ((h c).1 10).trans ((((dats (F := Ideal) m) 0 c).arrAt_in 10 rfl _).trans ((A_eq m c 10).trans (V_main_arg10 m c))),
      (((h c).2 main_arg11 (Pipeline.mem_restRefs_of main_arg11 (by decide) (by decide))).trans (W_main_arg11 m (dats (F := Ideal) m) c)),
      ((h c).1 12).trans ((((dats (F := Ideal) m) 0 c).arrAt_in 12 rfl _).trans ((A_eq m c 12).trans (V_main_arg12 m c))),
      (((h c).2 main_arg13 (Pipeline.mem_restRefs_of main_arg13 (by decide) (by decide))).trans (W_main_arg13 m (dats (F := Ideal) m) c)),
      (((h c).2 main_arg14 (Pipeline.mem_restRefs_of main_arg14 (by decide) (by decide))).trans (W_main_arg14 m (dats (F := Ideal) m) c))⟩) (run_main (F := Ideal) m ρ)

end Cert.KernelIdeal.KernelValue

end
-- ==== Proof.RefStages.lean ====
/-
  The reference program's result read one stage at a time (over its generated run and read-at-an-index lemmas).

  Each lemma reads ONE named stage of the reference at explicit coordinates and identifies it with the
  specification's stage of the same name: the gate σ(fp), the masked input, the two hidden layers and their
  second layers (each batched product is a sum over the contracted axis, its operand indices being the
  coordinates with the contracted one replaced by the summation index), the transposes to [B, C, L], the sum of
  squares over the concept axis from the zero word, the floored reciprocal root, the lane sum and the second σ, the
  two 64-lane slices mixed by the probability, the row-major flattening q = 64·c + j, and the two head layers.
  The float literals stay as their bit words except the zero word (which is 0) and, inside the two logistic
  functions only, the word of one (which is 1, so that 1 / (1 + exp (−x)) is the logistic function).
-/
import proofs.«168377_j46110768889918_2_alg».proof.Defs
import proofs.«168377_j46110768889918_2_alg».proof.Proof.Gen.ReferenceIdeal.Run
import proofs.«168377_j46110768889918_2_alg».proof.Proof.Gen.ReferenceIdeal.Read
import proofs.«168377_j46110768889918_2_alg».proof.Proof.Spec
import Idealize.ShloMosaic.Lib.IdealHost

noncomputable section

open scoped BigOperators

namespace Cert.ReferenceIdeal.RefStages

open Cert.ReferenceIdeal Cert.ReferenceIdeal.Gen Cert.ReferenceIdeal.Read Idealize.ShloMosaic Idealize.ShloMosaic.ValueIdx

variable (a0 : FVec Ideal S4096x2048 .f32) (a1 : FVec Ideal S16x2048 .f32) (a2 : FVec Ideal S2048 .f32)
  (a3 : FVec Ideal S16x2048x256 .f32) (a4 : FVec Ideal S16x256 .f32)
  (a5 : FVec Ideal S16x256x128 .f32) (a6 : FVec Ideal S16x128 .f32)
  (a7 : FVec Ideal S2048x512 .f32) (a8 : FVec Ideal S512 .f32)
  (a9 : FVec Ideal S512x128 .f32) (a10 : FVec Ideal S128 .f32)
  (a11 : FVec Ideal S1024x128 .f32) (a12 : FVec Ideal S128 .f32)
  (a13 : FVec Ideal S128x200 .f32) (a14 : FVec Ideal S200 .f32)

/-! The argument arrays as functions of their coordinates. -/
local notation "Xf" => (fun (b : Fin 4096) (d : Fin 2048) => a0 (ix2 b d))
local notation "FPf" => (fun (c : Fin 16) (d : Fin 2048) => a1 (ix2 c d))
local notation "MEANf" => (fun (d : Fin 2048) => a2 (ix1 d))
local notation "WG1f" => (fun (c : Fin 16) (d : Fin 2048) (h : Fin 256) => a3 (ix3 c d h))
local notation "BG1f" => (fun (c : Fin 16) (h : Fin 256) => a4 (ix2 c h))
local notation "WG2f" => (fun (c : Fin 16) (h : Fin 256) (l : Fin 128) => a5 (ix3 c h l))
local notation "BG2f" => (fun (c : Fin 16) (l : Fin 128) => a6 (ix2 c l))
local notation "WF1f" => (fun (d : Fin 2048) (h : Fin 512) => a7 (ix2 d h))
local notation "BF1f" => (fun (h : Fin 512) => a8 (ix1 h))
local notation "WF2f" => (fun (h : Fin 512) (l : Fin 128) => a9 (ix2 h l))
local notation "BF2f" => (fun (l : Fin 128) => a10 (ix1 l))
local notation "WHf" => (fun (q : Fin 1024) (g : Fin 128) => a11 (ix2 q g))
local notation "BHf" => (fun (g : Fin 128) => a12 (ix1 g))
local notation "WCf" => (fun (g : Fin 128) (n : Fin 200) => a13 (ix2 g n))
local notation "BCf" => (fun (n : Fin 200) => a14 (ix1 n))

/-- The gate: the reference spells the logistic function as 1 / (1 + exp (−x)). -/
theorem gate_eq (c : Fin 16) (d : Fin 2048) :
    val_main_v5 (F := Ideal) a1 (ix2 c d) = Spec.gate FPf c d := by
  rw [val_main_v5_apply, val_main_v4_apply, val_main_cst_0_apply, val_main_v3_apply, val_main_v2_apply,
    val_main_cst_apply, val_main_v1_apply, val_main_v0_apply]
  simp only [Ideal.hostDivf_def, Ideal.addf_def, Ideal.hostUnary_exp_def, Ideal.hostNegf_def, Ideal.negf_def,
    Ideal.ofBits_def, Ideal.ofBits_one_f32]
  rfl

/-- The masked input at concept c, row b, feature d. -/
theorem masked_eq (c : Fin 16) (b : Fin 4096) (d : Fin 2048) :
    val_main_v18 (F := Ideal) a0 a1 a2 (ix3 c b d) = Spec.masked Xf FPf MEANf c b d := by
  have e1 : idx_main_v6 (idx_main_v8 (ix3 c b d)) = ix2 c d := by
    funext a; match a with | ⟨0, _⟩ => rfl | ⟨1, _⟩ => rfl
  have e2 : idx_main_v7 (idx_main_v9 (ix3 c b d)) = ix2 b d := by
    funext a; match a with | ⟨0, _⟩ => rfl | ⟨1, _⟩ => rfl
  have e3 : idx_main_v13 (idx_main_v17 (ix3 c b d)) = ix2 c d := by
    funext a; match a with | ⟨0, _⟩ => rfl | ⟨1, _⟩ => rfl
  have e4 : idx_main_v14 (idx_main_v15 (idx_main_v17 (ix3 c b d))) = ix1 d := by
    funext a; match a with | ⟨0, _⟩ => rfl
  rw [val_main_v18_apply, val_main_v10_apply, val_main_v8_apply, val_main_v6_apply, e1, gate_eq,
    val_main_v9_apply, val_main_v7_apply, e2, val_main_v17_apply, val_main_v16_apply, val_main_v13_apply,
    val_main_v12_apply, val_main_v11_apply, val_main_cst_1_apply, e3, gate_eq, val_main_v15_apply,
    val_main_v14_apply, e4]
  rfl

/-- The hidden layer of the concept's own map: the batched product contracts the feature axis. -/
theorem hidG_eq (c : Fin 16) (b : Fin 4096) (h : Fin 256) :
    val_main_v23 (F := Ideal) a0 a1 a2 a3 a4 (ix3 c b h) = Spec.hidG Xf FPf MEANf WG1f BG1f c b h := by
  have el : ∀ k : Fin 2048, lidx_main_v19 (ix3 c b h) k = ix3 c b k := fun k => by
    funext a; match a with | ⟨0, _⟩ => rfl | ⟨1, _⟩ => rfl | ⟨2, _⟩ => rfl
  have er : ∀ k : Fin 2048, ridx_main_v19 (ix3 c b h) k = ix3 c k h := fun k => by
    funext a; match a with | ⟨0, _⟩ => rfl | ⟨1, _⟩ => rfl | ⟨2, _⟩ => rfl
  have eb : idx_main_v20 (idx_main_v21 (ix3 c b h)) = ix2 c h := by
    funext a; match a with | ⟨0, _⟩ => rfl | ⟨1, _⟩ => rfl
  have hs : val_main_v19 (F := Ideal) a0 a1 a2 a3 (ix3 c b h)
      = ∑ d : Fin 2048, Spec.masked Xf FPf MEANf c b d * a3 (ix3 c d h) := by
    rw [val_main_v19_apply]
    exact Finset.sum_congr rfl fun k _ => by rw [el k, er k, masked_eq]
  rw [val_main_v23_apply, val_main_v22_apply, hs, val_main_call0_v0_apply, val_main_call0_cst_apply,
    val_main_v21_apply, val_main_v20_apply, eb, Ideal.ofBits_def, Ideal.ofBits_zero_f32]
  rfl

/-- The concept vector, in the product's own layout [C, B, L]. -/
theorem cm_eq (c : Fin 16) (b : Fin 4096) (l : Fin 128) :
    val_main_v27 (F := Ideal) a0 a1 a2 a3 a4 a5 a6 (ix3 c b l)
      = Spec.cm Xf FPf MEANf WG1f BG1f WG2f BG2f c b l := by
  have el : ∀ k : Fin 256, lidx_main_v24 (ix3 c b l) k = ix3 c b k := fun k => by
    funext a; match a with | ⟨0, _⟩ => rfl | ⟨1, _⟩ => rfl | ⟨2, _⟩ => rfl
  have er : ∀ k : Fin 256, ridx_main_v24 (ix3 c b l) k = ix3 c k l := fun k => by
    funext a; match a with | ⟨0, _⟩ => rfl | ⟨1, _⟩ => rfl | ⟨2, _⟩ => rfl
  have eb : idx_main_v25 (idx_main_v26 (ix3 c b l)) = ix2 c l := by
    funext a; match a with | ⟨0, _⟩ => rfl | ⟨1, _⟩ => rfl
  have hs : val_main_v24 (F := Ideal) a0 a1 a2 a3 a4 a5 (ix3 c b l)
      = ∑ h : Fin 256, Spec.hidG Xf FPf MEANf WG1f BG1f c b h * a5 (ix3 c h l) := by
    rw [val_main_v24_apply]
    exact Finset.sum_congr rfl fun k _ => by rw [el k, er k, hidG_eq]
  rw [val_main_v27_apply, hs, val_main_v26_apply, val_main_v25_apply, eb]
  rfl

/-- The concept vector after the transpose to [B, C, L]. -/
theorem cmT_eq (b : Fin 4096) (c : Fin 16) (l : Fin 128) :
    val_main_v28 (F := Ideal) a0 a1 a2 a3 a4 a5 a6 (ix3 b c l)
      = Spec.cm Xf FPf MEANf WG1f BG1f WG2f BG2f c b l := by
  have e : idx_main_v28 (ix3 b c l) = ix3 c b l := by
    funext a; match a with | ⟨0, _⟩ => rfl | ⟨1, _⟩ => rfl | ⟨2, _⟩ => rfl
  rw [val_main_v28_apply, e, cm_eq]

/-- The sum of squares over the concept axis: the host sum starts from the zero word. -/
theorem sq_eq (b : Fin 4096) (l : Fin 128) :
    val_main_v30 (F := Ideal) a0 a1 a2 a3 a4 a5 a6 (ix2 b l)
      = Spec.sq Xf FPf MEANf WG1f BG1f WG2f BG2f b l := by
  have e : ∀ k : Fin 16, idx_main_v30 (ix2 b l) k = ix3 b k l := fun k => by
    funext a; match a with | ⟨0, _⟩ => rfl | ⟨1, _⟩ => rfl | ⟨2, _⟩ => rfl
  rw [val_main_v30_apply, val_main_cst_2_apply, Ideal.ofBits_def, Ideal.ofBits_zero_f32, zero_add]
  exact Finset.sum_congr rfl fun k _ => by rw [e k, val_main_v29_apply, cmT_eq]; rfl

/-- The concept vector scaled by the reciprocal root of the floored sum of squares. -/
theorem cmn_eq (b : Fin 4096) (c : Fin 16) (l : Fin 128) :
    val_main_v36 (F := Ideal) a0 a1 a2 a3 a4 a5 a6 (ix3 b c l)
      = Spec.cmn Xf FPf MEANf WG1f BG1f WG2f BG2f c b l := by
  have e : idx_main_v31 (idx_main_v35 (ix3 b c l)) = ix2 b l := by
    funext a; match a with | ⟨0, _⟩ => rfl | ⟨1, _⟩ => rfl
  rw [val_main_v36_apply, cmT_eq, val_main_v35_apply, val_main_v34_apply, val_main_v33_apply,
    val_main_v31_apply, e, sq_eq, val_main_v32_apply, val_main_cst_3_apply]
  rfl

/-- The hidden layer of the shared map: the product contracts the feature axis against one matrix for all concepts. -/
theorem hidF_eq (c : Fin 16) (b : Fin 4096) (h : Fin 512) :
    val_main_v41 (F := Ideal) a0 a1 a2 a7 a8 (ix3 c b h) = Spec.hidF Xf FPf MEANf WF1f BF1f c b h := by
  have el : ∀ k : Fin 2048, lidx_main_v37 (ix3 c b h) k = ix3 c b k := fun k => by
    funext a; match a with | ⟨0, _⟩ => rfl | ⟨1, _⟩ => rfl | ⟨2, _⟩ => rfl
  have er : ∀ k : Fin 2048, ridx_main_v37 (ix3 c b h) k = ix2 k h := fun k => by
    funext a; match a with | ⟨0, _⟩ => rfl | ⟨1, _⟩ => rfl
  have eb : idx_main_v38 (idx_main_v39 (ix3 c b h)) = ix1 h := by
    funext a; match a with | ⟨0, _⟩ => rfl
  have hs : val_main_v37 (F := Ideal) a0 a1 a2 a7 (ix3 c b h)
      = ∑ d : Fin 2048, Spec.masked Xf FPf MEANf c b d * a7 (ix2 d h) := by
    rw [val_main_v37_apply]
    exact Finset.sum_congr rfl fun k _ => by rw [el k, er k, masked_eq]
  rw [val_main_v41_apply, val_main_v40_apply, hs, val_main_call1_v0_apply, val_main_call1_cst_apply,
    val_main_v39_apply, val_main_v38_apply, eb, Ideal.ofBits_def, Ideal.ofBits_zero_f32]
  rfl

/-- The latent vector, in the product's own layout [C, B, L]. -/
theorem lat_eq (c : Fin 16) (b : Fin 4096) (l : Fin 128) :
    val_main_v45 (F := Ideal) a0 a1 a2 a7 a8 a9 a10 (ix3 c b l)
      = Spec.lat Xf FPf MEANf WF1f BF1f WF2f BF2f c b l := by
  have el : ∀ k : Fin 512, lidx_main_v42 (ix3 c b l) k = ix3 c b k := fun k => by
    funext a; match a with | ⟨0, _⟩ => rfl | ⟨1, _⟩ => rfl | ⟨2, _⟩ => rfl
  have er : ∀ k : Fin 512, ridx_main_v42 (ix3 c b l) k = ix2 k l := fun k => by
    funext a; match a with | ⟨0, _⟩ => rfl | ⟨1, _⟩ => rfl
  have eb : idx_main_v43 (idx_main_v44 (ix3 c b l)) = ix1 l := by
    funext a; match a with | ⟨0, _⟩ => rfl
  have hs : val_main_v42 (F := Ideal) a0 a1 a2 a7 a8 a9 (ix3 c b l)
      = ∑ h : Fin 512, Spec.hidF Xf FPf MEANf WF1f BF1f c b h * a9 (ix2 h l) := by
    rw [val_main_v42_apply]
    exact Finset.sum_congr rfl fun k _ => by rw [el k, er k, hidF_eq]
  rw [val_main_v45_apply, hs, val_main_v44_apply, val_main_v43_apply, eb]
  rfl

/-- The latent vector after the transpose to [B, C, L]. -/
theorem latT_eq (b : Fin 4096) (c : Fin 16) (l : Fin 128) :
    val_main_v46 (F := Ideal) a0 a1 a2 a7 a8 a9 a10 (ix3 b c l)
      = Spec.lat Xf FPf MEANf WF1f BF1f WF2f BF2f c b l := by
  have e : idx_main_v46 (ix3 b c l) = ix3 c b l := by
    funext a; match a with | ⟨0, _⟩ => rfl | ⟨1, _⟩ => rfl | ⟨2, _⟩ => rfl
  rw [val_main_v46_apply, e, lat_eq]

local notation "sProb" => Spec.prob Xf FPf MEANf WG1f BG1f WG2f BG2f WF1f BF1f WF2f BF2f
local notation "sCmn" => Spec.cmn Xf FPf MEANf WG1f BG1f WG2f BG2f

/-- The concept's probability: the logistic function of the inner product over the 128 lanes. -/
theorem prob_eq (b : Fin 4096) (c : Fin 16) :
    val_main_v54 (F := Ideal) a0 a1 a2 a3 a4 a5 a6 a7 a8 a9 a10 (ix2 b c) = sProb c b := by
  have e : ∀ k : Fin 128, idx_main_v48 (ix2 b c) k = ix3 b c k := fun k => by
    funext a; match a with | ⟨0, _⟩ => rfl | ⟨1, _⟩ => rfl | ⟨2, _⟩ => rfl
  have hs : val_main_v48 (F := Ideal) a0 a1 a2 a3 a4 a5 a6 a7 a8 a9 a10 (ix2 b c)
      = ∑ l : Fin 128, sCmn c b l * Spec.lat Xf FPf MEANf WF1f BF1f WF2f BF2f c b l := by
    rw [val_main_v48_apply, val_main_cst_4_apply, Ideal.ofBits_def, Ideal.ofBits_zero_f32, zero_add]
    exact Finset.sum_congr rfl fun k _ => by rw [e k, val_main_v47_apply, cmn_eq, latT_eq]; rfl
  rw [val_main_v54_apply, val_main_v53_apply, val_main_cst_6_apply, val_main_v52_apply, val_main_v51_apply,
    val_main_cst_5_apply, val_main_v50_apply, val_main_v49_apply, hs]
  simp only [Ideal.hostDivf_def, Ideal.addf_def, Ideal.hostUnary_exp_def, Ideal.hostNegf_def, Ideal.negf_def,
    Ideal.ofBits_def, Ideal.ofBits_one_f32]
  rfl

/-- The bottleneck before it is laid out flat: lane 64 + j and lane j of concept c mixed by its probability. -/
theorem bott3_eq (b : Fin 4096) (c : Fin 16) (j : Fin 64) :
    val_main_v64 (F := Ideal) a0 a1 a2 a3 a4 a5 a6 a7 a8 a9 a10 (ix3 b c j)
      = sProb c b * sCmn c b ⟨j.val + 64, by omega⟩ + (Spec.one - sProb c b) * sCmn c b ⟨j.val, by omega⟩ := by
  have e1 : idx_main_v55 (idx_main_v57 (ix3 b c j)) = ix2 b c := by
    funext a; match a with | ⟨0, _⟩ => rfl | ⟨1, _⟩ => rfl
  have e2 : idx_main_v56 (ix3 b c j) = ix3 b c (⟨j.val + 64, by omega⟩ : Fin 128) := by
    funext a; match a with | ⟨0, _⟩ => rfl | ⟨1, _⟩ => rfl | ⟨2, _⟩ => exact Fin.ext (Nat.add_comm 64 j.val)
  have e3 : idx_main_v55 (idx_main_v62 (ix3 b c j)) = ix2 b c := by
    funext a; match a with | ⟨0, _⟩ => rfl | ⟨1, _⟩ => rfl
  have e4 : idx_main_v61 (ix3 b c j) = ix3 b c (⟨j.val, by omega⟩ : Fin 128) := by
    funext a; match a with | ⟨0, _⟩ => rfl | ⟨1, _⟩ => rfl | ⟨2, _⟩ => rfl
  rw [val_main_v64_apply, val_main_v58_apply, val_main_v57_apply, val_main_v55_apply, e1, prob_eq,
    val_main_v56_apply, e2, cmn_eq, val_main_v63_apply, val_main_v62_apply, val_main_v60_apply,
    val_main_v59_apply, val_main_cst_7_apply, val_main_v55_apply, e3, prob_eq, val_main_v61_apply, e4, cmn_eq]
  rfl

/-- The bottleneck laid out flat: row-major, q = 64·c + j. -/
theorem bott_eq (b : Fin 4096) (q : Fin 1024) :
    val_main_v65 (F := Ideal) a0 a1 a2 a3 a4 a5 a6 a7 a8 a9 a10 (ix2 b q)
      = Spec.bott Xf FPf MEANf WG1f BG1f WG2f BG2f WF1f BF1f WF2f BF2f b q := by
  have e : idx_main_v65 (ix2 b q) = ix3 b (⟨q.val / 64, by omega⟩ : Fin 16) (⟨q.val % 64, by omega⟩ : Fin 64) := by
    funext a
    match a with
    | ⟨0, _⟩ => exact Fin.ext (by show (b.val * 1024 + q.val) / 1024 = b.val; omega)
    | ⟨1, _⟩ => exact Fin.ext (by show (b.val * 1024 + q.val) / 64 % 16 = q.val / 64; omega)
    | ⟨2, _⟩ => exact Fin.ext (by show (b.val * 1024 + q.val) % 64 = q.val % 64; omega)
  rw [val_main_v65_apply, e, bott3_eq]
  rfl

/-- The head's hidden layer. -/
theorem zFlat_eq (b : Fin 4096) (g : Fin 128) :
    val_main_v70 (F := Ideal) a0 a1 a2 a3 a4 a5 a6 a7 a8 a9 a10 a11 a12 (ix2 b g)
      = Spec.zFlat Xf FPf MEANf WG1f BG1f WG2f BG2f WF1f BF1f WF2f BF2f WHf BHf b g := by
  have el : ∀ k : Fin 1024, lidx_main_v66 (ix2 b g) k = ix2 b k := fun k => by
    funext a; match a with | ⟨0, _⟩ => rfl | ⟨1, _⟩ => rfl
  have er : ∀ k : Fin 1024, ridx_main_v66 (ix2 b g) k = ix2 k g := fun k => by
    funext a; match a with | ⟨0, _⟩ => rfl | ⟨1, _⟩ => rfl
  have eb : idx_main_v67 (idx_main_v68 (ix2 b g)) = ix1 g := by
    funext a; match a with | ⟨0, _⟩ => rfl
  have hs : val_main_v66 (F := Ideal) a0 a1 a2 a3 a4 a5 a6 a7 a8 a9 a10 a11 (ix2 b g)
      = ∑ q : Fin 1024, Spec.bott Xf FPf MEANf WG1f BG1f WG2f BG2f WF1f BF1f WF2f BF2f b q * a11 (ix2 q g) := by
    rw [val_main_v66_apply]
    exact Finset.sum_congr rfl fun k _ => by rw [el k, er k, bott_eq]
  rw [val_main_v70_apply, val_main_v69_apply, hs, val_main_call2_v0_apply, val_main_call2_cst_apply,
    val_main_v68_apply, val_main_v67_apply, eb, Ideal.ofBits_def, Ideal.ofBits_zero_f32]
  rfl

/-- The result at row b, class n. -/
theorem out_eq (b : Fin 4096) (n : Fin 200) :
    val_main_v74 (F := Ideal) a0 a1 a2 a3 a4 a5 a6 a7 a8 a9 a10 a11 a12 a13 a14 (ix2 b n)
      = Spec.outFlat Xf FPf MEANf WG1f BG1f WG2f BG2f WF1f BF1f WF2f BF2f WHf BHf WCf BCf b n := by
  have el : ∀ k : Fin 128, lidx_main_v71 (ix2 b n) k = ix2 b k := fun k => by
    funext a; match a with | ⟨0, _⟩ => rfl | ⟨1, _⟩ => rfl
  have er : ∀ k : Fin 128, ridx_main_v71 (ix2 b n) k = ix2 k n := fun k => by
    funext a; match a with | ⟨0, _⟩ => rfl | ⟨1, _⟩ => rfl
  have eb : idx_main_v72 (idx_main_v73 (ix2 b n)) = ix1 n := by
    funext a; match a with | ⟨0, _⟩ => rfl
  have hs : val_main_v71 (F := Ideal) a0 a1 a2 a3 a4 a5 a6 a7 a8 a9 a10 a11 a12 a13 (ix2 b n)
      = ∑ g : Fin 128, Spec.zFlat Xf FPf MEANf WG1f BG1f WG2f BG2f WF1f BF1f WF2f BF2f WHf BHf b g * a13 (ix2 g n) := by
    rw [val_main_v71_apply]
    exact Finset.sum_congr rfl fun k _ => by rw [el k, er k, zFlat_eq]
  rw [val_main_v74_apply, hs, val_main_v73_apply, val_main_v72_apply, eb]
  rfl

/-- The reference's result, as a whole array, is the specification's function of the argument arrays. -/
theorem result_eq :
    val_main_v74 (F := Ideal) a0 a1 a2 a3 a4 a5 a6 a7 a8 a9 a10 a11 a12 a13 a14
      = fun i => Cert.Spec.outFlat (fun b d => a0 (ix2 b d)) (fun c d => a1 (ix2 c d)) (fun d => a2 (ix1 d))
          (fun c d h => a3 (ix3 c d h)) (fun c h => a4 (ix2 c h)) (fun c h l => a5 (ix3 c h l))
          (fun c l => a6 (ix2 c l)) (fun d h => a7 (ix2 d h)) (fun h => a8 (ix1 h)) (fun h l => a9 (ix2 h l))
          (fun l => a10 (ix1 l)) (fun q g => a11 (ix2 q g)) (fun g => a12 (ix1 g)) (fun g n => a13 (ix2 g n))
          (fun n => a14 (ix1 n)) (i 0) (i 1) := by
  funext i
  obtain ⟨b, n, rfl⟩ : ∃ (b : Fin 4096) (n : Fin 200), i = ix2 b n := ⟨i 0, i 1, eq_ix2 i⟩
  exact out_eq a0 a1 a2 a3 a4 a5 a6 a7 a8 a9 a10 a11 a12 a13 a14 b n

end Cert.ReferenceIdeal.RefStages

end
-- ==== Proof.lean ====
/-
  The claim: the three frames, the idealization, and the equality of the two idealized programs' results.

  The two kernels' frames are their frame certificates, whose body runs are read in closed form so that what the
  scratch buffers hold at a grid point's entry does not enter what the point leaves. The reference's frame is its run
  with the result dropped. The idealization rewrote nothing. For the equality, the idealized kernel ends with its
  result at the network's function of the argument arrays (the launch writes, 256 rows at a time, what each grid point
  leaves; the result is the leading 200 columns), the reference ends at the same function (stage by stage), and the
  two memories agree on the arguments.
-/
import proofs.«168377_j46110768889918_2_alg».proof.Defs
import proofs.«168377_j46110768889918_2_alg».proof.Proof.Gen.Kernel
import proofs.«168377_j46110768889918_2_alg».proof.Proof.Gen.KernelIdeal
import proofs.«168377_j46110768889918_2_alg».proof.Proof.Gen.ReferenceIdeal
import proofs.«168377_j46110768889918_2_alg».proof.Proof.Gen.Pre_finite_inputs
import proofs.«168377_j46110768889918_2_alg».proof.Proof.KernelFrame
import proofs.«168377_j46110768889918_2_alg».proof.Proof.KernelIdealFrame
import proofs.«168377_j46110768889918_2_alg».proof.Proof.KernelValue
import proofs.«168377_j46110768889918_2_alg».proof.Proof.RefStages
import Idealize.ShloMosaic.Adequacy
import Idealize.ShloMosaic.Init

set_option maxRecDepth 16384

noncomputable section

namespace Cert.Proof

open Idealize.ShloMosaic Idealize.SL.Sem Idealize.ShloMosaic.ValueIdx

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2) (Cert.ReferenceIdeal.Value.run (F := Ideal) m ρ),
  trivial,
  fun m ρ m' ρ' _ hagree => ⟨fun c => Cert.KernelIdeal.KernelValue.result m c, Cert.KernelIdeal.KernelValue.run m ρ,
    (θ_run Cert.ReferenceIdeal.defs _ _).mono (fun _ h c => ⟨by
        obtain ⟨e0, e1, e2, e3, e4, e5, e6, e7, e8, e9, e10, e11, e12, e13, e14⟩ := hagree c
        rw [(h c).1, Cert.ReferenceIdeal.Read.val_main_v74_eq, Cert.ReferenceIdeal.RefStages.result_eq, e0, e1, e2, e3, e4, e5, e6, e7, e8, e9, e10, e11, e12, e13, e14]
        rfl, (h c).2⟩)
      (Cert.ReferenceIdeal.Value.run (F := Ideal) m' ρ')⟩⟩

end Cert.Proof

end
